-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S1600000 .f32) (main_arg3 : FVec F S3x128x128 .f32) (main_arg4 : FVec F S3x128x128 .f32) (main_arg5 : FVec F S3x128 .f32) (main_arg6 : FVec F S3x128 .f32) (main_arg7 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩
abbrev S4000 : Shape := ⟨1, ![4000]⟩
abbrev S4000x1 : Shape := ⟨2, ![4000, 1]⟩

abbrev nBuf : Space → Nat
  | .hbm => 141
  | .vmem => 33
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x128, .f32⟩
  | 4 => ⟨S3x128x128, .f32⟩
  | 5 => ⟨S3x128, .f32⟩
  | 6 => ⟨S3x128, .f32⟩
  | 7 => ⟨S3x128, .f32⟩
  | 8 => ⟨S1x1600000, .i32⟩
  | 9 => ⟨S1600000, .i32⟩
  | 10 => ⟨S1x1600000, .i32⟩
  | 11 => ⟨S1600000, .i32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x1, .f32⟩
  | 22 => ⟨S1600000x128, .f32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S1x128x128, .f32⟩
  | 40 => ⟨S128x128, .f32⟩
  | 41 => ⟨S128x128, .f32⟩
  | 42 => ⟨S1x128x128, .f32⟩
  | 43 => ⟨S128x128, .f32⟩
  | 44 => ⟨S128x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128, .f32⟩
  | 52 => ⟨S128, .f32⟩
  | 53 => ⟨S1x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S1x128x128, .f32⟩
  | 83 => ⟨S128x128, .f32⟩
  | 84 => ⟨S128x128, .f32⟩
  | 85 => ⟨S1x128x128, .f32⟩
  | 86 => ⟨S128x128, .f32⟩
  | 87 => ⟨S128x128, .f32⟩
  | 88 => ⟨S1x128, .f32⟩
  | 89 => ⟨S128, .f32⟩
  | 90 => ⟨S1x128, .f32⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S1600000x1, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S_, .f32⟩
  | 115 => ⟨S100000, .f32⟩
  | 116 => ⟨S1600000x1, .i32⟩
  | 117 => ⟨S100000, .f32⟩
  | 118 => ⟨S_, .f32⟩
  | 119 => ⟨S_, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S1x128x128, .f32⟩
  | 126 => ⟨S128x128, .f32⟩
  | 127 => ⟨S128x128, .f32⟩
  | _ => ⟨S100000x128, .f32⟩

abbrev hbmTy0_1 (i : Nat) : BufTy := match i % 128 with
  | 0 => ⟨S1x128x128, .f32⟩
  | 1 => ⟨S128x128, .f32⟩
  | 2 => ⟨S128x128, .f32⟩
  | 3 => ⟨S1x128, .f32⟩
  | 4 => ⟨S128, .f32⟩
  | 5 => ⟨S1x128, .f32⟩
  | 6 => ⟨S1x128, .f32⟩
  | 7 => ⟨S128, .f32⟩
  | 8 => ⟨S1x128, .f32⟩
  | 9 => ⟨S1x128, .f32⟩
  | 10 => ⟨S128, .f32⟩
  | 11 => ⟨S1x128, .f32⟩
  | 12 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S4000x128, .f32⟩
  | .local _ .vmem, ⟨32, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_3 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_call1_v0 : Ref sig .tc := ⟨.hbm, 76, rfl⟩
abbrev main_call1_v1 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_8 : Ref sig .tc := ⟨.hbm, 98, rfl⟩
abbrev main_v76 : Ref sig .tc := ⟨.hbm, 99, rfl⟩
abbrev main_v77 : Ref sig .tc := ⟨.hbm, 100, rfl⟩
abbrev main_c_9 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_10 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_11 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_12 : Ref sig .tc := ⟨.hbm, 118, rfl⟩
abbrev main_call2_v0 : Ref sig .tc := ⟨.hbm, 119, rfl⟩
abbrev main_call2_v1 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .f32 = 32 ∨ (Rect.block (s := S100000x128) S4000x128.size (cc2_transform_7 i) (hinb2_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v23) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v59) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v75) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v95) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v98) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v101) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v104) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v107) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v110) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v111) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S3x128x128 : Shape := ⟨3, ![3, 128, 128]⟩
abbrev S3x128 : Shape := ⟨2, ![3, 128]⟩
abbrev S1x1600000 : Shape := ⟨2, ![1, 1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 288
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x128, .f32⟩
  | 4 => ⟨S3x128x128, .f32⟩
  | 5 => ⟨S3x128, .f32⟩
  | 6 => ⟨S3x128, .f32⟩
  | 7 => ⟨S3x128, .f32⟩
  | 8 => ⟨S1x1600000, .i32⟩
  | 9 => ⟨S1600000, .i32⟩
  | 10 => ⟨S1x1600000, .i32⟩
  | 11 => ⟨S1600000, .i32⟩
  | 12 => ⟨S1x128x128, .f32⟩
  | 13 => ⟨S128x128, .f32⟩
  | 14 => ⟨S1x128x128, .f32⟩
  | 15 => ⟨S128x128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1600000x1, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S128x128, .f32⟩
  | 50 => ⟨S100000x128, .f32⟩
  | 51 => ⟨S128x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S_, .i32⟩
  | 67 => ⟨S_, .f32⟩
  | 68 => ⟨S100000, .f32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S100000x128, .f32⟩
  | 76 => ⟨S_, .f32⟩
  | 77 => ⟨S_, .f32⟩
  | 78 => ⟨S_, .f32⟩
  | 79 => ⟨S_, .f32⟩
  | 80 => ⟨S100000, .f32⟩
  | 81 => ⟨S100000x1, .f32⟩
  | 82 => ⟨S100000x1, .f32⟩
  | 83 => ⟨S100000x1, .f32⟩
  | 84 => ⟨S_, .f32⟩
  | 85 => ⟨S_, .i1⟩
  | 86 => ⟨S_, .f32⟩
  | 87 => ⟨S_, .f32⟩
  | 88 => ⟨S100000x1, .f32⟩
  | 89 => ⟨S100000x1, .f32⟩
  | 90 => ⟨S100000x128, .f32⟩
  | 91 => ⟨S100000x128, .f32⟩
  | 92 => ⟨S_, .f32⟩
  | 93 => ⟨S100000x1, .f32⟩
  | 94 => ⟨S100000x1, .f32⟩
  | 95 => ⟨S100000x1, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128x128, .f32⟩
  | 105 => ⟨S128x128, .f32⟩
  | 106 => ⟨S1x128x128, .f32⟩
  | 107 => ⟨S128x128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1600000x1, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S1600000x128, .f32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S_, .f32⟩
  | 3 => ⟨S100000, .f32⟩
  | 4 => ⟨S1600000x1, .i32⟩
  | 5 => ⟨S100000, .f32⟩
  | 6 => ⟨S_, .f32⟩
  | 7 => ⟨S_, .f32⟩
  | 8 => ⟨S100000, .f32⟩
  | 9 => ⟨S100000, .f32⟩
  | 10 => ⟨S100000x1, .f32⟩
  | 11 => ⟨S100000x128, .f32⟩
  | 12 => ⟨S100000x128, .f32⟩
  | 13 => ⟨S128x128, .f32⟩
  | 14 => ⟨S100000x128, .f32⟩
  | 15 => ⟨S128x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S_, .f32⟩
  | 25 => ⟨S100000, .f32⟩
  | 26 => ⟨S100000x1, .f32⟩
  | 27 => ⟨S_, .f32⟩
  | 28 => ⟨S100000x1, .f32⟩
  | 29 => ⟨S100000x1, .f32⟩
  | 30 => ⟨S_, .i32⟩
  | 31 => ⟨S_, .f32⟩
  | 32 => ⟨S100000, .f32⟩
  | 33 => ⟨S100000x1, .f32⟩
  | 34 => ⟨S_, .f32⟩
  | 35 => ⟨S100000x1, .f32⟩
  | 36 => ⟨S100000x1, .f32⟩
  | 37 => ⟨S100000x128, .f32⟩
  | 38 => ⟨S100000x128, .f32⟩
  | 39 => ⟨S100000x128, .f32⟩
  | 40 => ⟨S_, .f32⟩
  | 41 => ⟨S_, .f32⟩
  | 42 => ⟨S_, .f32⟩
  | 43 => ⟨S_, .f32⟩
  | 44 => ⟨S100000, .f32⟩
  | 45 => ⟨S100000x1, .f32⟩
  | 46 => ⟨S100000x1, .f32⟩
  | 47 => ⟨S100000x1, .f32⟩
  | 48 => ⟨S_, .f32⟩
  | 49 => ⟨S_, .i1⟩
  | 50 => ⟨S_, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S_, .f32⟩
  | 57 => ⟨S100000x1, .f32⟩
  | 58 => ⟨S100000x1, .f32⟩
  | 59 => ⟨S100000x1, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S1x128x128, .f32⟩
  | 69 => ⟨S128x128, .f32⟩
  | 70 => ⟨S1x128x128, .f32⟩
  | 71 => ⟨S128x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S_, .f32⟩
  | 95 => ⟨S100000, .f32⟩
  | 96 => ⟨S1600000x1, .i32⟩
  | 97 => ⟨S100000, .f32⟩
  | 98 => ⟨S_, .f32⟩
  | 99 => ⟨S_, .f32⟩
  | 100 => ⟨S100000, .f32⟩
  | 101 => ⟨S100000, .f32⟩
  | 102 => ⟨S100000x1, .f32⟩
  | 103 => ⟨S100000x128, .f32⟩
  | 104 => ⟨S100000x128, .f32⟩
  | 105 => ⟨S128x128, .f32⟩
  | 106 => ⟨S100000x128, .f32⟩
  | 107 => ⟨S128x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S100000, .f32⟩
  | 118 => ⟨S100000x1, .f32⟩
  | 119 => ⟨S_, .f32⟩
  | 120 => ⟨S100000x1, .f32⟩
  | 121 => ⟨S100000x1, .f32⟩
  | 122 => ⟨S_, .i32⟩
  | 123 => ⟨S_, .f32⟩
  | 124 => ⟨S100000, .f32⟩
  | 125 => ⟨S100000x1, .f32⟩
  | 126 => ⟨S_, .f32⟩
  | 127 => ⟨S100000x1, .f32⟩
  | _ => ⟨S100000x128, .f32⟩

abbrev hbmTy0_2 (i : Nat) : BufTy := match i % 128 with
  | 0 => ⟨S100000x1, .f32⟩
  | 1 => ⟨S100000x128, .f32⟩
  | 2 => ⟨S100000x128, .f32⟩
  | 3 => ⟨S100000x128, .f32⟩
  | 4 => ⟨S_, .f32⟩
  | 5 => ⟨S_, .f32⟩
  | 6 => ⟨S_, .f32⟩
  | 7 => ⟨S_, .f32⟩
  | 8 => ⟨S100000, .f32⟩
  | 9 => ⟨S100000x1, .f32⟩
  | 10 => ⟨S100000x1, .f32⟩
  | 11 => ⟨S100000x1, .f32⟩
  | 12 => ⟨S_, .f32⟩
  | 13 => ⟨S_, .i1⟩
  | 14 => ⟨S_, .f32⟩
  | 15 => ⟨S_, .f32⟩
  | 16 => ⟨S100000x1, .f32⟩
  | 17 => ⟨S100000x1, .f32⟩
  | 18 => ⟨S100000x128, .f32⟩
  | 19 => ⟨S100000x128, .f32⟩
  | 20 => ⟨S_, .f32⟩
  | 21 => ⟨S100000x1, .f32⟩
  | 22 => ⟨S100000x1, .f32⟩
  | 23 => ⟨S100000x1, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call1_cst : Ref sig .tc := ⟨.hbm, 57, rfl⟩
abbrev main_call1_v0 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_cst_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_cst_1 : Ref sig .tc := ⟨.hbm, 77, rfl⟩
abbrev main_call2_v8 : Ref sig .tc := ⟨.hbm, 78, rfl⟩
abbrev main_call2_cst_2 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_cst_3 : Ref sig .tc := ⟨.hbm, 84, rfl⟩
abbrev main_call2_v13 : Ref sig .tc := ⟨.hbm, 85, rfl⟩
abbrev main_call2_cst_4 : Ref sig .tc := ⟨.hbm, 86, rfl⟩
abbrev main_call2_call0_v0 : Ref sig .tc := ⟨.hbm, 87, rfl⟩
abbrev main_call2_call0_v1 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_6 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_7 : Ref sig .tc := ⟨.hbm, 115, rfl⟩
abbrev main_v72 : Ref sig .tc := ⟨.hbm, 116, rfl⟩
abbrev main_v73 : Ref sig .tc := ⟨.hbm, 117, rfl⟩
abbrev main_c_8 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_9 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_10 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_11 : Ref sig .tc := ⟨.hbm, 134, rfl⟩
abbrev main_call3_v0 : Ref sig .tc := ⟨.hbm, 135, rfl⟩
abbrev main_call3_v1 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_call4_cst : Ref sig .tc := ⟨.hbm, 149, rfl⟩
abbrev main_call4_v0 : Ref sig .tc := ⟨.hbm, 150, rfl⟩
abbrev main_v99 : Ref sig .tc := ⟨.hbm, 151, rfl⟩
abbrev main_cst_12 : Ref sig .tc := ⟨.hbm, 152, rfl⟩
abbrev main_v100 : Ref sig .tc := ⟨.hbm, 153, rfl⟩
abbrev main_v101 : Ref sig .tc := ⟨.hbm, 154, rfl⟩
abbrev main_cst_13 : Ref sig .tc := ⟨.hbm, 155, rfl⟩
abbrev main_v102 : Ref sig .tc := ⟨.hbm, 156, rfl⟩
abbrev main_v103 : Ref sig .tc := ⟨.hbm, 157, rfl⟩
abbrev main_c_14 : Ref sig .tc := ⟨.hbm, 158, rfl⟩
abbrev main_call5_cst : Ref sig .tc := ⟨.hbm, 159, rfl⟩
abbrev main_call5_v0 : Ref sig .tc := ⟨.hbm, 160, rfl⟩
abbrev main_call5_v1 : Ref sig .tc := ⟨.hbm, 161, rfl⟩
abbrev main_call5_cst_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_v6 : Ref sig .tc := ⟨.hbm, 167, rfl⟩
abbrev main_call5_v7 : Ref sig .tc := ⟨.hbm, 168, rfl⟩
abbrev main_call5_cst_1 : Ref sig .tc := ⟨.hbm, 169, rfl⟩
abbrev main_call5_v8 : Ref sig .tc := ⟨.hbm, 170, rfl⟩
abbrev main_call5_cst_2 : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_v12 : Ref sig .tc := ⟨.hbm, 175, rfl⟩
abbrev main_call5_cst_3 : Ref sig .tc := ⟨.hbm, 176, rfl⟩
abbrev main_call5_v13 : Ref sig .tc := ⟨.hbm, 177, rfl⟩
abbrev main_call5_cst_4 : Ref sig .tc := ⟨.hbm, 178, rfl⟩
abbrev main_call5_call0_v0 : Ref sig .tc := ⟨.hbm, 179, rfl⟩
abbrev main_call5_call0_v1 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_15 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_c_16 : Ref sig .tc := ⟨.hbm, 207, rfl⟩
abbrev main_v129 : Ref sig .tc := ⟨.hbm, 208, rfl⟩
abbrev main_v130 : Ref sig .tc := ⟨.hbm, 209, rfl⟩
abbrev main_c_17 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_cst_18 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_cst_19 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_20 : Ref sig .tc := ⟨.hbm, 226, rfl⟩
abbrev main_call6_v0 : Ref sig .tc := ⟨.hbm, 227, rfl⟩
abbrev main_call6_v1 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_call7_cst : Ref sig .tc := ⟨.hbm, 241, rfl⟩
abbrev main_call7_v0 : Ref sig .tc := ⟨.hbm, 242, rfl⟩
abbrev main_v156 : Ref sig .tc := ⟨.hbm, 243, rfl⟩
abbrev main_cst_21 : Ref sig .tc := ⟨.hbm, 244, rfl⟩
abbrev main_v157 : Ref sig .tc := ⟨.hbm, 245, rfl⟩
abbrev main_v158 : Ref sig .tc := ⟨.hbm, 246, rfl⟩
abbrev main_cst_22 : Ref sig .tc := ⟨.hbm, 247, rfl⟩
abbrev main_v159 : Ref sig .tc := ⟨.hbm, 248, rfl⟩
abbrev main_v160 : Ref sig .tc := ⟨.hbm, 249, rfl⟩
abbrev main_c_23 : Ref sig .tc := ⟨.hbm, 250, rfl⟩
abbrev main_call8_cst : Ref sig .tc := ⟨.hbm, 251, rfl⟩
abbrev main_call8_v0 : Ref sig .tc := ⟨.hbm, 252, rfl⟩
abbrev main_call8_v1 : Ref sig .tc := ⟨.hbm, 253, rfl⟩
abbrev main_call8_cst_0 : Ref sig .tc := ⟨.hbm, 254, rfl⟩
abbrev main_call8_v2 : Ref sig .tc := ⟨.hbm, 255, rfl⟩
abbrev main_call8_v3 : Ref sig .tc := ⟨.hbm, 256, rfl⟩
abbrev main_call8_v4 : Ref sig .tc := ⟨.hbm, 257, rfl⟩
abbrev main_call8_v5 : Ref sig .tc := ⟨.hbm, 258, rfl⟩
abbrev main_call8_v6 : Ref sig .tc := ⟨.hbm, 259, rfl⟩
abbrev main_call8_v7 : Ref sig .tc := ⟨.hbm, 260, rfl⟩
abbrev main_call8_cst_1 : Ref sig .tc := ⟨.hbm, 261, rfl⟩
abbrev main_call8_v8 : Ref sig .tc := ⟨.hbm, 262, rfl⟩
abbrev main_call8_cst_2 : Ref sig .tc := ⟨.hbm, 263, rfl⟩
abbrev main_call8_v9 : Ref sig .tc := ⟨.hbm, 264, rfl⟩
abbrev main_call8_v10 : Ref sig .tc := ⟨.hbm, 265, rfl⟩
abbrev main_call8_v11 : Ref sig .tc := ⟨.hbm, 266, rfl⟩
abbrev main_call8_v12 : Ref sig .tc := ⟨.hbm, 267, rfl⟩
abbrev main_call8_cst_3 : Ref sig .tc := ⟨.hbm, 268, rfl⟩
abbrev main_call8_v13 : Ref sig .tc := ⟨.hbm, 269, rfl⟩
abbrev main_call8_cst_4 : Ref sig .tc := ⟨.hbm, 270, rfl⟩
abbrev main_call8_call0_v0 : Ref sig .tc := ⟨.hbm, 271, rfl⟩
abbrev main_call8_call0_v1 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_cst_24 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KerRun.lean ====
/-
  The idealized kernel program's run with its result named. The program is three launches of one Pallas kernel among
  stretches of host operations; the contents of every buffer at each boundary are the fold `W0 … W12` of the host
  operations and of the regions' write-backs over the launch memory. Every weakly fair execution terminates without a
  fault, and in the final state the result buffer holds the last boundary's contents `W12` there, the arguments what
  they held at launch.
-/
import proofs.«109972_j53034256171351_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, each argument as launched. The segments, the
    proof data and the thread states are the frame's; only what is read off the last thread state differs (the result
    buffer is an unscoped buffer like the arguments). -/
theorem run_result : θ_run defs (onTc (τ := τ) (main (F := F))) ⟨m, fun _ => 0, ρ⟩ (fun r => ∀ c : Dev nD,
      r.2.mem ((c.tc : Thread nD τ).loc main_v111) = W12 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v111 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Hand

end
-- ==== Proof.Spec.lean ====
/-
  The mathematics both programs compute, as functions of the argument arrays read index by index over the extended
  reals. One layer of the network takes the node features `x : [100000, 128]`, an aggregate `n` of them over the
  edges (a parameter here: both programs build it with the same host operations), and the layer's parameters, and
  returns, row by row,

    y(r, ·) = LN( relu( n(r, ·) · Wn + x(r, ·) · Wr + b ) ) · g + β,

  where `LN f = (f − mean f) · rsqrt (mean ((f − mean f)²) + ε)`, the means over the 128 lanes as a sum divided by
  the literal 128, and ε the literal `0x3727C5AC`. The network is three such layers, the parameters of layer `l`
  being slab `l` of the stacked arrays, the two weight matrices transposed.
-/
import Idealize.ShloMosaic.Lib.ValueIdx
import Idealize.ShloMosaic.PureOps.Ideal.Laws

noncomputable section

namespace Cert.Spec

open Idealize.ShloMosaic Idealize.ShloMosaic.ValueIdx
open scoped BigOperators

/-- Node features: 100000 rows of 128 lanes. -/
abbrev Nodes : Shape := ⟨2, ![100000, 128]⟩
/-- A weight matrix of one layer. -/
abbrev Sq : Shape := ⟨2, ![128, 128]⟩
/-- One row of 128 lanes (a bias, a gain, a shift). -/
abbrev Row : Shape := ⟨2, ![1, 128]⟩
/-- The stacked weight matrices of the three layers. -/
abbrev Sq3 : Shape := ⟨3, ![3, 128, 128]⟩
/-- The stacked rows of the three layers. -/
abbrev Row3 : Shape := ⟨2, ![3, 128]⟩

/-- The number of lanes as both programs write it: the float literal 128. -/
def lanes : EReal := Ideal.ofBits .f32 0x43000000#32
/-- The variance's guard against a zero: the float literal nearest 1e-5. -/
def eps : EReal := Ideal.ofBits .f32 0x3727C5AC#32

/-- The mean of 128 lanes: their sum divided by the literal 128. -/
def mean (f : Fin 128 → EReal) : EReal := Ideal.div (∑ q : Fin 128, f q) lanes

/-- The deviation of lane `q` from the mean. -/
def dev (f : Fin 128 → EReal) (q : Fin 128) : EReal := f q - mean f

/-- Layer normalisation of one row with gain `g` and shift `β`. -/
def norm (f g β : Fin 128 → EReal) (q : Fin 128) : EReal :=
  dev f q * Ideal.rsqrt (mean (fun q' => dev f q' * dev f q') + eps) * g q + β q

/-- The affine part of a layer at row `r`, lane `q`: both products and the bias. -/
def affine (n x : Nodes.Idx → EReal) (wn wr : Sq.Idx → EReal) (b : Row.Idx → EReal) (r : Fin 100000) (q : Fin 128) : EReal :=
  ((∑ k : Fin 128, n (ix2 r k) * wn (ix2 k q)) + ∑ k : Fin 128, x (ix2 r k) * wr (ix2 k q)) + b (ix2 (0 : Fin 1) q)

/-- One layer's dense stage on whole arrays: the positive part of the affine part, normalised row by row. -/
def combine (n x : Nodes.Idx → EReal) (wn wr : Sq.Idx → EReal) (b g β : Row.Idx → EReal) : Nodes.Idx → EReal :=
  fun i => norm (fun q => max (affine n x wn wr b (i 0) q) 0) (fun q => g (ix2 (0 : Fin 1) q)) (fun q => β (ix2 (0 : Fin 1) q)) (i 1)

/-- Slab `l` of a stack of weight matrices, transposed. -/
def slabT (w : Sq3.Idx → EReal) (l : Fin 3) : Sq.Idx → EReal := fun i => w (ix3 l (i 1) (i 0))
/-- Row `l` of a stack of rows, as a one-row matrix. -/
def slabRow (b : Row3.Idx → EReal) (l : Fin 3) : Row.Idx → EReal := fun i => b (ix2 l (i 1))

/-- Layer `l` over the aggregation `A`. -/
def layer (A : (Nodes.Idx → EReal) → Nodes.Idx → EReal) (l : Fin 3) (x : Nodes.Idx → EReal)
    (wn wr : Sq3.Idx → EReal) (b g β : Row3.Idx → EReal) : Nodes.Idx → EReal :=
  combine (A x) x (slabT wn l) (slabT wr l) (slabRow b l) (slabRow g l) (slabRow β l)

/-- The network: three layers, each fed the one before. -/
def net (A : (Nodes.Idx → EReal) → Nodes.Idx → EReal) (x : Nodes.Idx → EReal)
    (wn wr : Sq3.Idx → EReal) (b g β : Row3.Idx → EReal) : Nodes.Idx → EReal :=
  layer A 2 (layer A 1 (layer A 0 x wn wr b g β) wn wr b g β) wn wr b g β

/-- `combine` at explicit coordinates. -/
theorem combine_apply (n x : Nodes.Idx → EReal) (wn wr : Sq.Idx → EReal) (b g β : Row.Idx → EReal) (r : Fin 100000) (q : Fin 128) :
    combine n x wn wr b g β (ix2 r q)
      = norm (fun q => max (affine n x wn wr b r q) 0) (fun q => g (ix2 (0 : Fin 1) q)) (fun q => β (ix2 (0 : Fin 1) q)) q := rfl

end Cert.Spec

end
-- ==== Proof.KerHostDefs.lean ====
/-
  The host operations between the launches of the idealized kernel program, read as functions of what the buffers
  held before them. Before each launch the program builds, from the node features `x` of that layer, the edge list
  and the edge weights, the weighted mean of each node's in-neighbours' features — gather the source rows, scale each
  by its edge's weight, add them up per target node, divide by the target's summed weights clipped below at 1 — and
  cuts the layer's parameters out of the stacked arrays. The aggregation is kept as ONE function `aggK` of the
  features, the two index vectors and the weights, written with the program's own operations and never opened.
-/
import proofs.«109972_j53034256171351_1_alg».proof.Proof.Gen.KernelIdeal.Frame
import proofs.«109972_j53034256171351_1_alg».proof.Proof.Spec

set_option maxRecDepth 16384

noncomputable section

namespace Cert.KernelIdeal.Stretch

open Idealize.ShloMosaic Idealize.ShloMosaic.TcCoe Idealize.SL.Sem
open Cert.KernelIdeal Cert.KernelIdeal.Gen
open StableHlo

/-- The edge list: row 0 the sources, row 1 the targets. -/
abbrev EdgePair : Type := (⟨S2x1600000, .i32⟩ : BufTy).Contents (Elt Ideal)
/-- One index per edge. -/
abbrev EdgeIdx : Type := (⟨S1600000, .i32⟩ : BufTy).Contents (Elt Ideal)

/-- The edges' sources: row 0 of the edge list as a vector. -/
def srcOf (ei : EdgePair) : EdgeIdx :=
  shapeCast S1600000 (extractStridedSlice S1x1600000 ![0, 0] ei slices_S2x1600000_S1x1600000_0_0) shapeCasts_S1x1600000_S1600000
/-- The edges' targets: row 1 of the edge list as a vector. -/
def dstOf (ei : EdgePair) : EdgeIdx :=
  shapeCast S1600000 (extractStridedSlice S1x1600000 ![1, 0] ei slices_S2x1600000_S1x1600000_1_0) shapeCasts_S1x1600000_S1600000

/-- The weighted messages added up per target node. -/
def sumMsg (x : FVec Ideal S100000x128 .f32) (src dst : EdgeIdx) (ew : FVec Ideal S1600000 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The edge weights added up per target node. -/
def sumW (dst : EdgeIdx) (ew : FVec Ideal S1600000 .f32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst) ew

/-- The weighted mean over in-neighbours: the summed messages over the summed weights clipped below at 1. -/
def aggK (x : FVec Ideal S100000x128 .f32) (src dst : EdgeIdx) (ew : FVec Ideal S1600000 .f32) : FVec Ideal S100000x128 .f32 :=
  Host.divf (sumMsg x src dst ew)
    (broadcastInDim S100000x128 ![0, 1] bcast_S100000x1_S100000x128_0_1
      (broadcastInDim S100000x1 ![0] bcast_S100000_S100000x1_0
        (maximumf (broadcastInDim S100000 ![] bcast_S_S100000 (constant (F := Ideal) S_ .f32 0x3F800000#32)) (sumW dst ew))))

/-- Slab `o` of a stack of weight matrices, flattened and transposed, as the program writes it. -/
def cutT (o : ℕ) (hs : S3x128x128.Slices ![o, 0, 0] S1x128x128) (w : FVec Ideal S3x128x128 .f32) : FVec Ideal S128x128 .f32 :=
  transpose S128x128 [1, 0] (shapeCast S128x128 (extractStridedSlice S1x128x128 ![o, 0, 0] w hs) shapeCasts_S1x128x128_S128x128) transposes_S128x128_S128x128_1_0
/-- Row `o` of a stack of rows, flattened and stood up again as a one-row matrix, as the program writes it. -/
def cutRow (o : ℕ) (hs : S3x128.Slices ![o, 0] S1x128) (b : FVec Ideal S3x128 .f32) : FVec Ideal S1x128 .f32 :=
  shapeCast S1x128 (shapeCast S128 (extractStridedSlice S1x128 ![o, 0] b hs) shapeCasts_S1x128_S128) shapeCasts_S128_S1x128

end Cert.KernelIdeal.Stretch

end
-- ==== Proof.KerHost0.lean ====
/-
  The host operations before launch 0 of the idealized kernel program, read as functions of what the buffers held
  before them: the aggregate of the layer's input features (the summed messages, the summed weights, the clip and the
  quotient, each read where it is computed and then composed), the layer's parameters cut out of the stacked arrays,
  and the buffers these operations leave alone.
-/
import proofs.«109972_j53034256171351_1_alg».proof.Proof.KerHostDefs

set_option maxRecDepth 16384

noncomputable section

namespace Cert.KernelIdeal.Stretch

open Idealize.ShloMosaic Idealize.ShloMosaic.TcCoe Idealize.SL.Sem
open Cert.KernelIdeal Cert.KernelIdeal.Gen
open StableHlo

variable (X : Valuation τ sig (Elt Ideal))

/-! ## The aggregate, piece by piece -/

set_option maxHeartbeats 1000000 in
theorem msg0 : after (hostOps0 (F := Ideal)) X (Proc.devRef .tc main_v16)
    = sumMsg (X (Proc.devRef .tc main_arg0)) (srcOf (X (Proc.devRef .tc main_arg1))) (dstOf (X (Proc.devRef .tc main_arg1))) (X (Proc.devRef .tc main_arg2)) := by
  after_results_simp <;> rfl
set_option maxHeartbeats 1000000 in
theorem ws0 : after (hostOps0 (F := Ideal)) X (Proc.devRef .tc main_v19) = sumW (dstOf (X (Proc.devRef .tc main_arg1))) (X (Proc.devRef .tc main_arg2)) := by
  after_results_simp <;> rfl
theorem one0 : after (hostOps0 (F := Ideal)) X (Proc.devRef .tc main_cst_2) = constant (F := Ideal) S_ .f32 0x3F800000#32 := by
  after_results_simp <;> rfl
theorem clip0 : after (hostOps0_1 (F := Ideal)) X (Proc.devRef .tc main_v20)
    = (maximumf (broadcastInDim S100000 ![] bcast_S_S100000 (X (Proc.devRef .tc main_cst_2) : FVec Ideal S_ .f32)) (X (Proc.devRef .tc main_v19) : FVec Ideal S100000 .f32) : FVec Ideal S100000 .f32) := by
  after_results_simp <;> rfl
theorem clipKeeps0 : after (hostOps0_1 (F := Ideal)) X (Proc.devRef .tc main_v16) = X (Proc.devRef .tc main_v16) :=
  after_of_forall_not_mem _ _ (List.forall_iff_forall_mem.mp (by
    simp only [hostOps0_1, List.Forall, nullary_writes, unary_writes, binary_writes, ternary_writes, reshape_writes, Finset.mem_singleton]
    repeat' apply And.intro
    all_goals exact devRef_ne_of_ne (by decide)))
theorem div0 : after (hostOps0_2 (F := Ideal)) X (Proc.devRef .tc main_v23)
    = (Host.divf (X (Proc.devRef .tc main_v16) : FVec Ideal S100000x128 .f32) (broadcastInDim S100000x128 ![0, 1] bcast_S100000x1_S100000x128_0_1
        (broadcastInDim S100000x1 ![0] bcast_S100000_S100000x1_0 (X (Proc.devRef .tc main_v20) : FVec Ideal S100000 .f32))) : FVec Ideal S100000x128 .f32) := by
  after_results_simp <;> rfl

/-- The aggregate the launch finds: the weighted mean of the input features over in-neighbours. -/
theorem neigh0 : after (hostOps0_2 (F := Ideal)) (after hostOps0_1 (after hostOps0 X)) (Proc.devRef .tc main_v23)
    = aggK (X (Proc.devRef .tc main_arg0)) (srcOf (X (Proc.devRef .tc main_arg1))) (dstOf (X (Proc.devRef .tc main_arg1))) (X (Proc.devRef .tc main_arg2)) := by
  rw [div0, clipKeeps0, clip0, msg0, ws0, one0]
  rfl

/-! ## The layer's parameters -/

theorem wn0 : after (hostOps0_2 (F := Ideal)) (after hostOps0_1 (after hostOps0 X)) (Proc.devRef .tc main_v26) = cutT 0 slices_S3x128x128_S1x128x128_0_0_0 (X (Proc.devRef .tc main_arg3)) := by
  after_results_simp <;> rfl
theorem wr0 : after (hostOps0_2 (F := Ideal)) (after hostOps0_1 (after hostOps0 X)) (Proc.devRef .tc main_v29) = cutT 0 slices_S3x128x128_S1x128x128_0_0_0 (X (Proc.devRef .tc main_arg4)) := by
  after_results_simp <;> rfl
theorem b0 : after (hostOps0_2 (F := Ideal)) (after hostOps0_1 (after hostOps0 X)) (Proc.devRef .tc main_v32) = cutRow 0 slices_S3x128_S1x128_0_0 (X (Proc.devRef .tc main_arg5)) := by
  after_results_simp <;> rfl
theorem g0 : after (hostOps0_2 (F := Ideal)) (after hostOps0_1 (after hostOps0 X)) (Proc.devRef .tc main_v35) = cutRow 0 slices_S3x128_S1x128_0_0 (X (Proc.devRef .tc main_arg6)) := by
  after_results_simp <;> rfl
theorem be0 : after (hostOps0_2 (F := Ideal)) (after hostOps0_1 (after hostOps0 X)) (Proc.devRef .tc main_v38) = cutRow 0 slices_S3x128_S1x128_0_0 (X (Proc.devRef .tc main_arg7)) := by
  after_results_simp <;> rfl

/-! ## The edge list's two rows, cut once and read again before the later launches -/

theorem src0 : after (hostOps0_2 (F := Ideal)) (after hostOps0_1 (after hostOps0 X)) (Proc.devRef .tc main_v1) = srcOf (X (Proc.devRef .tc main_arg1)) := by
  after_results_simp <;> rfl
theorem dst0 : after (hostOps0_2 (F := Ideal)) (after hostOps0_1 (after hostOps0 X)) (Proc.devRef .tc main_v3) = dstOf (X (Proc.devRef .tc main_arg1)) := by
  after_results_simp <;> rfl

/-! ## What these operations leave alone -/

theorem keep0_main_arg0 : after (hostOps0_2 (F := Ideal)) (after hostOps0_1 (after hostOps0 X)) (Proc.devRef .tc main_arg0) = X (Proc.devRef .tc main_arg0) :=
  (after_of_forall_not_mem _ _ (List.forall_iff_forall_mem.mp (by
    simp only [hostOps0_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps0_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps0, List.Forall, nullary_writes, unary_writes, binary_writes, ternary_writes, reshape_writes, Finset.mem_singleton]
    repeat' apply And.intro
    all_goals exact devRef_ne_of_ne (by decide)))))

theorem keep0_main_arg2 : after (hostOps0_2 (F := Ideal)) (after hostOps0_1 (after hostOps0 X)) (Proc.devRef .tc main_arg2) = X (Proc.devRef .tc main_arg2) :=
  (after_of_forall_not_mem _ _ (List.forall_iff_forall_mem.mp (by
    simp only [hostOps0_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps0_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps0, List.Forall, nullary_writes, unary_writes, binary_writes, ternary_writes, reshape_writes, Finset.mem_singleton]
    repeat' apply And.intro
    all_goals exact devRef_ne_of_ne (by decide)))))

theorem keep0_main_arg3 : after (hostOps0_2 (F := Ideal)) (after hostOps0_1 (after hostOps0 X)) (Proc.devRef .tc main_arg3) = X (Proc.devRef .tc main_arg3) :=
  (after_of_forall_not_mem _ _ (List.forall_iff_forall_mem.mp (by
    simp only [hostOps0_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps0_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps0, List.Forall, nullary_writes, unary_writes, binary_writes, ternary_writes, reshape_writes, Finset.mem_singleton]
    repeat' apply And.intro
    all_goals exact devRef_ne_of_ne (by decide)))))

theorem keep0_main_arg4 : after (hostOps0_2 (F := Ideal)) (after hostOps0_1 (after hostOps0 X)) (Proc.devRef .tc main_arg4) = X (Proc.devRef .tc main_arg4) :=
  (after_of_forall_not_mem _ _ (List.forall_iff_forall_mem.mp (by
    simp only [hostOps0_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps0_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps0, List.Forall, nullary_writes, unary_writes, binary_writes, ternary_writes, reshape_writes, Finset.mem_singleton]
    repeat' apply And.intro
    all_goals exact devRef_ne_of_ne (by decide)))))

theorem keep0_main_arg5 : after (hostOps0_2 (F := Ideal)) (after hostOps0_1 (after hostOps0 X)) (Proc.devRef .tc main_arg5) = X (Proc.devRef .tc main_arg5) :=
  (after_of_forall_not_mem _ _ (List.forall_iff_forall_mem.mp (by
    simp only [hostOps0_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps0_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps0, List.Forall, nullary_writes, unary_writes, binary_writes, ternary_writes, reshape_writes, Finset.mem_singleton]
    repeat' apply And.intro
    all_goals exact devRef_ne_of_ne (by decide)))))

theorem keep0_main_arg6 : after (hostOps0_2 (F := Ideal)) (after hostOps0_1 (after hostOps0 X)) (Proc.devRef .tc main_arg6) = X (Proc.devRef .tc main_arg6) :=
  (after_of_forall_not_mem _ _ (List.forall_iff_forall_mem.mp (by
    simp only [hostOps0_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps0_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps0, List.Forall, nullary_writes, unary_writes, binary_writes, ternary_writes, reshape_writes, Finset.mem_singleton]
    repeat' apply And.intro
    all_goals exact devRef_ne_of_ne (by decide)))))

theorem keep0_main_arg7 : after (hostOps0_2 (F := Ideal)) (after hostOps0_1 (after hostOps0 X)) (Proc.devRef .tc main_arg7) = X (Proc.devRef .tc main_arg7) :=
  (after_of_forall_not_mem _ _ (List.forall_iff_forall_mem.mp (by
    simp only [hostOps0_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps0_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps0, List.Forall, nullary_writes, unary_writes, binary_writes, ternary_writes, reshape_writes, Finset.mem_singleton]
    repeat' apply And.intro
    all_goals exact devRef_ne_of_ne (by decide)))))

end Cert.KernelIdeal.Stretch

end
-- ==== Proof.KerHost1.lean ====
/-
  The host operations before launch 1 of the idealized kernel program, read as functions of what the buffers held
  before them: the aggregate of the layer's input features (the summed messages, the summed weights, the clip and the
  quotient, each read where it is computed and then composed), the layer's parameters cut out of the stacked arrays,
  and the buffers these operations leave alone.
-/
import proofs.«109972_j53034256171351_1_alg».proof.Proof.KerHostDefs

set_option maxRecDepth 16384

noncomputable section

namespace Cert.KernelIdeal.Stretch

open Idealize.ShloMosaic Idealize.ShloMosaic.TcCoe Idealize.SL.Sem
open Cert.KernelIdeal Cert.KernelIdeal.Gen
open StableHlo

variable (X : Valuation τ sig (Elt Ideal))

/-! ## The aggregate, piece by piece -/

set_option maxHeartbeats 1000000 in
theorem msg1 : after (hostOps1 (F := Ideal)) X (Proc.devRef .tc main_v52)
    = sumMsg (X (Proc.devRef .tc main_v39)) (X (Proc.devRef .tc main_v1)) (X (Proc.devRef .tc main_v3)) (X (Proc.devRef .tc main_arg2)) := by
  after_results_simp <;> rfl
set_option maxHeartbeats 1000000 in
theorem ws1 : after (hostOps1 (F := Ideal)) X (Proc.devRef .tc main_v55) = sumW (X (Proc.devRef .tc main_v3)) (X (Proc.devRef .tc main_arg2)) := by
  after_results_simp <;> rfl
theorem one1 : after (hostOps1 (F := Ideal)) X (Proc.devRef .tc main_cst_7) = constant (F := Ideal) S_ .f32 0x3F800000#32 := by
  after_results_simp <;> rfl
theorem clip1 : after (hostOps1_1 (F := Ideal)) X (Proc.devRef .tc main_v56)
    = (maximumf (broadcastInDim S100000 ![] bcast_S_S100000 (X (Proc.devRef .tc main_cst_7) : FVec Ideal S_ .f32)) (X (Proc.devRef .tc main_v55) : FVec Ideal S100000 .f32) : FVec Ideal S100000 .f32) := by
  after_results_simp <;> rfl
theorem clipKeeps1 : after (hostOps1_1 (F := Ideal)) X (Proc.devRef .tc main_v52) = X (Proc.devRef .tc main_v52) :=
  after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))
theorem div1 : after (hostOps1_2 (F := Ideal)) X (Proc.devRef .tc main_v59)
    = (Host.divf (X (Proc.devRef .tc main_v52) : FVec Ideal S100000x128 .f32) (broadcastInDim S100000x128 ![0, 1] bcast_S100000x1_S100000x128_0_1
        (broadcastInDim S100000x1 ![0] bcast_S100000_S100000x1_0 (X (Proc.devRef .tc main_v56) : FVec Ideal S100000 .f32))) : FVec Ideal S100000x128 .f32) := by
  after_results_simp <;> rfl

/-- The aggregate the launch finds: the weighted mean of the input features over in-neighbours. -/
theorem neigh1 : after (hostOps1_2 (F := Ideal)) (after hostOps1_1 (after hostOps1 X)) (Proc.devRef .tc main_v59)
    = aggK (X (Proc.devRef .tc main_v39)) (X (Proc.devRef .tc main_v1)) (X (Proc.devRef .tc main_v3)) (X (Proc.devRef .tc main_arg2)) := by
  rw [div1, clipKeeps1, clip1, msg1, ws1, one1]
  rfl

/-! ## The layer's parameters -/

theorem wn1 : after (hostOps1_2 (F := Ideal)) (after hostOps1_1 (after hostOps1 X)) (Proc.devRef .tc main_v62) = cutT 1 slices_S3x128x128_S1x128x128_1_0_0 (X (Proc.devRef .tc main_arg3)) := by
  after_results_simp <;> rfl
theorem wr1 : after (hostOps1_2 (F := Ideal)) (after hostOps1_1 (after hostOps1 X)) (Proc.devRef .tc main_v65) = cutT 1 slices_S3x128x128_S1x128x128_1_0_0 (X (Proc.devRef .tc main_arg4)) := by
  after_results_simp <;> rfl
theorem b1 : after (hostOps1_2 (F := Ideal)) (after hostOps1_1 (after hostOps1 X)) (Proc.devRef .tc main_v68) = cutRow 1 slices_S3x128_S1x128_1_0 (X (Proc.devRef .tc main_arg5)) := by
  after_results_simp <;> rfl
theorem g1 : after (hostOps1_2 (F := Ideal)) (after hostOps1_1 (after hostOps1 X)) (Proc.devRef .tc main_v71) = cutRow 1 slices_S3x128_S1x128_1_0 (X (Proc.devRef .tc main_arg6)) := by
  after_results_simp <;> rfl
theorem be1 : after (hostOps1_2 (F := Ideal)) (after hostOps1_1 (after hostOps1 X)) (Proc.devRef .tc main_v74) = cutRow 1 slices_S3x128_S1x128_1_0 (X (Proc.devRef .tc main_arg7)) := by
  after_results_simp <;> rfl

/-! ## What these operations leave alone -/

theorem keep1_main_v39 : after (hostOps1_2 (F := Ideal)) (after hostOps1_1 (after hostOps1 X)) (Proc.devRef .tc main_v39) = X (Proc.devRef .tc main_v39) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

theorem keep1_main_v1 : after (hostOps1_2 (F := Ideal)) (after hostOps1_1 (after hostOps1 X)) (Proc.devRef .tc main_v1) = X (Proc.devRef .tc main_v1) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

theorem keep1_main_v3 : after (hostOps1_2 (F := Ideal)) (after hostOps1_1 (after hostOps1 X)) (Proc.devRef .tc main_v3) = X (Proc.devRef .tc main_v3) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

theorem keep1_main_arg2 : after (hostOps1_2 (F := Ideal)) (after hostOps1_1 (after hostOps1 X)) (Proc.devRef .tc main_arg2) = X (Proc.devRef .tc main_arg2) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

theorem keep1_main_arg3 : after (hostOps1_2 (F := Ideal)) (after hostOps1_1 (after hostOps1 X)) (Proc.devRef .tc main_arg3) = X (Proc.devRef .tc main_arg3) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

theorem keep1_main_arg4 : after (hostOps1_2 (F := Ideal)) (after hostOps1_1 (after hostOps1 X)) (Proc.devRef .tc main_arg4) = X (Proc.devRef .tc main_arg4) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

theorem keep1_main_arg5 : after (hostOps1_2 (F := Ideal)) (after hostOps1_1 (after hostOps1 X)) (Proc.devRef .tc main_arg5) = X (Proc.devRef .tc main_arg5) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

theorem keep1_main_arg6 : after (hostOps1_2 (F := Ideal)) (after hostOps1_1 (after hostOps1 X)) (Proc.devRef .tc main_arg6) = X (Proc.devRef .tc main_arg6) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

theorem keep1_main_arg7 : after (hostOps1_2 (F := Ideal)) (after hostOps1_1 (after hostOps1 X)) (Proc.devRef .tc main_arg7) = X (Proc.devRef .tc main_arg7) :=
  (after_of_forall_not_mem _ _ (List.forall_iff_forall_mem.mp (by
    simp only [hostOps1_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps1_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps1, List.Forall, nullary_writes, unary_writes, binary_writes, ternary_writes, reshape_writes, Finset.mem_singleton]
    repeat' apply And.intro
    all_goals exact devRef_ne_of_ne (by decide)))))

end Cert.KernelIdeal.Stretch

end
-- ==== Proof.KerHost2.lean ====
/-
  The host operations before launch 2 of the idealized kernel program, read as functions of what the buffers held
  before them: the aggregate of the layer's input features (the summed messages, the summed weights, the clip and the
  quotient, each read where it is computed and then composed), the layer's parameters cut out of the stacked arrays,
  and the buffers these operations leave alone.
-/
import proofs.«109972_j53034256171351_1_alg».proof.Proof.KerHostDefs

set_option maxRecDepth 16384

noncomputable section

namespace Cert.KernelIdeal.Stretch

open Idealize.ShloMosaic Idealize.ShloMosaic.TcCoe Idealize.SL.Sem
open Cert.KernelIdeal Cert.KernelIdeal.Gen
open StableHlo

variable (X : Valuation τ sig (Elt Ideal))

/-! ## The aggregate, piece by piece -/

set_option maxHeartbeats 1000000 in
theorem msg2 : after (hostOps2 (F := Ideal)) X (Proc.devRef .tc main_v88)
    = sumMsg (X (Proc.devRef .tc main_v75)) (X (Proc.devRef .tc main_v1)) (X (Proc.devRef .tc main_v3)) (X (Proc.devRef .tc main_arg2)) := by
  after_results_simp <;> rfl
set_option maxHeartbeats 1000000 in
theorem ws2 : after (hostOps2 (F := Ideal)) X (Proc.devRef .tc main_v91) = sumW (X (Proc.devRef .tc main_v3)) (X (Proc.devRef .tc main_arg2)) := by
  after_results_simp <;> rfl
theorem one2 : after (hostOps2 (F := Ideal)) X (Proc.devRef .tc main_cst_12) = constant (F := Ideal) S_ .f32 0x3F800000#32 := by
  after_results_simp <;> rfl
theorem clip2 : after (hostOps2_1 (F := Ideal)) X (Proc.devRef .tc main_v92)
    = (maximumf (broadcastInDim S100000 ![] bcast_S_S100000 (X (Proc.devRef .tc main_cst_12) : FVec Ideal S_ .f32)) (X (Proc.devRef .tc main_v91) : FVec Ideal S100000 .f32) : FVec Ideal S100000 .f32) := by
  after_results_simp <;> rfl
theorem clipKeeps2 : after (hostOps2_1 (F := Ideal)) X (Proc.devRef .tc main_v88) = X (Proc.devRef .tc main_v88) :=
  after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))
theorem div2 : after (hostOps2_2 (F := Ideal)) X (Proc.devRef .tc main_v95)
    = (Host.divf (X (Proc.devRef .tc main_v88) : FVec Ideal S100000x128 .f32) (broadcastInDim S100000x128 ![0, 1] bcast_S100000x1_S100000x128_0_1
        (broadcastInDim S100000x1 ![0] bcast_S100000_S100000x1_0 (X (Proc.devRef .tc main_v92) : FVec Ideal S100000 .f32))) : FVec Ideal S100000x128 .f32) := by
  after_results_simp <;> rfl

/-- The aggregate the launch finds: the weighted mean of the input features over in-neighbours. -/
theorem neigh2 : after (hostOps2_2 (F := Ideal)) (after hostOps2_1 (after hostOps2 X)) (Proc.devRef .tc main_v95)
    = aggK (X (Proc.devRef .tc main_v75)) (X (Proc.devRef .tc main_v1)) (X (Proc.devRef .tc main_v3)) (X (Proc.devRef .tc main_arg2)) := by
  rw [div2, clipKeeps2, clip2, msg2, ws2, one2]
  rfl

/-! ## The layer's parameters -/

theorem wn2 : after (hostOps2_2 (F := Ideal)) (after hostOps2_1 (after hostOps2 X)) (Proc.devRef .tc main_v98) = cutT 2 slices_S3x128x128_S1x128x128_2_0_0 (X (Proc.devRef .tc main_arg3)) := by
  after_results_simp <;> rfl
theorem wr2 : after (hostOps2_2 (F := Ideal)) (after hostOps2_1 (after hostOps2 X)) (Proc.devRef .tc main_v101) = cutT 2 slices_S3x128x128_S1x128x128_2_0_0 (X (Proc.devRef .tc main_arg4)) := by
  after_results_simp <;> rfl
theorem b2 : after (hostOps2_2 (F := Ideal)) (after hostOps2_1 (after hostOps2 X)) (Proc.devRef .tc main_v104) = cutRow 2 slices_S3x128_S1x128_2_0 (X (Proc.devRef .tc main_arg5)) := by
  after_results_simp <;> rfl
theorem g2 : after (hostOps2_2 (F := Ideal)) (after hostOps2_1 (after hostOps2 X)) (Proc.devRef .tc main_v107) = cutRow 2 slices_S3x128_S1x128_2_0 (X (Proc.devRef .tc main_arg6)) := by
  after_results_simp <;> rfl
theorem be2 : after (hostOps2_2 (F := Ideal)) (after hostOps2_1 (after hostOps2 X)) (Proc.devRef .tc main_v110) = cutRow 2 slices_S3x128_S1x128_2_0 (X (Proc.devRef .tc main_arg7)) := by
  after_results_simp <;> rfl

/-! ## What these operations leave alone -/

theorem keep2_main_v75 : after (hostOps2_2 (F := Ideal)) (after hostOps2_1 (after hostOps2 X)) (Proc.devRef .tc main_v75) = X (Proc.devRef .tc main_v75) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

theorem keep2_main_v1 : after (hostOps2_2 (F := Ideal)) (after hostOps2_1 (after hostOps2 X)) (Proc.devRef .tc main_v1) = X (Proc.devRef .tc main_v1) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

theorem keep2_main_v3 : after (hostOps2_2 (F := Ideal)) (after hostOps2_1 (after hostOps2 X)) (Proc.devRef .tc main_v3) = X (Proc.devRef .tc main_v3) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

theorem keep2_main_arg2 : after (hostOps2_2 (F := Ideal)) (after hostOps2_1 (after hostOps2 X)) (Proc.devRef .tc main_arg2) = X (Proc.devRef .tc main_arg2) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

theorem keep2_main_arg3 : after (hostOps2_2 (F := Ideal)) (after hostOps2_1 (after hostOps2 X)) (Proc.devRef .tc main_arg3) = X (Proc.devRef .tc main_arg3) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

theorem keep2_main_arg4 : after (hostOps2_2 (F := Ideal)) (after hostOps2_1 (after hostOps2 X)) (Proc.devRef .tc main_arg4) = X (Proc.devRef .tc main_arg4) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

theorem keep2_main_arg5 : after (hostOps2_2 (F := Ideal)) (after hostOps2_1 (after hostOps2 X)) (Proc.devRef .tc main_arg5) = X (Proc.devRef .tc main_arg5) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

theorem keep2_main_arg6 : after (hostOps2_2 (F := Ideal)) (after hostOps2_1 (after hostOps2 X)) (Proc.devRef .tc main_arg6) = X (Proc.devRef .tc main_arg6) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

theorem keep2_main_arg7 : after (hostOps2_2 (F := Ideal)) (after hostOps2_1 (after hostOps2 X)) (Proc.devRef .tc main_arg7) = X (Proc.devRef .tc main_arg7) :=
  (after_of_forall_not_mem _ _ (List.forall_iff_forall_mem.mp (by
    simp only [hostOps2_2, List.Forall, nullary_writes, unary_writes, binary_writes, ternary_writes, reshape_writes, Finset.mem_singleton]
    repeat' apply And.intro
    all_goals exact devRef_ne_of_ne (by decide)))).trans
    ((after_of_forall_not_mem _ _ (List.forall_iff_forall_mem.mp (by
    simp only [hostOps2_1, List.Forall, nullary_writes, unary_writes, binary_writes, ternary_writes, reshape_writes, Finset.mem_singleton]
    repeat' apply And.intro
    all_goals exact devRef_ne_of_ne (by decide)))).trans
      (after_of_forall_not_mem _ _ (List.forall_iff_forall_mem.mp (by
    simp only [hostOps2, List.Forall, nullary_writes, unary_writes, binary_writes, ternary_writes, reshape_writes, Finset.mem_singleton]
    repeat' apply And.intro
    all_goals exact devRef_ne_of_ne (by decide)))))

end Cert.KernelIdeal.Stretch

end
-- ==== Proof.Params.lean ====
/-
  Layout of the layers' parameters. The three layers' weight matrices and rows arrive stacked, `[3, 128, 128]` and
  `[3, 128]`. Slab `l` of a stack of matrices, cut out, flattened to a matrix and transposed, reads at `(k, q)` the
  stack at `(l, q, k)`; row `l` of a stack of rows, cut out as a one-row matrix, flattened to a vector and stood up
  again as a one-row matrix (by a shape cast, or by a broadcast along a new leading axis), reads at `(0, q)` the stack
  at `(l, q)`.
-/
import Idealize.ShloMosaic.Lib.ValueIdx
import Idealize.ShloMosaic.Lib.Pipeline.Value
import proofs.«109972_j53034256171351_1_alg».proof.Proof.Spec

noncomputable section

namespace Cert.Params

open Idealize.ShloMosaic Idealize.ShloMosaic.ValueIdx
open Cert.Spec

variable {α : Type}

/-- One slab of the stack of matrices, still with its leading unit axis. -/
abbrev Slab : Shape := ⟨3, ![1, 128, 128]⟩
/-- A vector of 128 lanes. -/
abbrev Lane : Shape := ⟨1, ![128]⟩

/-- Slab `o` of the stack, flattened and transposed, at `(k, q)` is the stack at `(o, q, k)`. -/
theorem slab_transposed (w : Sq3.Idx → α) (o : ℕ) (ho : o < 3)
    (hs : Sq3.Slices ![o, 0, 0] Slab) (hc : Slab.ShapeCasts Sq) (ht : Sq.Transposes [1, 0] Sq) (k q : Fin 128) :
    transpose Sq [1, 0] (shapeCast Sq (extractStridedSlice Slab ![o, 0, 0] w hs) hc) ht (ix2 k q) = w (ix3 ⟨o, ho⟩ q k) := by
  rw [transpose_apply [1, 0] _ ht (ix2 k q) (ix2 q k) (fun b => by match b with | ⟨0, _⟩ => rfl | ⟨1, _⟩ => rfl)]
  rw [shapeCast_apply _ hc (ix2 q k) (ix3 (0 : Fin 1) q k) (by
    rw [Shape.rowMajor_val_three, Shape.rowMajor_val_two]
    show ((0 : ℕ) * 128 + q.val) * 128 + k.val = q.val * 128 + k.val
    omega)]
  exact extractStridedSlice_apply _ w hs (ix3 (0 : Fin 1) q k) (ix3 ⟨o, ho⟩ q k) (fun a => by
    match a with
    | ⟨0, _⟩ => show o = o + 0; omega
    | ⟨1, _⟩ => show q.val = 0 + q.val; omega
    | ⟨2, _⟩ => show k.val = 0 + k.val; omega)

/-- The same as whole arrays: the transposed slab is `Spec.slabT`. -/
theorem slabT_eq (w : Sq3.Idx → EReal) (o : ℕ) (ho : o < 3)
    (hs : Sq3.Slices ![o, 0, 0] Slab) (hc : Slab.ShapeCasts Sq) (ht : Sq.Transposes [1, 0] Sq) :
    transpose Sq [1, 0] (shapeCast Sq (extractStridedSlice Slab ![o, 0, 0] w hs) hc) ht = slabT w ⟨o, ho⟩ := by
  funext j
  obtain ⟨k, q, rfl⟩ : ∃ (k q : Fin 128), j = ix2 k q := ⟨j 0, j 1, eq_ix2 j⟩
  exact slab_transposed w o ho hs hc ht k q

/-- Row `o` of the stack of rows flattened to a vector: at `q` the stack at `(o, q)`. -/
theorem row_flat (b : Row3.Idx → α) (o : ℕ) (ho : o < 3) (hs : Row3.Slices ![o, 0] Row) (hc : Row.ShapeCasts Lane) (q : Fin 128) :
    shapeCast Lane (extractStridedSlice Row ![o, 0] b hs) hc (ix1 q) = b (ix2 ⟨o, ho⟩ q) := by
  rw [shapeCast_apply _ hc (ix1 q) (ix2 (0 : Fin 1) q) (by
    rw [Shape.rowMajor_val_two, Shape.rowMajor_val_one]
    show (0 : ℕ) * 128 + q.val = q.val
    omega)]
  exact extractStridedSlice_apply _ b hs (ix2 (0 : Fin 1) q) (ix2 ⟨o, ho⟩ q) (fun a => by
    match a with
    | ⟨0, _⟩ => show o = o + 0; omega
    | ⟨1, _⟩ => show q.val = 0 + q.val; omega)

/-- The flattened row stood up again as a one-row matrix by a shape cast is `Spec.slabRow`. -/
theorem slabRow_cast (b : Row3.Idx → EReal) (o : ℕ) (ho : o < 3) (hs : Row3.Slices ![o, 0] Row) (hc : Row.ShapeCasts Lane)
    (hc' : Lane.ShapeCasts Row) :
    shapeCast Row (shapeCast Lane (extractStridedSlice Row ![o, 0] b hs) hc) hc' = slabRow b ⟨o, ho⟩ := by
  funext j
  obtain ⟨u, q, rfl⟩ : ∃ (u : Fin 1) (q : Fin 128), j = ix2 u q := ⟨j 0, j 1, eq_ix2 j⟩
  rw [shapeCast_apply _ hc' (ix2 u q) (ix1 q) (by
    rw [Shape.rowMajor_val_two, Shape.rowMajor_val_one]
    show q.val = u.val * 128 + q.val
    have := u.isLt
    omega)]
  exact row_flat b o ho hs hc q

/-- The flattened row stood up again as a one-row matrix by a broadcast along a new leading axis is `Spec.slabRow`. -/
theorem slabRow_bcast (b : Row3.Idx → EReal) (o : ℕ) (ho : o < 3) (hs : Row3.Slices ![o, 0] Row) (hc : Row.ShapeCasts Lane)
    (hb : Lane.BroadcastsInDim Row ![1]) :
    broadcastInDim Row ![1] hb (shapeCast Lane (extractStridedSlice Row ![o, 0] b hs) hc) = slabRow b ⟨o, ho⟩ := by
  funext j
  obtain ⟨u, q, rfl⟩ : ∃ (u : Fin 1) (q : Fin 128), j = ix2 u q := ⟨j 0, j 1, eq_ix2 j⟩
  rw [broadcastInDim_apply _ hb _ (ix2 u q) (ix1 q) (fun d => by
    match d with
    | ⟨0, _⟩ => show q.val = if (128 : ℕ) = 1 then 0 else q.val; rw [if_neg (by omega)])]
  exact row_flat b o ho hs hc q

end Cert.Params

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.TileRows.lean ====
/-
  The arithmetic of one tile of 4000 rows, read entry by entry over the extended reals: the two products into zero
  accumulators and the bias row give the affine part of a row, its positive part is normalised along the 128 lanes
  (mean, deviation, mean square deviation, reciprocal square root), and the gain and shift rows finish it. Entry
  (p, q) of the tile depends on row p of the two row blocks only, which is why the tiles are restrictions of one
  function of the whole arrays.
-/
import proofs.«109972_j53034256171351_1_alg».proof.Proof.Gen.KernelIdeal.Skeleton
import proofs.«109972_j53034256171351_1_alg».proof.Proof.Spec
import proofs.«109972_j53034256171351_1_alg».proof.Proof.LibPlainDot
import proofs.«109972_j53034256171351_1_alg».proof.Proof.LibTileLayout
import Idealize.ShloMosaic.Lib.Pipeline.Value

noncomputable section

namespace Cert.KernelIdeal.Block

open Idealize.ShloMosaic Idealize.ShloMosaic.ValueIdx
open Cert.KernelIdeal Cert.KernelIdeal.Gen
open scoped BigOperators

/-- One row `[1, b]` spread over `[a, b]` reads, at `(p, q)`, the row at `q`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The reciprocal square root of a vector, at an index. -/
theorem rsqrt_apply {s : Shape} {φ : FTy} (a : FVec Ideal s φ) (i : s.Idx) : rsqrt a i = Ideal.rsqrt (a i) := rfl

/-- The positive part of the affine part of a tile: both products into zero accumulators, the bias row, the maximum
    with zero. -/
def reluTile (x0 x1 : Vec Ideal S4000x128 .f32) (x2 x3 : Vec Ideal S128x128 .f32) (x4 : Vec Ideal S1x128 .f32) :
    FVec Ideal S4000x128 .f32 :=
  maximumf
    (addf
      (addf
        (matmul dot_S4000x128_S128x128_S4000x128_1_0_0_1_n_n none (truncf .bf16 x0 bitsLt_bf16_f32) (truncf .bf16 x2 bitsLt_bf16_f32)
          (constant S4000x128 .f32 0x00000000#32))
        (matmul dot_S4000x128_S128x128_S4000x128_1_0_0_1_n_n none (truncf .bf16 x1 bitsLt_bf16_f32) (truncf .bf16 x3 bitsLt_bf16_f32)
          (constant S4000x128 .f32 0x00000000#32)))
      (broadcastTo S4000x128 x4 broadcasts_S1x128_S4000x128))
    (broadcast S4000x128 (Scalar.ofBits (F := Ideal) .f32 0x00000000#32))

theorem plain_dot : Cert.LibPlainDot.Plain dot_S4000x128_S128x128_S4000x128_1_0_0_1_n_n := ⟨rfl, rfl, rfl, rfl, rfl, rfl⟩

/-- Entry `(p, q)` of the positive part: row `p` of either block against column `q` of its weights, the bias at
    `q`, the maximum with zero. -/
theorem reluTile_apply (x0 x1 : Vec Ideal S4000x128 .f32) (x2 x3 : Vec Ideal S128x128 .f32) (x4 : Vec Ideal S1x128 .f32)
    (p : Fin 4000) (q : Fin 128) :
    reluTile x0 x1 x2 x3 x4 (ix2 p q)
      = max (((∑ k : Fin 128, x0 (ix2 p k) * x2 (ix2 k q)) + ∑ k : Fin 128, x1 (ix2 p k) * x3 (ix2 k q)) + x4 (ix2 (0 : Fin 1) q)) 0 := by
  unfold reluTile
  rw [maximumf_apply, addf_apply, addf_apply, broadcast_apply]
  rw [show (matmul dot_S4000x128_S128x128_S4000x128_1_0_0_1_n_n none (truncf .bf16 x0 bitsLt_bf16_f32) (truncf .bf16 x2 bitsLt_bf16_f32)
        (constant S4000x128 .f32 0x00000000#32) : FVec Ideal S4000x128 .f32) (ix2 p q) = ∑ k : Fin 128, x0 (ix2 p k) * x2 (ix2 k q) from
      Cert.LibPlainDot.matmul_zero_apply _ plain_dot none _ _ p q,
    show (matmul dot_S4000x128_S128x128_S4000x128_1_0_0_1_n_n none (truncf .bf16 x1 bitsLt_bf16_f32) (truncf .bf16 x3 bitsLt_bf16_f32)
        (constant S4000x128 .f32 0x00000000#32) : FVec Ideal S4000x128 .f32) (ix2 p q) = ∑ k : Fin 128, x1 (ix2 p k) * x3 (ix2 k q) from
      Cert.LibPlainDot.matmul_zero_apply _ plain_dot none _ _ p q,
    show broadcastTo S4000x128 x4 broadcasts_S1x128_S4000x128 (ix2 p q) = x4 (ix2 (0 : Fin 1) q) from
      broadcastTo_1b_ab_apply x4 _ p q]
  congr 1
  exact Ideal.ofBits_zero_f32

/-- The sum along the lanes of a tile, started from zero, is at `p` the sum over row `p`. -/
theorem rowSum_apply (g : FVec Ideal S4000x128 .f32) (p : Fin 4000) :
    (multiReduction .add [1] S4000 g 0x00000000#32 reduces_S4000x128_S4000 (.inl rfl) rfl : FVec Ideal S4000 .f32) (ix1 p)
      = ∑ q : Fin 128, g (ix2 p q) :=
  Cert.TileLayout.sum_axis1_apply g _ _ _ _ p

/-- The normalisation of a tile along its lanes: mean, deviation, mean square deviation, reciprocal square root. -/
def normTile (f : FVec Ideal S4000x128 .f32) : FVec Ideal S4000x128 .f32 :=
  mulf
    (subf f (broadcastTo S4000x128
      (divf (shapeCast S4000x1 (multiReduction .add [1] S4000 f 0x00000000#32 reduces_S4000x128_S4000 (.inl rfl) rfl) shapeCasts_S4000_S4000x1)
        (broadcast S4000x1 (Scalar.ofBits (F := Ideal) .f32 0x43000000#32))) broadcasts_S4000x1_S4000x128))
    (broadcastTo S4000x128
      (rsqrt (addf
        (divf (shapeCast S4000x1
            (multiReduction .add [1] S4000
              (mulf
                (subf f (broadcastTo S4000x128
                  (divf (shapeCast S4000x1 (multiReduction .add [1] S4000 f 0x00000000#32 reduces_S4000x128_S4000 (.inl rfl) rfl) shapeCasts_S4000_S4000x1)
                    (broadcast S4000x1 (Scalar.ofBits (F := Ideal) .f32 0x43000000#32))) broadcasts_S4000x1_S4000x128))
                (subf f (broadcastTo S4000x128
                  (divf (shapeCast S4000x1 (multiReduction .add [1] S4000 f 0x00000000#32 reduces_S4000x128_S4000 (.inl rfl) rfl) shapeCasts_S4000_S4000x1)
                    (broadcast S4000x1 (Scalar.ofBits (F := Ideal) .f32 0x43000000#32))) broadcasts_S4000x1_S4000x128)))
              0x00000000#32 reduces_S4000x128_S4000 (.inl rfl) rfl) shapeCasts_S4000_S4000x1)
          (broadcast S4000x1 (Scalar.ofBits (F := Ideal) .f32 0x43000000#32)))
        (broadcast S4000x1 (Scalar.ofBits (F := Ideal) .f32 0x3727C5AC#32))))
      broadcasts_S4000x1_S4000x128)

/-- The deviation of entry `(p, q)` from the mean of row `p`. -/
theorem dev_apply (f : FVec Ideal S4000x128 .f32) (p : Fin 4000) (q : Fin 128) :
    (subf f (broadcastTo S4000x128
      (divf (shapeCast S4000x1 (multiReduction .add [1] S4000 f 0x00000000#32 reduces_S4000x128_S4000 (.inl rfl) rfl) shapeCasts_S4000_S4000x1)
        (broadcast S4000x1 (Scalar.ofBits (F := Ideal) .f32 0x43000000#32))) broadcasts_S4000x1_S4000x128) : FVec Ideal S4000x128 .f32) (ix2 p q)
      = Cert.Spec.dev (fun q' => f (ix2 p q')) q := by
  rw [subf_apply, Cert.TileLayout.broadcastTo_a1_ab_apply, divf_apply, Cert.TileLayout.shapeCast_a_a1_apply,
    rowSum_apply, broadcast_apply]
  rfl

/-- Entry `(p, q)` of the normalised tile: the deviation times the reciprocal square root of the guarded mean square
    deviation of row `p`. -/
theorem normTile_apply (f : FVec Ideal S4000x128 .f32) (p : Fin 4000) (q : Fin 128) :
    normTile f (ix2 p q)
      = Cert.Spec.dev (fun q' => f (ix2 p q')) q
        * Ideal.rsqrt (Cert.Spec.mean (fun q' => Cert.Spec.dev (fun q'' => f (ix2 p q'')) q' * Cert.Spec.dev (fun q'' => f (ix2 p q'')) q') + Cert.Spec.eps) := by
  unfold normTile
  rw [mulf_apply, dev_apply, Cert.TileLayout.broadcastTo_a1_ab_apply, rsqrt_apply, addf_apply, divf_apply,
    Cert.TileLayout.shapeCast_a_a1_apply, rowSum_apply, broadcast_apply, broadcast_apply]
  refine congrArg (fun s => Cert.Spec.dev (fun q' => f (ix2 p q')) q * Ideal.rsqrt (Ideal.div s Cert.Spec.lanes + Cert.Spec.eps)) ?_
  exact Finset.sum_congr rfl fun q' _ => by rw [mulf_apply, dev_apply]

/-- The finished tile: the normalised positive part times the gain row, plus the shift row. -/
def tile (x0 x1 : Vec Ideal S4000x128 .f32) (x2 x3 : Vec Ideal S128x128 .f32) (x4 x5 x6 : Vec Ideal S1x128 .f32) :
    FVec Ideal S4000x128 .f32 :=
  addf (mulf (normTile (reluTile x0 x1 x2 x3 x4)) (broadcastTo S4000x128 x5 broadcasts_S1x128_S4000x128))
    (broadcastTo S4000x128 x6 broadcasts_S1x128_S4000x128)

/-- Entry `(p, q)` of the finished tile: the layer normalisation of the positive part of row `p`'s affine part. -/
theorem tile_apply (x0 x1 : Vec Ideal S4000x128 .f32) (x2 x3 : Vec Ideal S128x128 .f32) (x4 x5 x6 : Vec Ideal S1x128 .f32)
    (p : Fin 4000) (q : Fin 128) :
    tile x0 x1 x2 x3 x4 x5 x6 (ix2 p q)
      = Cert.Spec.norm
          (fun q' => max (((∑ k : Fin 128, x0 (ix2 p k) * x2 (ix2 k q')) + ∑ k : Fin 128, x1 (ix2 p k) * x3 (ix2 k q')) + x4 (ix2 (0 : Fin 1) q')) 0)
          (fun q' => x5 (ix2 (0 : Fin 1) q')) (fun q' => x6 (ix2 (0 : Fin 1) q')) q := by
  unfold tile
  rw [addf_apply, mulf_apply, normTile_apply, broadcastTo_1b_ab_apply, broadcastTo_1b_ab_apply]
  simp only [reluTile_apply]
  rfl

/-- A tile whose two row blocks hold, in row `p`, row `r` of two whole arrays is at `(p, q)` the dense stage of the
    whole arrays at `(r, q)`: an entry of the tile depends on its own row of the blocks only. -/
theorem tile_eq_combine (A0 A1 : Cert.Spec.Nodes.Idx → EReal) (w2 w3 : Cert.Spec.Sq.Idx → EReal) (b g β : Cert.Spec.Row.Idx → EReal)
    (x0 x1 : Vec Ideal S4000x128 .f32) (p : Fin 4000) (q : Fin 128) (r : Fin 100000)
    (h0 : ∀ k : Fin 128, x0 (ix2 p k) = A0 (ix2 r k)) (h1 : ∀ k : Fin 128, x1 (ix2 p k) = A1 (ix2 r k)) :
    tile x0 x1 w2 w3 b g β (ix2 p q) = Cert.Spec.combine A0 A1 w2 w3 b g β (ix2 r q) := by
  rw [tile_apply, Cert.Spec.combine_apply]
  unfold Cert.Spec.affine
  simp only [h0, h1]

/-- The offsets of a whole-buffer access are zero on both axes. -/
theorem hz : (![0, 0] : Fin 2 → Nat) = fun _ => 0 := funext fun a => by fin_cases a <;> rfl

/-- What each of the three launches stores is the finished tile of what it loaded (a shape cast to the same shape is
    the identity). -/
theorem k0_pay_eq (x0 x1 : Vec Ideal S4000x128 .f32) (x2 x3 : Vec Ideal S128x128 .f32) (x4 x5 x6 : Vec Ideal S1x128 .f32) :
    k0_pay1 (k0_pay2 x0 x1 x2 x3 x4) (k0_pay3 x5) x6 = tile x0 x1 x2 x3 x4 x5 x6 := by
  unfold k0_pay1 k0_pay2 k0_pay3 tile normTile reluTile
  simp only [shapeCast_self]
theorem k1_pay_eq (x0 x1 : Vec Ideal S4000x128 .f32) (x2 x3 : Vec Ideal S128x128 .f32) (x4 x5 x6 : Vec Ideal S1x128 .f32) :
    k1_pay1 (k1_pay2 x0 x1 x2 x3 x4) (k1_pay3 x5) x6 = tile x0 x1 x2 x3 x4 x5 x6 := by
  unfold k1_pay1 k1_pay2 k1_pay3 tile normTile reluTile
  simp only [shapeCast_self]
theorem k2_pay_eq (x0 x1 : Vec Ideal S4000x128 .f32) (x2 x3 : Vec Ideal S128x128 .f32) (x4 x5 x6 : Vec Ideal S1x128 .f32) :
    k2_pay1 (k2_pay2 x0 x1 x2 x3 x4) (k2_pay3 x5) x6 = tile x0 x1 x2 x3 x4 x5 x6 := by
  unfold k2_pay1 k2_pay2 k2_pay3 tile normTile reluTile
  simp only [shapeCast_self]

end Cert.KernelIdeal.Block

end
-- ==== Proof.Block0.lean ====
/-
  The first launch of the row-tile kernel, from tiles to the whole array. Grid point t loads rows 4000·t … 4000·t + 3999
  of the two node arrays and the whole of the five parameter arrays, and writes the finished tile back to the same rows
  of the result array; the 25 tiles cover the 100000 rows, and an entry of a tile depends on its own row only, so the
  result array ends holding the dense stage of the whole arrays.
-/
import proofs.«109972_j53034256171351_1_alg».proof.Proof.TileRows
import proofs.«109972_j53034256171351_1_alg».proof.Proof.Gen.KernelIdeal.Frame
import Idealize.ShloMosaic.Lib.Pipeline.Value

set_option maxRecDepth 16384

noncomputable section

namespace Cert.KernelIdeal.Block

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The dense stage of the whole arrays the launch is entered with. -/
abbrev G0 (c : Dev nD) : S100000x128.Idx → EReal :=
  Cert.Spec.combine (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) (V c (Pipeline.arrRef spec0 6))

/-- The printed index maps, decided over the grid: the two node windows and the result window are at row block `t`,
    the parameter windows at block zero, all at column block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of a node window's block at point `t` is row `4000·t + p` of its array. -/
theorem rows0_0 (c : Dev nD) (t : Fin cfg0.N) (p : Fin 4000) (k : Fin 128) (r : Fin 100000) (hr : r.val = t.val * 4000 + p.val) :
    (iblk0 V c 0 t : Vec Ideal S4000x128 .f32) (ix2 p k) = (V c (Pipeline.arrRef spec0 0) : S100000x128.Idx → EReal) (ix2 r k) := by
  obtain ⟨e0, e1, -⟩ := idx0 t
  unfold iblk0
  rw [View.read_apply]
  have h : ((cfg0.win 0).blk t).view.emb (ix2 p k) = (ix2 r k : S100000x128.Idx) := by
    funext a; apply Fin.ext
    match a with
    | ⟨0, _⟩ => show win0_0.index t (0 : Fin 2) * 4000 + 1 * p.val = r.val; rw [e0, hr]; omega
    | ⟨1, _⟩ => show win0_0.index t (1 : Fin 2) * 128 + 1 * k.val = k.val; rw [e1]; omega
  rw [h]
  rfl
theorem rows0_1 (c : Dev nD) (t : Fin cfg0.N) (p : Fin 4000) (k : Fin 128) (r : Fin 100000) (hr : r.val = t.val * 4000 + p.val) :
    (iblk0 V c 1 t : Vec Ideal S4000x128 .f32) (ix2 p k) = (V c (Pipeline.arrRef spec0 1) : S100000x128.Idx → EReal) (ix2 r k) := by
  obtain ⟨-, -, e0, e1, -⟩ := idx0 t
  unfold iblk0
  rw [View.read_apply]
  have h : ((cfg0.win 1).blk t).view.emb (ix2 p k) = (ix2 r k : S100000x128.Idx) := by
    funext a; apply Fin.ext
    match a with
    | ⟨0, _⟩ => show win0_1.index t (0 : Fin 2) * 4000 + 1 * p.val = r.val; rw [e0, hr]; omega
    | ⟨1, _⟩ => show win0_1.index t (1 : Fin 2) * 128 + 1 * k.val = k.val; rw [e1]; omega
  rw [h]
  rfl

/-- A parameter window's block at any point is its whole array. -/
theorem whole0_2 (c : Dev nD) (t : Fin cfg0.N) :
    (iblk0 V c 2 t : Vec Ideal S128x128 .f32) = (V c (Pipeline.arrRef spec0 2) : S128x128.Idx → EReal) := by
  obtain ⟨-, -, -, -, e0, e1, -⟩ := idx0 t
  funext z
  unfold iblk0
  rw [View.read_apply]
  have h : ((cfg0.win 2).blk t).view.emb z = (z : S128x128.Idx) := by
    funext a; apply Fin.ext
    match a with
    | ⟨0, _⟩ => show win0_2.index t (0 : Fin 2) * 128 + 1 * (z 0).val = (z 0).val; rw [e0]; omega
    | ⟨1, _⟩ => show win0_2.index t (1 : Fin 2) * 128 + 1 * (z 1).val = (z 1).val; rw [e1]; omega
  rw [h]
  rfl
theorem whole0_3 (c : Dev nD) (t : Fin cfg0.N) :
    (iblk0 V c 3 t : Vec Ideal S128x128 .f32) = (V c (Pipeline.arrRef spec0 3) : S128x128.Idx → EReal) := by
  obtain ⟨-, -, -, -, -, -, e0, e1, -⟩ := idx0 t
  funext z
  unfold iblk0
  rw [View.read_apply]
  have h : ((cfg0.win 3).blk t).view.emb z = (z : S128x128.Idx) := by
    funext a; apply Fin.ext
    match a with
    | ⟨0, _⟩ => show win0_3.index t (0 : Fin 2) * 128 + 1 * (z 0).val = (z 0).val; rw [e0]; omega
    | ⟨1, _⟩ => show win0_3.index t (1 : Fin 2) * 128 + 1 * (z 1).val = (z 1).val; rw [e1]; omega
  rw [h]
  rfl
theorem whole0_4 (c : Dev nD) (t : Fin cfg0.N) :
    (iblk0 V c 4 t : Vec Ideal S1x128 .f32) = (V c (Pipeline.arrRef spec0 4) : S1x128.Idx → EReal) := by
  obtain ⟨-, -, -, -, -, -, -, -, e0, e1, -⟩ := idx0 t
  funext z
  unfold iblk0
  rw [View.read_apply]
  have h : ((cfg0.win 4).blk t).view.emb z = (z : S1x128.Idx) := by
    funext a; apply Fin.ext
    match a with
    | ⟨0, _⟩ => show win0_4.index t (0 : Fin 2) * 1 + 1 * (z 0).val = (z 0).val; rw [e0]; omega
    | ⟨1, _⟩ => show win0_4.index t (1 : Fin 2) * 128 + 1 * (z 1).val = (z 1).val; rw [e1]; omega
  rw [h]
  rfl
theorem whole0_5 (c : Dev nD) (t : Fin cfg0.N) :
    (iblk0 V c 5 t : Vec Ideal S1x128 .f32) = (V c (Pipeline.arrRef spec0 5) : S1x128.Idx → EReal) := by
  obtain ⟨-, -, -, -, -, -, -, -, -, -, e0, e1, -⟩ := idx0 t
  funext z
  unfold iblk0
  rw [View.read_apply]
  have h : ((cfg0.win 5).blk t).view.emb z = (z : S1x128.Idx) := by
    funext a; apply Fin.ext
    match a with
    | ⟨0, _⟩ => show win0_5.index t (0 : Fin 2) * 1 + 1 * (z 0).val = (z 0).val; rw [e0]; omega
    | ⟨1, _⟩ => show win0_5.index t (1 : Fin 2) * 128 + 1 * (z 1).val = (z 1).val; rw [e1]; omega
  rw [h]
  rfl
theorem whole0_6 (c : Dev nD) (t : Fin cfg0.N) :
    (iblk0 V c 6 t : Vec Ideal S1x128 .f32) = (V c (Pipeline.arrRef spec0 6) : S1x128.Idx → EReal) := by
  obtain ⟨-, -, -, -, -, -, -, -, -, -, -, -, e0, e1, -⟩ := idx0 t
  funext z
  unfold iblk0
  rw [View.read_apply]
  have h : ((cfg0.win 6).blk t).view.emb z = (z : S1x128.Idx) := by
    funext a; apply Fin.ext
    match a with
    | ⟨0, _⟩ => show win0_6.index t (0 : Fin 2) * 1 + 1 * (z 0).val = (z 0).val; rw [e0]; omega
    | ⟨1, _⟩ => show win0_6.index t (1 : Fin 2) * 128 + 1 * (z 1).val = (z 1).val; rw [e1]; omega
  rw [h]
  rfl

/-- Entry `(p, q)` of the tile point `t` leaves is the dense stage of the whole arrays at `(4000·t + p, q)`. -/
theorem point0 (c : Dev nD) (t : Fin cfg0.N) (p : Fin 4000) (q : Fin 128) (r : Fin 100000) (hr : r.val = t.val * 4000 + p.val) :
    tile (iblk0 V c 0 t) (iblk0 V c 1 t) (iblk0 V c 2 t) (iblk0 V c 3 t) (iblk0 V c 4 t) (iblk0 V c 5 t) (iblk0 V c 6 t) (ix2 p q)
      = G0 V c (ix2 r q) := by
  rw [whole0_2, whole0_3, whole0_4, whole0_5, whole0_6]
  exact tile_eq_combine _ _ _ _ _ _ _ _ _ p q r (fun k => rows0_0 V c t p k r hr) (fun k => rows0_1 V c t p k r hr)

/-- What point `t` writes back is block `t` of the dense stage of the whole arrays. -/
theorem flushed0_eq (c : Dev nD) (t : Fin cfg0.N) :
    (dat0 (F := Ideal) V c).flushed 7 t = ((cfg0.win 7).blk t).view.read (Elt Ideal) (G0 V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S128x128) hz, View.ld_unit_zero (S := S1x128) hz]
  rw [k0_pay_eq]
  obtain ⟨-, -, -, -, -, -, -, -, -, -, -, -, -, -, e0, e1⟩ := idx0 t
  funext j
  rw [View.read_apply]
  obtain ⟨p, q, rfl⟩ : ∃ (p : Fin 4000) (q : Fin 128), j = ix2 p q := ⟨j 0, j 1, eq_ix2 j⟩
  have hlt : t.val * 4000 + p.val < 100000 := by
    have h25 : t.val < 25 := lt_of_lt_of_eq t.isLt N_0
    omega
  have h : ((cfg0.win 7).blk t).view.emb (ix2 p q) = (ix2 (⟨t.val * 4000 + p.val, hlt⟩ : Fin 100000) q : S100000x128.Idx) := by
    funext a; apply Fin.ext
    match a with
    | ⟨0, _⟩ => show win0_7.index t (0 : Fin 2) * 4000 + 1 * p.val = t.val * 4000 + p.val; rw [e0]; omega
    | ⟨1, _⟩ => show win0_7.index t (1 : Fin 2) * 128 + 1 * q.val = q.val; rw [e1]; omega
  rw [h]
  exact point0 V c t p q ⟨t.val * 4000 + p.val, hlt⟩ rfl

/-- An index of the result array is in point `t`'s block iff each coordinate is in the block's range on its axis. -/
theorem mem_blk0 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v39).slice (win0_7.rect t)).set ↔ _
  rw [View.set_slice_whole, Rect.mem_set_unit]
  exact Iff.rfl

/-- Row `r` of the result array is in the block of point `r / 4000`. -/
theorem cover0 (i : S100000x128.Idx) : ∃ t : Fin cfg0.N, (cfg0.win 7).flush t = true ∧ i ∈ ((cfg0.win 7).blk t).view.set := by
  have hi0 : (i 0).val < 100000 := idx2_lt0 (n0 := 100000) (n1 := 128) i
  have hi1 : (i 1).val < 128 := idx2_lt1 (n0 := 100000) (n1 := 128) i
  have hlt : (i 0).val / 4000 < cfg0.N := lt_of_lt_of_eq (by omega : (i 0).val / 4000 < 25) N_0.symm
  obtain ⟨-, -, -, -, -, -, -, -, -, -, -, -, -, -, e0, e1⟩ := idx0 ⟨(i 0).val / 4000, hlt⟩
  refine ⟨⟨(i 0).val / 4000, hlt⟩, flush0_7 _, ?_⟩
  rw [mem_blk0]
  intro a
  match a with
  | ⟨0, _⟩ =>
    show win0_7.index ⟨(i 0).val / 4000, hlt⟩ (0 : Fin 2) * 4000 ≤ (i 0).val ∧ (i 0).val < win0_7.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, hlt⟩ (1 : Fin 2) * 128 ≤ (i 1).val ∧ (i 1).val < win0_7.index ⟨(i 0).val / 4000, hlt⟩ (1 : Fin 2) * 128 + 128
    rw [e1]; omega

/-- THE RESULT ARRAY after the launch: the dense stage of the arrays the launch was entered with. -/
theorem final0 (c : Dev nD) :
    (dat0 (F := Ideal) V c).arrAt 7 cfg0.N
      = Cert.Spec.combine (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (V c (Pipeline.arrRef spec0 6)) :=
  (dat0 (F := Ideal) V c).arrAt_eq_of_cover 7 (G0 V c) (fun t _ => flushed0_eq V c t) (cover0)

end Cert.KernelIdeal.Block

end
-- ==== Proof.Block1.lean ====
/-
  The second launch of the row-tile kernel, from tiles to the whole array. Grid point t loads rows 4000·t … 4000·t + 3999
  of the two node arrays and the whole of the five parameter arrays, and writes the finished tile back to the same rows
  of the result array; the 25 tiles cover the 100000 rows, and an entry of a tile depends on its own row only, so the
  result array ends holding the dense stage of the whole arrays.
-/
import proofs.«109972_j53034256171351_1_alg».proof.Proof.TileRows
import proofs.«109972_j53034256171351_1_alg».proof.Proof.Gen.KernelIdeal.Frame
import Idealize.ShloMosaic.Lib.Pipeline.Value

set_option maxRecDepth 16384

noncomputable section

namespace Cert.KernelIdeal.Block

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The dense stage of the whole arrays the launch is entered with. -/
abbrev G1 (c : Dev nD) : S100000x128.Idx → EReal :=
  Cert.Spec.combine (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (V c (Pipeline.arrRef spec1 6))

/-- The printed index maps, decided over the grid: the two node windows and the result window are at row block `t`,
    the parameter windows at block zero, all at column block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of a node window's block at point `t` is row `4000·t + p` of its array. -/
theorem rows1_0 (c : Dev nD) (t : Fin cfg1.N) (p : Fin 4000) (k : Fin 128) (r : Fin 100000) (hr : r.val = t.val * 4000 + p.val) :
    (iblk1 V c 0 t : Vec Ideal S4000x128 .f32) (ix2 p k) = (V c (Pipeline.arrRef spec1 0) : S100000x128.Idx → EReal) (ix2 r k) := by
  obtain ⟨e0, e1, -⟩ := idx1 t
  unfold iblk1
  rw [View.read_apply]
  have h : ((cfg1.win 0).blk t).view.emb (ix2 p k) = (ix2 r k : S100000x128.Idx) := by
    funext a; apply Fin.ext
    match a with
    | ⟨0, _⟩ => show win1_0.index t (0 : Fin 2) * 4000 + 1 * p.val = r.val; rw [e0, hr]; omega
    | ⟨1, _⟩ => show win1_0.index t (1 : Fin 2) * 128 + 1 * k.val = k.val; rw [e1]; omega
  rw [h]
  rfl
theorem rows1_1 (c : Dev nD) (t : Fin cfg1.N) (p : Fin 4000) (k : Fin 128) (r : Fin 100000) (hr : r.val = t.val * 4000 + p.val) :
    (iblk1 V c 1 t : Vec Ideal S4000x128 .f32) (ix2 p k) = (V c (Pipeline.arrRef spec1 1) : S100000x128.Idx → EReal) (ix2 r k) := by
  obtain ⟨-, -, e0, e1, -⟩ := idx1 t
  unfold iblk1
  rw [View.read_apply]
  have h : ((cfg1.win 1).blk t).view.emb (ix2 p k) = (ix2 r k : S100000x128.Idx) := by
    funext a; apply Fin.ext
    match a with
    | ⟨0, _⟩ => show win1_1.index t (0 : Fin 2) * 4000 + 1 * p.val = r.val; rw [e0, hr]; omega
    | ⟨1, _⟩ => show win1_1.index t (1 : Fin 2) * 128 + 1 * k.val = k.val; rw [e1]; omega
  rw [h]
  rfl

/-- A parameter window's block at any point is its whole array. -/
theorem whole1_2 (c : Dev nD) (t : Fin cfg1.N) :
    (iblk1 V c 2 t : Vec Ideal S128x128 .f32) = (V c (Pipeline.arrRef spec1 2) : S128x128.Idx → EReal) := by
  obtain ⟨-, -, -, -, e0, e1, -⟩ := idx1 t
  funext z
  unfold iblk1
  rw [View.read_apply]
  have h : ((cfg1.win 2).blk t).view.emb z = (z : S128x128.Idx) := by
    funext a; apply Fin.ext
    match a with
    | ⟨0, _⟩ => show win1_2.index t (0 : Fin 2) * 128 + 1 * (z 0).val = (z 0).val; rw [e0]; omega
    | ⟨1, _⟩ => show win1_2.index t (1 : Fin 2) * 128 + 1 * (z 1).val = (z 1).val; rw [e1]; omega
  rw [h]
  rfl
theorem whole1_3 (c : Dev nD) (t : Fin cfg1.N) :
    (iblk1 V c 3 t : Vec Ideal S128x128 .f32) = (V c (Pipeline.arrRef spec1 3) : S128x128.Idx → EReal) := by
  obtain ⟨-, -, -, -, -, -, e0, e1, -⟩ := idx1 t
  funext z
  unfold iblk1
  rw [View.read_apply]
  have h : ((cfg1.win 3).blk t).view.emb z = (z : S128x128.Idx) := by
    funext a; apply Fin.ext
    match a with
    | ⟨0, _⟩ => show win1_3.index t (0 : Fin 2) * 128 + 1 * (z 0).val = (z 0).val; rw [e0]; omega
    | ⟨1, _⟩ => show win1_3.index t (1 : Fin 2) * 128 + 1 * (z 1).val = (z 1).val; rw [e1]; omega
  rw [h]
  rfl
theorem whole1_4 (c : Dev nD) (t : Fin cfg1.N) :
    (iblk1 V c 4 t : Vec Ideal S1x128 .f32) = (V c (Pipeline.arrRef spec1 4) : S1x128.Idx → EReal) := by
  obtain ⟨-, -, -, -, -, -, -, -, e0, e1, -⟩ := idx1 t
  funext z
  unfold iblk1
  rw [View.read_apply]
  have h : ((cfg1.win 4).blk t).view.emb z = (z : S1x128.Idx) := by
    funext a; apply Fin.ext
    match a with
    | ⟨0, _⟩ => show win1_4.index t (0 : Fin 2) * 1 + 1 * (z 0).val = (z 0).val; rw [e0]; omega
    | ⟨1, _⟩ => show win1_4.index t (1 : Fin 2) * 128 + 1 * (z 1).val = (z 1).val; rw [e1]; omega
  rw [h]
  rfl
theorem whole1_5 (c : Dev nD) (t : Fin cfg1.N) :
    (iblk1 V c 5 t : Vec Ideal S1x128 .f32) = (V c (Pipeline.arrRef spec1 5) : S1x128.Idx → EReal) := by
  obtain ⟨-, -, -, -, -, -, -, -, -, -, e0, e1, -⟩ := idx1 t
  funext z
  unfold iblk1
  rw [View.read_apply]
  have h : ((cfg1.win 5).blk t).view.emb z = (z : S1x128.Idx) := by
    funext a; apply Fin.ext
    match a with
    | ⟨0, _⟩ => show win1_5.index t (0 : Fin 2) * 1 + 1 * (z 0).val = (z 0).val; rw [e0]; omega
    | ⟨1, _⟩ => show win1_5.index t (1 : Fin 2) * 128 + 1 * (z 1).val = (z 1).val; rw [e1]; omega
  rw [h]
  rfl
theorem whole1_6 (c : Dev nD) (t : Fin cfg1.N) :
    (iblk1 V c 6 t : Vec Ideal S1x128 .f32) = (V c (Pipeline.arrRef spec1 6) : S1x128.Idx → EReal) := by
  obtain ⟨-, -, -, -, -, -, -, -, -, -, -, -, e0, e1, -⟩ := idx1 t
  funext z
  unfold iblk1
  rw [View.read_apply]
  have h : ((cfg1.win 6).blk t).view.emb z = (z : S1x128.Idx) := by
    funext a; apply Fin.ext
    match a with
    | ⟨0, _⟩ => show win1_6.index t (0 : Fin 2) * 1 + 1 * (z 0).val = (z 0).val; rw [e0]; omega
    | ⟨1, _⟩ => show win1_6.index t (1 : Fin 2) * 128 + 1 * (z 1).val = (z 1).val; rw [e1]; omega
  rw [h]
  rfl

/-- Entry `(p, q)` of the tile point `t` leaves is the dense stage of the whole arrays at `(4000·t + p, q)`. -/
theorem point1 (c : Dev nD) (t : Fin cfg1.N) (p : Fin 4000) (q : Fin 128) (r : Fin 100000) (hr : r.val = t.val * 4000 + p.val) :
    tile (iblk1 V c 0 t) (iblk1 V c 1 t) (iblk1 V c 2 t) (iblk1 V c 3 t) (iblk1 V c 4 t) (iblk1 V c 5 t) (iblk1 V c 6 t) (ix2 p q)
      = G1 V c (ix2 r q) := by
  rw [whole1_2, whole1_3, whole1_4, whole1_5, whole1_6]
  exact tile_eq_combine _ _ _ _ _ _ _ _ _ p q r (fun k => rows1_0 V c t p k r hr) (fun k => rows1_1 V c t p k r hr)

/-- What point `t` writes back is block `t` of the dense stage of the whole arrays. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S4000x128) hz, View.ld_unit_zero (S := S128x128) hz, View.ld_unit_zero (S := S1x128) hz]
  rw [k1_pay_eq]
  obtain ⟨-, -, -, -, -, -, -, -, -, -, -, -, -, -, e0, e1⟩ := idx1 t
  funext j
  rw [View.read_apply]
  obtain ⟨p, q, rfl⟩ : ∃ (p : Fin 4000) (q : Fin 128), j = ix2 p q := ⟨j 0, j 1, eq_ix2 j⟩
  have hlt : t.val * 4000 + p.val < 100000 := by
    have h25 : t.val < 25 := lt_of_lt_of_eq t.isLt N_1
    omega
  have h : ((cfg1.win 7).blk t).view.emb (ix2 p q) = (ix2 (⟨t.val * 4000 + p.val, hlt⟩ : Fin 100000) q : S100000x128.Idx) := by
    funext a; apply Fin.ext
    match a with
    | ⟨0, _⟩ => show win1_7.index t (0 : Fin 2) * 4000 + 1 * p.val = t.val * 4000 + p.val; rw [e0]; omega
    | ⟨1, _⟩ => show win1_7.index t (1 : Fin 2) * 128 + 1 * q.val = q.val; rw [e1]; omega
  rw [h]
  exact point1 V c t p q ⟨t.val * 4000 + p.val, hlt⟩ rfl

/-- An index of the result array is in point `t`'s block iff each coordinate is in the block's range on its axis. -/
theorem mem_blk1 (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v75).slice (win1_7.rect t)).set ↔ _
  rw [View.set_slice_whole, Rect.mem_set_unit]
  exact Iff.rfl

/-- Row `r` of the result array is in the block of point `r / 4000`. -/
theorem cover1 (i : S100000x128.Idx) : ∃ t : Fin cfg1.N, (cfg1.win 7).flush t = true ∧ i ∈ ((cfg1.win 7).blk t).view.set := by
  have hi0 : (i 0).val < 100000 := idx2_lt0 (n0 := 100000) (n1 := 128) i
  have hi1 : (i 1).val < 128 := idx2_lt1 (n0 := 100000) (n1 := 128) i
  have hlt : (i 0).val / 4000 < cfg1.N := lt_of_lt_of_eq (by omega : (i 0).val / 4000 < 25) N_1.symm
  obtain ⟨-, -, -, -, -, -, -, -, -, -, -, -, -, -, e0, e1⟩ := idx1 ⟨(i 0).val / 4000, hlt⟩
  refine ⟨⟨(i 0).val / 4000, hlt⟩, flush1_7 _, ?_⟩
  rw [mem_blk1]
  intro a
  match a with
  | ⟨0, _⟩ =>
    show win1_7.index ⟨(i 0).val / 4000, hlt⟩ (0 : Fin 2) * 4000 ≤ (i 0).val ∧ (i 0).val < win1_7.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, hlt⟩ (1 : Fin 2) * 128 ≤ (i 1).val ∧ (i 1).val < win1_7.index ⟨(i 0).val / 4000, hlt⟩ (1 : Fin 2) * 128 + 128
    rw [e1]; omega

/-- THE RESULT ARRAY after the launch: the dense stage of the arrays the launch was entered with. -/
theorem final1 (c : Dev nD) :
    (dat1 (F := Ideal) V c).arrAt 7 cfg1.N
      = Cert.Spec.combine (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) (V c (Pipeline.arrRef spec1 6)) :=
  (dat1 (F := Ideal) V c).arrAt_eq_of_cover 7 (G1 V c) (fun t _ => flushed1_eq V c t) (cover1)

end Cert.KernelIdeal.Block

end
-- ==== Proof.Block2.lean ====
/-
  The third launch of the row-tile kernel, from tiles to the whole array. Grid point t loads rows 4000·t … 4000·t + 3999
  of the two node arrays and the whole of the five parameter arrays, and writes the finished tile back to the same rows
  of the result array; the 25 tiles cover the 100000 rows, and an entry of a tile depends on its own row only, so the
  result array ends holding the dense stage of the whole arrays.
-/
import proofs.«109972_j53034256171351_1_alg».proof.Proof.TileRows
import proofs.«109972_j53034256171351_1_alg».proof.Proof.Gen.KernelIdeal.Frame
import Idealize.ShloMosaic.Lib.Pipeline.Value

set_option maxRecDepth 16384

noncomputable section

namespace Cert.KernelIdeal.Block

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The dense stage of the whole arrays the launch is entered with. -/
abbrev G2 (c : Dev nD) : S100000x128.Idx → EReal :=
  Cert.Spec.combine (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (V c (Pipeline.arrRef spec2 6))

/-- The printed index maps, decided over the grid: the two node windows and the result window are at row block `t`,
    the parameter windows at block zero, all at column block zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of a node window's block at point `t` is row `4000·t + p` of its array. -/
theorem rows2_0 (c : Dev nD) (t : Fin cfg2.N) (p : Fin 4000) (k : Fin 128) (r : Fin 100000) (hr : r.val = t.val * 4000 + p.val) :
    (iblk2 V c 0 t : Vec Ideal S4000x128 .f32) (ix2 p k) = (V c (Pipeline.arrRef spec2 0) : S100000x128.Idx → EReal) (ix2 r k) := by
  obtain ⟨e0, e1, -⟩ := idx2 t
  unfold iblk2
  rw [View.read_apply]
  have h : ((cfg2.win 0).blk t).view.emb (ix2 p k) = (ix2 r k : S100000x128.Idx) := by
    funext a; apply Fin.ext
    match a with
    | ⟨0, _⟩ => show win2_0.index t (0 : Fin 2) * 4000 + 1 * p.val = r.val; rw [e0, hr]; omega
    | ⟨1, _⟩ => show win2_0.index t (1 : Fin 2) * 128 + 1 * k.val = k.val; rw [e1]; omega
  rw [h]
  rfl
theorem rows2_1 (c : Dev nD) (t : Fin cfg2.N) (p : Fin 4000) (k : Fin 128) (r : Fin 100000) (hr : r.val = t.val * 4000 + p.val) :
    (iblk2 V c 1 t : Vec Ideal S4000x128 .f32) (ix2 p k) = (V c (Pipeline.arrRef spec2 1) : S100000x128.Idx → EReal) (ix2 r k) := by
  obtain ⟨-, -, e0, e1, -⟩ := idx2 t
  unfold iblk2
  rw [View.read_apply]
  have h : ((cfg2.win 1).blk t).view.emb (ix2 p k) = (ix2 r k : S100000x128.Idx) := by
    funext a; apply Fin.ext
    match a with
    | ⟨0, _⟩ => show win2_1.index t (0 : Fin 2) * 4000 + 1 * p.val = r.val; rw [e0, hr]; omega
    | ⟨1, _⟩ => show win2_1.index t (1 : Fin 2) * 128 + 1 * k.val = k.val; rw [e1]; omega
  rw [h]
  rfl

/-- A parameter window's block at any point is its whole array. -/
theorem whole2_2 (c : Dev nD) (t : Fin cfg2.N) :
    (iblk2 V c 2 t : Vec Ideal S128x128 .f32) = (V c (Pipeline.arrRef spec2 2) : S128x128.Idx → EReal) := by
  obtain ⟨-, -, -, -, e0, e1, -⟩ := idx2 t
  funext z
  unfold iblk2
  rw [View.read_apply]
  have h : ((cfg2.win 2).blk t).view.emb z = (z : S128x128.Idx) := by
    funext a; apply Fin.ext
    match a with
    | ⟨0, _⟩ => show win2_2.index t (0 : Fin 2) * 128 + 1 * (z 0).val = (z 0).val; rw [e0]; omega
    | ⟨1, _⟩ => show win2_2.index t (1 : Fin 2) * 128 + 1 * (z 1).val = (z 1).val; rw [e1]; omega
  rw [h]
  rfl
theorem whole2_3 (c : Dev nD) (t : Fin cfg2.N) :
    (iblk2 V c 3 t : Vec Ideal S128x128 .f32) = (V c (Pipeline.arrRef spec2 3) : S128x128.Idx → EReal) := by
  obtain ⟨-, -, -, -, -, -, e0, e1, -⟩ := idx2 t
  funext z
  unfold iblk2
  rw [View.read_apply]
  have h : ((cfg2.win 3).blk t).view.emb z = (z : S128x128.Idx) := by
    funext a; apply Fin.ext
    match a with
    | ⟨0, _⟩ => show win2_3.index t (0 : Fin 2) * 128 + 1 * (z 0).val = (z 0).val; rw [e0]; omega
    | ⟨1, _⟩ => show win2_3.index t (1 : Fin 2) * 128 + 1 * (z 1).val = (z 1).val; rw [e1]; omega
  rw [h]
  rfl
theorem whole2_4 (c : Dev nD) (t : Fin cfg2.N) :
    (iblk2 V c 4 t : Vec Ideal S1x128 .f32) = (V c (Pipeline.arrRef spec2 4) : S1x128.Idx → EReal) := by
  obtain ⟨-, -, -, -, -, -, -, -, e0, e1, -⟩ := idx2 t
  funext z
  unfold iblk2
  rw [View.read_apply]
  have h : ((cfg2.win 4).blk t).view.emb z = (z : S1x128.Idx) := by
    funext a; apply Fin.ext
    match a with
    | ⟨0, _⟩ => show win2_4.index t (0 : Fin 2) * 1 + 1 * (z 0).val = (z 0).val; rw [e0]; omega
    | ⟨1, _⟩ => show win2_4.index t (1 : Fin 2) * 128 + 1 * (z 1).val = (z 1).val; rw [e1]; omega
  rw [h]
  rfl
theorem whole2_5 (c : Dev nD) (t : Fin cfg2.N) :
    (iblk2 V c 5 t : Vec Ideal S1x128 .f32) = (V c (Pipeline.arrRef spec2 5) : S1x128.Idx → EReal) := by
  obtain ⟨-, -, -, -, -, -, -, -, -, -, e0, e1, -⟩ := idx2 t
  funext z
  unfold iblk2
  rw [View.read_apply]
  have h : ((cfg2.win 5).blk t).view.emb z = (z : S1x128.Idx) := by
    funext a; apply Fin.ext
    match a with
    | ⟨0, _⟩ => show win2_5.index t (0 : Fin 2) * 1 + 1 * (z 0).val = (z 0).val; rw [e0]; omega
    | ⟨1, _⟩ => show win2_5.index t (1 : Fin 2) * 128 + 1 * (z 1).val = (z 1).val; rw [e1]; omega
  rw [h]
  rfl
theorem whole2_6 (c : Dev nD) (t : Fin cfg2.N) :
    (iblk2 V c 6 t : Vec Ideal S1x128 .f32) = (V c (Pipeline.arrRef spec2 6) : S1x128.Idx → EReal) := by
  obtain ⟨-, -, -, -, -, -, -, -, -, -, -, -, e0, e1, -⟩ := idx2 t
  funext z
  unfold iblk2
  rw [View.read_apply]
  have h : ((cfg2.win 6).blk t).view.emb z = (z : S1x128.Idx) := by
    funext a; apply Fin.ext
    match a with
    | ⟨0, _⟩ => show win2_6.index t (0 : Fin 2) * 1 + 1 * (z 0).val = (z 0).val; rw [e0]; omega
    | ⟨1, _⟩ => show win2_6.index t (1 : Fin 2) * 128 + 1 * (z 1).val = (z 1).val; rw [e1]; omega
  rw [h]
  rfl

/-- Entry `(p, q)` of the tile point `t` leaves is the dense stage of the whole arrays at `(4000·t + p, q)`. -/
theorem point2 (c : Dev nD) (t : Fin cfg2.N) (p : Fin 4000) (q : Fin 128) (r : Fin 100000) (hr : r.val = t.val * 4000 + p.val) :
    tile (iblk2 V c 0 t) (iblk2 V c 1 t) (iblk2 V c 2 t) (iblk2 V c 3 t) (iblk2 V c 4 t) (iblk2 V c 5 t) (iblk2 V c 6 t) (ix2 p q)
      = G2 V c (ix2 r q) := by
  rw [whole2_2, whole2_3, whole2_4, whole2_5, whole2_6]
  exact tile_eq_combine _ _ _ _ _ _ _ _ _ p q r (fun k => rows2_0 V c t p k r hr) (fun k => rows2_1 V c t p k r hr)

/-- What point `t` writes back is block `t` of the dense stage of the whole arrays. -/
theorem flushed2_eq (c : Dev nD) (t : Fin cfg2.N) :
    (dat2 (F := Ideal) V c).flushed 7 t = ((cfg2.win 7).blk t).view.read (Elt Ideal) (G2 V c) := by
  show (cfg2.win 7).cut (grid2.coords t) ((dat2 V c).after 7 t) = _
  rw [after2_7]
  unfold out2_7
  rw [View.canon_unit_zero hz]
  simp only [View.ld_unit_zero (S := S4000x128) hz, View.ld_unit_zero (S := S128x128) hz, View.ld_unit_zero (S := S1x128) hz]
  rw [k2_pay_eq]
  obtain ⟨-, -, -, -, -, -, -, -, -, -, -, -, -, -, e0, e1⟩ := idx2 t
  funext j
  rw [View.read_apply]
  obtain ⟨p, q, rfl⟩ : ∃ (p : Fin 4000) (q : Fin 128), j = ix2 p q := ⟨j 0, j 1, eq_ix2 j⟩
  have hlt : t.val * 4000 + p.val < 100000 := by
    have h25 : t.val < 25 := lt_of_lt_of_eq t.isLt N_2
    omega
  have h : ((cfg2.win 7).blk t).view.emb (ix2 p q) = (ix2 (⟨t.val * 4000 + p.val, hlt⟩ : Fin 100000) q : S100000x128.Idx) := by
    funext a; apply Fin.ext
    match a with
    | ⟨0, _⟩ => show win2_7.index t (0 : Fin 2) * 4000 + 1 * p.val = t.val * 4000 + p.val; rw [e0]; omega
    | ⟨1, _⟩ => show win2_7.index t (1 : Fin 2) * 128 + 1 * q.val = q.val; rw [e1]; omega
  rw [h]
  exact point2 V c t p q ⟨t.val * 4000 + p.val, hlt⟩ rfl

/-- An index of the result array is in point `t`'s block iff each coordinate is in the block's range on its axis. -/
theorem mem_blk2 (t : Fin cfg2.N) (i : S100000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v111).slice (win2_7.rect t)).set ↔ _
  rw [View.set_slice_whole, Rect.mem_set_unit]
  exact Iff.rfl

/-- Row `r` of the result array is in the block of point `r / 4000`. -/
theorem cover2 (i : S100000x128.Idx) : ∃ t : Fin cfg2.N, (cfg2.win 7).flush t = true ∧ i ∈ ((cfg2.win 7).blk t).view.set := by
  have hi0 : (i 0).val < 100000 := idx2_lt0 (n0 := 100000) (n1 := 128) i
  have hi1 : (i 1).val < 128 := idx2_lt1 (n0 := 100000) (n1 := 128) i
  have hlt : (i 0).val / 4000 < cfg2.N := lt_of_lt_of_eq (by omega : (i 0).val / 4000 < 25) N_2.symm
  obtain ⟨-, -, -, -, -, -, -, -, -, -, -, -, -, -, e0, e1⟩ := idx2 ⟨(i 0).val / 4000, hlt⟩
  refine ⟨⟨(i 0).val / 4000, hlt⟩, flush2_7 _, ?_⟩
  rw [mem_blk2]
  intro a
  match a with
  | ⟨0, _⟩ =>
    show win2_7.index ⟨(i 0).val / 4000, hlt⟩ (0 : Fin 2) * 4000 ≤ (i 0).val ∧ (i 0).val < win2_7.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win2_7.index ⟨(i 0).val / 4000, hlt⟩ (1 : Fin 2) * 128 ≤ (i 1).val ∧ (i 1).val < win2_7.index ⟨(i 0).val / 4000, hlt⟩ (1 : Fin 2) * 128 + 128
    rw [e1]; omega

/-- THE RESULT ARRAY after the launch: the dense stage of the arrays the launch was entered with. -/
theorem final2 (c : Dev nD) :
    (dat2 (F := Ideal) V c).arrAt 7 cfg2.N
      = Cert.Spec.combine (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6)) :=
  (dat2 (F := Ideal) V c).arrAt_eq_of_cover 7 (G2 V c) (fun t _ => flushed2_eq V c t) (cover2)

end Cert.KernelIdeal.Block

end
-- ==== Proof.KerValue.lean ====
/-
  The result of the idealized kernel program as one function of its arguments. Each launch's output array is, block by
  block, the layer's dense stage of the arrays the launch found (the three block theorems); what it found is read back
  through the host operations before it to the launch memory and to the previous launch's output. Chained, the result
  buffer holds the three-layer network of the argument arrays.
-/
import proofs.«109972_j53034256171351_1_alg».proof.Proof.KerHost0
import proofs.«109972_j53034256171351_1_alg».proof.Proof.KerHost1
import proofs.«109972_j53034256171351_1_alg».proof.Proof.KerHost2
import proofs.«109972_j53034256171351_1_alg».proof.Proof.Params
import proofs.«109972_j53034256171351_1_alg».proof.Proof.Block0
import proofs.«109972_j53034256171351_1_alg».proof.Proof.Block1
import proofs.«109972_j53034256171351_1_alg».proof.Proof.Block2
set_option maxRecDepth 16384

noncomputable section

namespace Cert.KernelIdeal.Whole

open Idealize.ShloMosaic Idealize.ShloMosaic.TcCoe Idealize.SL.Sem
open Cert.KernelIdeal Cert.KernelIdeal.Gen Cert.KernelIdeal.Stretch
open StableHlo

variable (m : (ℓ : Loc nD τ sig) → Buf (Elt Ideal) ℓ) (ρ : Dev nD → PrngReg)

/-- The aggregation over the launch memory's edge list and weights. -/
def aggOf (c : Dev nD) : (Cert.Spec.Nodes.Idx → EReal) → Cert.Spec.Nodes.Idx → EReal :=
  fun x => aggK x (srcOf (m ((c : Thread nD τ).loc main_arg1))) (dstOf (m ((c : Thread nD τ).loc main_arg1))) (m ((c : Thread nD τ).loc main_arg2))

/-- The dense stage of equal arrays is equal. -/
theorem combine_congr {n n' x x' : Cert.Spec.Nodes.Idx → EReal} {wn wn' wr wr' : Cert.Spec.Sq.Idx → EReal} {b b' g g' β β' : Cert.Spec.Row.Idx → EReal}
    (h0 : n = n') (h1 : x = x') (h2 : wn = wn') (h3 : wr = wr') (h4 : b = b') (h5 : g = g') (h6 : β = β') :
    Cert.Spec.combine n x wn wr b g β = Cert.Spec.combine n' x' wn' wr' b' g' β' := by
  subst h0 h1 h2 h3 h4 h5 h6
  rfl

/-- The program's cut of a weight slab is the specification's. -/
theorem cutT_eq (o : ℕ) (ho : o < 3) (hs : S3x128x128.Slices ![o, 0, 0] S1x128x128) (w : FVec Ideal S3x128x128 .f32) :
    cutT o hs w = Cert.Spec.slabT w ⟨o, ho⟩ :=
  Cert.Params.slabT_eq w o ho hs _ _
/-- The program's cut of a parameter row is the specification's. -/
theorem cutRow_eq (o : ℕ) (ho : o < 3) (hs : S3x128.Slices ![o, 0] S1x128) (b : FVec Ideal S3x128 .f32) :
    cutRow o hs b = Cert.Spec.slabRow b ⟨o, ho⟩ :=
  Cert.Params.slabRow_cast b o ho hs _ _

set_option maxHeartbeats 2000000 in
/-- After the first launch its output holds layer 0 of the launch memory's features. -/
theorem layer0 (c : Dev nD) : W4 m ρ c (Proc.devRef .tc main_v39)
    = Cert.Spec.layer (aggOf m c) 0 (m ((c : Thread nD τ).loc main_arg0)) (m ((c : Thread nD τ).loc main_arg3)) (m ((c : Thread nD τ).loc main_arg4))
        (m ((c : Thread nD τ).loc main_arg5)) (m ((c : Thread nD τ).loc main_arg6)) (m ((c : Thread nD τ).loc main_arg7)) := by
  have e0 : V3 m ρ c (Pipeline.arrRef spec0 0) = aggOf m c (m ((c : Thread nD τ).loc main_arg0)) := neigh0 (W0 m ρ c)
  have e1 : V3 m ρ c (Pipeline.arrRef spec0 1) = m ((c : Thread nD τ).loc main_arg0) := keep0_main_arg0 (W0 m ρ c)
  have e2 : V3 m ρ c (Pipeline.arrRef spec0 2) = Cert.Spec.slabT (m ((c : Thread nD τ).loc main_arg3)) 0 := (wn0 (W0 m ρ c)).trans (cutT_eq 0 (by omega) _ _)
  have e3 : V3 m ρ c (Pipeline.arrRef spec0 3) = Cert.Spec.slabT (m ((c : Thread nD τ).loc main_arg4)) 0 := (wr0 (W0 m ρ c)).trans (cutT_eq 0 (by omega) _ _)
  have e4 : V3 m ρ c (Pipeline.arrRef spec0 4) = Cert.Spec.slabRow (m ((c : Thread nD τ).loc main_arg5)) 0 := (b0 (W0 m ρ c)).trans (cutRow_eq 0 (by omega) _ _)
  have e5 : V3 m ρ c (Pipeline.arrRef spec0 5) = Cert.Spec.slabRow (m ((c : Thread nD τ).loc main_arg6)) 0 := (g0 (W0 m ρ c)).trans (cutRow_eq 0 (by omega) _ _)
  have e6 : V3 m ρ c (Pipeline.arrRef spec0 6) = Cert.Spec.slabRow (m ((c : Thread nD τ).loc main_arg7)) 0 := (be0 (W0 m ρ c)).trans (cutRow_eq 0 (by omega) _ _)
  exact (W4_arr m ρ c 7).trans ((Cert.KernelIdeal.Block.final0 (V3 m ρ) c).trans (combine_congr e0 e1 e2 e3 e4 e5 e6))

/-- What the boundary after the first launch holds of the buffers the later layers read. -/
theorem W4_src (c : Dev nD) : W4 m ρ c (Proc.devRef .tc main_v1) = srcOf (m ((c : Thread nD τ).loc main_arg1)) :=
  (W4_of_ne m ρ c main_v1 (by decide)).trans (src0 (W0 m ρ c))
theorem W4_dst (c : Dev nD) : W4 m ρ c (Proc.devRef .tc main_v3) = dstOf (m ((c : Thread nD τ).loc main_arg1)) :=
  (W4_of_ne m ρ c main_v3 (by decide)).trans (dst0 (W0 m ρ c))
theorem W4_arg2 (c : Dev nD) : W4 m ρ c (Proc.devRef .tc main_arg2) = m ((c : Thread nD τ).loc main_arg2) :=
  (W4_of_ne m ρ c main_arg2 (by decide)).trans (keep0_main_arg2 (W0 m ρ c))
theorem W4_arg3 (c : Dev nD) : W4 m ρ c (Proc.devRef .tc main_arg3) = m ((c : Thread nD τ).loc main_arg3) :=
  (W4_of_ne m ρ c main_arg3 (by decide)).trans (keep0_main_arg3 (W0 m ρ c))
theorem W4_arg4 (c : Dev nD) : W4 m ρ c (Proc.devRef .tc main_arg4) = m ((c : Thread nD τ).loc main_arg4) :=
  (W4_of_ne m ρ c main_arg4 (by decide)).trans (keep0_main_arg4 (W0 m ρ c))
theorem W4_arg5 (c : Dev nD) : W4 m ρ c (Proc.devRef .tc main_arg5) = m ((c : Thread nD τ).loc main_arg5) :=
  (W4_of_ne m ρ c main_arg5 (by decide)).trans (keep0_main_arg5 (W0 m ρ c))
theorem W4_arg6 (c : Dev nD) : W4 m ρ c (Proc.devRef .tc main_arg6) = m ((c : Thread nD τ).loc main_arg6) :=
  (W4_of_ne m ρ c main_arg6 (by decide)).trans (keep0_main_arg6 (W0 m ρ c))
theorem W4_arg7 (c : Dev nD) : W4 m ρ c (Proc.devRef .tc main_arg7) = m ((c : Thread nD τ).loc main_arg7) :=
  (W4_of_ne m ρ c main_arg7 (by decide)).trans (keep0_main_arg7 (W0 m ρ c))

set_option maxHeartbeats 2000000 in
/-- After the second launch its output holds layer 1 of the first launch's output. -/
theorem layer1 (c : Dev nD) : W8 m ρ c (Proc.devRef .tc main_v75)
    = Cert.Spec.layer (aggOf m c) 1 (W4 m ρ c (Proc.devRef .tc main_v39)) (m ((c : Thread nD τ).loc main_arg3)) (m ((c : Thread nD τ).loc main_arg4))
        (m ((c : Thread nD τ).loc main_arg5)) (m ((c : Thread nD τ).loc main_arg6)) (m ((c : Thread nD τ).loc main_arg7)) := by
  have e0 : V7 m ρ c (Pipeline.arrRef spec1 0) = aggOf m c (W4 m ρ c (Proc.devRef .tc main_v39)) :=
    (neigh1 (W4 m ρ c)).trans (by rw [W4_src, W4_dst, W4_arg2]; rfl)
  have e1 : V7 m ρ c (Pipeline.arrRef spec1 1) = W4 m ρ c (Proc.devRef .tc main_v39) := keep1_main_v39 (W4 m ρ c)
  have e2 : V7 m ρ c (Pipeline.arrRef spec1 2) = Cert.Spec.slabT (m ((c : Thread nD τ).loc main_arg3)) 1 :=
    (wn1 (W4 m ρ c)).trans ((congrArg _ (W4_arg3 m ρ c)).trans (cutT_eq 1 (by omega) _ _))
  have e3 : V7 m ρ c (Pipeline.arrRef spec1 3) = Cert.Spec.slabT (m ((c : Thread nD τ).loc main_arg4)) 1 :=
    (wr1 (W4 m ρ c)).trans ((congrArg _ (W4_arg4 m ρ c)).trans (cutT_eq 1 (by omega) _ _))
  have e4 : V7 m ρ c (Pipeline.arrRef spec1 4) = Cert.Spec.slabRow (m ((c : Thread nD τ).loc main_arg5)) 1 :=
    (b1 (W4 m ρ c)).trans ((congrArg _ (W4_arg5 m ρ c)).trans (cutRow_eq 1 (by omega) _ _))
  have e5 : V7 m ρ c (Pipeline.arrRef spec1 5) = Cert.Spec.slabRow (m ((c : Thread nD τ).loc main_arg6)) 1 :=
    (g1 (W4 m ρ c)).trans ((congrArg _ (W4_arg6 m ρ c)).trans (cutRow_eq 1 (by omega) _ _))
  have e6 : V7 m ρ c (Pipeline.arrRef spec1 6) = Cert.Spec.slabRow (m ((c : Thread nD τ).loc main_arg7)) 1 :=
    (be1 (W4 m ρ c)).trans ((congrArg _ (W4_arg7 m ρ c)).trans (cutRow_eq 1 (by omega) _ _))
  exact (W8_arr m ρ c 7).trans ((Cert.KernelIdeal.Block.final1 (V7 m ρ) c).trans (combine_congr e0 e1 e2 e3 e4 e5 e6))

theorem W8_src (c : Dev nD) : W8 m ρ c (Proc.devRef .tc main_v1) = srcOf (m ((c : Thread nD τ).loc main_arg1)) :=
  (W8_of_ne m ρ c main_v1 (by decide)).trans ((keep1_main_v1 (W4 m ρ c)).trans (W4_src m ρ c))
theorem W8_dst (c : Dev nD) : W8 m ρ c (Proc.devRef .tc main_v3) = dstOf (m ((c : Thread nD τ).loc main_arg1)) :=
  (W8_of_ne m ρ c main_v3 (by decide)).trans ((keep1_main_v3 (W4 m ρ c)).trans (W4_dst m ρ c))
theorem W8_arg2 (c : Dev nD) : W8 m ρ c (Proc.devRef .tc main_arg2) = m ((c : Thread nD τ).loc main_arg2) :=
  (W8_of_ne m ρ c main_arg2 (by decide)).trans ((keep1_main_arg2 (W4 m ρ c)).trans (W4_arg2 m ρ c))
theorem W8_arg3 (c : Dev nD) : W8 m ρ c (Proc.devRef .tc main_arg3) = m ((c : Thread nD τ).loc main_arg3) :=
  (W8_of_ne m ρ c main_arg3 (by decide)).trans ((keep1_main_arg3 (W4 m ρ c)).trans (W4_arg3 m ρ c))
theorem W8_arg4 (c : Dev nD) : W8 m ρ c (Proc.devRef .tc main_arg4) = m ((c : Thread nD τ).loc main_arg4) :=
  (W8_of_ne m ρ c main_arg4 (by decide)).trans ((keep1_main_arg4 (W4 m ρ c)).trans (W4_arg4 m ρ c))
theorem W8_arg5 (c : Dev nD) : W8 m ρ c (Proc.devRef .tc main_arg5) = m ((c : Thread nD τ).loc main_arg5) :=
  (W8_of_ne m ρ c main_arg5 (by decide)).trans ((keep1_main_arg5 (W4 m ρ c)).trans (W4_arg5 m ρ c))
theorem W8_arg6 (c : Dev nD) : W8 m ρ c (Proc.devRef .tc main_arg6) = m ((c : Thread nD τ).loc main_arg6) :=
  (W8_of_ne m ρ c main_arg6 (by decide)).trans ((keep1_main_arg6 (W4 m ρ c)).trans (W4_arg6 m ρ c))
theorem W8_arg7 (c : Dev nD) : W8 m ρ c (Proc.devRef .tc main_arg7) = m ((c : Thread nD τ).loc main_arg7) :=
  (W8_of_ne m ρ c main_arg7 (by decide)).trans ((keep1_main_arg7 (W4 m ρ c)).trans (W4_arg7 m ρ c))

set_option maxHeartbeats 2000000 in
/-- After the third launch its output holds layer 2 of the second launch's output. -/
theorem layer2 (c : Dev nD) : W12 m ρ c (Proc.devRef .tc main_v111)
    = Cert.Spec.layer (aggOf m c) 2 (W8 m ρ c (Proc.devRef .tc main_v75)) (m ((c : Thread nD τ).loc main_arg3)) (m ((c : Thread nD τ).loc main_arg4))
        (m ((c : Thread nD τ).loc main_arg5)) (m ((c : Thread nD τ).loc main_arg6)) (m ((c : Thread nD τ).loc main_arg7)) := by
  have e0 : V11 m ρ c (Pipeline.arrRef spec2 0) = aggOf m c (W8 m ρ c (Proc.devRef .tc main_v75)) :=
    (neigh2 (W8 m ρ c)).trans (by rw [W8_src, W8_dst, W8_arg2]; rfl)
  have e1 : V11 m ρ c (Pipeline.arrRef spec2 1) = W8 m ρ c (Proc.devRef .tc main_v75) := keep2_main_v75 (W8 m ρ c)
  have e2 : V11 m ρ c (Pipeline.arrRef spec2 2) = Cert.Spec.slabT (m ((c : Thread nD τ).loc main_arg3)) 2 :=
    (wn2 (W8 m ρ c)).trans ((congrArg _ (W8_arg3 m ρ c)).trans (cutT_eq 2 (by omega) _ _))
  have e3 : V11 m ρ c (Pipeline.arrRef spec2 3) = Cert.Spec.slabT (m ((c : Thread nD τ).loc main_arg4)) 2 :=
    (wr2 (W8 m ρ c)).trans ((congrArg _ (W8_arg4 m ρ c)).trans (cutT_eq 2 (by omega) _ _))
  have e4 : V11 m ρ c (Pipeline.arrRef spec2 4) = Cert.Spec.slabRow (m ((c : Thread nD τ).loc main_arg5)) 2 :=
    (b2 (W8 m ρ c)).trans ((congrArg _ (W8_arg5 m ρ c)).trans (cutRow_eq 2 (by omega) _ _))
  have e5 : V11 m ρ c (Pipeline.arrRef spec2 5) = Cert.Spec.slabRow (m ((c : Thread nD τ).loc main_arg6)) 2 :=
    (g2 (W8 m ρ c)).trans ((congrArg _ (W8_arg6 m ρ c)).trans (cutRow_eq 2 (by omega) _ _))
  have e6 : V11 m ρ c (Pipeline.arrRef spec2 6) = Cert.Spec.slabRow (m ((c : Thread nD τ).loc main_arg7)) 2 :=
    (be2 (W8 m ρ c)).trans ((congrArg _ (W8_arg7 m ρ c)).trans (cutRow_eq 2 (by omega) _ _))
  exact (W12_arr m ρ c 7).trans ((Cert.KernelIdeal.Block.final2 (V11 m ρ) c).trans (combine_congr e0 e1 e2 e3 e4 e5 e6))

/-- The result buffer at the last boundary is the three-layer network of the launch memory. -/
theorem result_eq (c : Dev nD) : W12 m ρ c (Proc.devRef .tc main_v111)
    = Cert.Spec.net (aggOf m c) (m ((c : Thread nD τ).loc main_arg0)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [layer2, layer1, layer0]
  rfl

end Cert.KernelIdeal.Whole

end
-- ==== Proof.RefRun.lean ====
/-
  The reference program's @main as one straight line of host operations, every call of a module-local function
  replaced by the callee's operations over that call's buffer record, and its run: every weakly fair execution
  terminates with each buffer at the operations' fold over the launch contents. The line is cut into consecutive
  segments (the slicing of one layer's parameters, its aggregation, its dense stage, and a window's end); the three
  layers are opsA, opsB and opsC.
-/
import proofs.«109972_j53034256171351_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations seg00 (window 0, 14 operations, the last writing main_v13). -/
abbrev seg00 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg3 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v4 main_v5 rfl shapeCasts_S1x128x128_S128x128,
    StableHlo.unary main_arg4 main_v6 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v6 main_v7 rfl shapeCasts_S1x128x128_S128x128,
    StableHlo.unary main_arg5 main_v8 ((extractStridedSlice S1x128 ![0, 0] · slices_S3x128_S1x128_0_0) : (⟨S3x128, .f32⟩ : BufTy).Contents (Elt F) → (⟨S1x128, .f32⟩ : BufTy).Contents (Elt F)),
    StableHlo.reshape main_v8 main_v9 rfl shapeCasts_S1x128_S128,
    StableHlo.unary main_arg6 main_v10 ((extractStridedSlice S1x128 ![0, 0] · slices_S3x128_S1x128_0_0) : (⟨S3x128, .f32⟩ : BufTy).Contents (Elt F) → (⟨S1x128, .f32⟩ : BufTy).Contents (Elt F)),
    StableHlo.reshape main_v10 main_v11 rfl shapeCasts_S1x128_S128,
    StableHlo.unary main_arg7 main_v12 ((extractStridedSlice S1x128 ![0, 0] · slices_S3x128_S1x128_0_0) : (⟨S3x128, .f32⟩ : BufTy).Contents (Elt F) → (⟨S1x128, .f32⟩ : BufTy).Contents (Elt F)),
    StableHlo.reshape main_v12 main_v13 rfl shapeCasts_S1x128_S128 ]

/-- Operations seg01 (window 0, 27 operations, the last writing main_v33). -/
abbrev seg01 : List (HloOp τ sig (Elt F)) :=
  [ StableHlo.unary main_arg2 main_v14 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_arg0 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v14 main_v22 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v22 main_v21 main_v23 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v24 (broadcastInDim S100000x128 ![] bcast_S_S100000x128 : (⟨S_, .f32⟩ : BufTy).Contents (Elt F) → (⟨S100000x128, .f32⟩ : BufTy).Contents (Elt F)),
    StableHlo.unary main_v3 main_v25 (broadcastInDim S1600000x1 ![0] bcast_S1600000_S1600000x1_0 : (⟨S1600000, .i32⟩ : BufTy).Contents (Elt F) → (⟨S1600000x1, .i32⟩ : BufTy).Contents (Elt F)),
    StableHlo.ternary main_v24 main_v25 main_v23 main_v26 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x00000000#32),
    StableHlo.unary main_cst_1 main_v27 (broadcastInDim S100000 ![] bcast_S_S100000 : (⟨S_, .f32⟩ : BufTy).Contents (Elt F) → (⟨S100000, .f32⟩ : BufTy).Contents (Elt F)),
    StableHlo.unary main_v3 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_arg2 main_v29 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_call0_v0 ((id) : (⟨S_, .f32⟩ : BufTy).Contents (Elt F) → (⟨S_, .f32⟩ : BufTy).Contents (Elt F)),
    StableHlo.unary main_call0_v0 main_call0_v1 ((broadcastInDim S100000 ![] bcast_S_S100000) : (⟨S_, .f32⟩ : BufTy).Contents (Elt F) → (⟨S100000, .f32⟩ : BufTy).Contents (Elt F)),
    StableHlo.binary main_call0_v1 main_v29 main_v30 ((maximumf) : (⟨S100000, .f32⟩ : BufTy).Contents (Elt F) → (⟨S100000, .f32⟩ : BufTy).Contents (Elt F) → (⟨S100000, .f32⟩ : BufTy).Contents (Elt F)),
    StableHlo.unary main_v30 main_v31 (broadcastInDim S100000x1 ![0] bcast_S100000_S100000x1_0 : (⟨S100000, .f32⟩ : BufTy).Contents (Elt F) → (⟨S100000x1, .f32⟩ : BufTy).Contents (Elt F)),
    StableHlo.unary main_v31 main_v32 (broadcastInDim S100000x128 ![0, 1] bcast_S100000x1_S100000x128_0_1 : (⟨S100000x1, .f32⟩ : BufTy).Contents (Elt F) → (⟨S100000x128, .f32⟩ : BufTy).Contents (Elt F)),
    StableHlo.binary main_v26 main_v32 main_v33 (Host.divf : (⟨S100000x128, .f32⟩ : BufTy).Contents (Elt F) → (⟨S100000x128, .f32⟩ : BufTy).Contents (Elt F) → (⟨S100000x128, .f32⟩ : BufTy).Contents (Elt F)) ]

/-- Operations seg02 (window 0, 45 operations, the last writing main_v50). -/
abbrev seg02 : List (HloOp τ sig (Elt F)) :=
  [ StableHlo.unary main_v5 main_v34 ((transpose S128x128 [1, 0] · transposes_S128x128_S128x128_1_0) : (⟨S128x128, .f32⟩ : BufTy).Contents (Elt F) → (⟨S128x128, .f32⟩ : BufTy).Contents (Elt F)),
    StableHlo.binary main_v33 main_v34 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v7 main_v36 ((transpose S128x128 [1, 0] · transposes_S128x128_S128x128_1_0) : (⟨S128x128, .f32⟩ : BufTy).Contents (Elt F) → (⟨S128x128, .f32⟩ : BufTy).Contents (Elt F)),
    StableHlo.binary main_arg0 main_v36 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)),
    StableHlo.unary main_v9 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v38 main_v40 main_v41 (addf : (⟨S100000x128, .f32⟩ : BufTy).Contents (Elt F) → (⟨S100000x128, .f32⟩ : BufTy).Contents (Elt F) → (⟨S100000x128, .f32⟩ : BufTy).Contents (Elt F)),
    StableHlo.nullary main_call1_cst (constant S_ .f32 0x00000000#32),
    StableHlo.unary main_call1_cst main_call1_v0 ((broadcastInDim S100000x128 ![] bcast_S_S100000x128) : (⟨S_, .f32⟩ : BufTy).Contents (Elt F) → (⟨S100000x128, .f32⟩ : BufTy).Contents (Elt F)),
    StableHlo.binary main_v41 main_call1_v0 main_v42 ((maximumf) : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.binary main_v42 main_cst_3 main_v43 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v43 main_v44 (broadcastInDim S100000x1 ![0] bcast_S100000_S100000x1_0 : (⟨S100000, .f32⟩ : BufTy).Contents (Elt F) → (⟨S100000x1, .f32⟩ : BufTy).Contents (Elt F)),
    StableHlo.nullary main_cst_4 (constant S_ .f32 0x43000000#32),
    StableHlo.unary main_cst_4 main_v45 (broadcastInDim S100000x1 ![] bcast_S_S100000x1 : (⟨S_, .f32⟩ : BufTy).Contents (Elt F) → (⟨S100000x1, .f32⟩ : BufTy).Contents (Elt F)),
    StableHlo.binary main_v44 main_v45 main_v46 (Host.divf : (⟨S100000x1, .f32⟩ : BufTy).Contents (Elt F) → (⟨S100000x1, .f32⟩ : BufTy).Contents (Elt F) → (⟨S100000x1, .f32⟩ : BufTy).Contents (Elt F)),
    StableHlo.nullary main_c_5 (constantI S_ 32 0#32),
    StableHlo.nullary main_call2_cst (constant S_ .f32 0x00000000#32),
    StableHlo.binary main_v42 main_call2_cst main_call2_v0 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_call2_v0 main_call2_v1 ((broadcastInDim S100000x1 ![0] bcast_S100000_S100000x1_0) : (⟨S100000, .f32⟩ : BufTy).Contents (Elt F) → (⟨S100000x1, .f32⟩ : BufTy).Contents (Elt F)),
    StableHlo.nullary main_call2_cst_0 (constant S_ .f32 0x43000000#32),
    StableHlo.unary main_call2_cst_0 main_call2_v2 ((broadcastInDim S100000x1 ![] bcast_S_S100000x1) : (⟨S_, .f32⟩ : BufTy).Contents (Elt F) → (⟨S100000x1, .f32⟩ : BufTy).Contents (Elt F)),
    StableHlo.binary main_call2_v1 main_call2_v2 main_call2_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call2_v3 main_call2_v4 ((broadcastInDim S100000x128 ![0, 1] bcast_S100000x1_S100000x128_0_1) : (⟨S100000x1, .f32⟩ : BufTy).Contents (Elt F) → (⟨S100000x128, .f32⟩ : BufTy).Contents (Elt F)),
    StableHlo.binary main_v42 main_call2_v4 main_call2_v5 ((subf) : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 ((mulf) : (⟨S100000x128, .f32⟩ : BufTy).Contents (Elt F) → (⟨S100000x128, .f32⟩ : BufTy).Contents (Elt F) → (⟨S100000x128, .f32⟩ : BufTy).Contents (Elt F)),
    StableHlo.unary main_c_5 main_call2_v7 ((sitofp .f32) : (⟨S_, .i32⟩ : BufTy).Contents (Elt F) → (⟨S_, .f32⟩ : BufTy).Contents (Elt F)),
    StableHlo.nullary main_call2_cst_1 (constant S_ .f32 0x43000000#32),
    StableHlo.binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_call2_v9 main_call2_v10 ((broadcastInDim S100000x1 ![0] bcast_S100000_S100000x1_0) : (⟨S100000, .f32⟩ : BufTy).Contents (Elt F) → (⟨S100000x1, .f32⟩ : BufTy).Contents (Elt F)),
    StableHlo.unary main_call2_v8 main_call2_v11 ((broadcastInDim S100000x1 ![] bcast_S_S100000x1) : (⟨S_, .f32⟩ : BufTy).Contents (Elt F) → (⟨S100000x1, .f32⟩ : BufTy).Contents (Elt F)),
    StableHlo.binary main_call2_v10 main_call2_v11 main_call2_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call2_cst_3 (constant S_ .f32 0x00000000#32),
    StableHlo.binary main_call2_v8 main_call2_cst_3 main_call2_v13 ((cmpf .ogt) : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 ((id) : (⟨S_, .f32⟩ : BufTy).Contents (Elt F) → (⟨S_, .f32⟩ : BufTy).Contents (Elt F)),
    StableHlo.unary main_call2_call0_v0 main_call2_call0_v1 ((broadcastInDim S100000x1 ![] bcast_S_S100000x1) : (⟨S_, .f32⟩ : BufTy).Contents (Elt F) → (⟨S100000x1, .f32⟩ : BufTy).Contents (Elt F)),
    StableHlo.ternary main_call2_v13 main_call2_v12 main_call2_call0_v1 main_v47 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v46 main_v48 (broadcastInDim S100000x128 ![0, 1] bcast_S100000x1_S100000x128_0_1 : (⟨S100000x1, .f32⟩ : BufTy).Contents (Elt F) → (⟨S100000x128, .f32⟩ : BufTy).Contents (Elt F)),
    StableHlo.binary main_v42 main_v48 main_v49 (subf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3727C5AC#32),
    StableHlo.unary main_cst_6 main_v50 (broadcastInDim S100000x1 ![] bcast_S_S100000x1 : (⟨S_, .f32⟩ : BufTy).Contents (Elt F) → (⟨S100000x1, .f32⟩ : BufTy).Contents (Elt F)) ]

/-- Operations seg03 (window 1, 10 operations, the last writing main_v60). -/
abbrev seg03 : List (HloOp τ sig (Elt F)) :=
  [ StableHlo.binary main_v47 main_v50 main_v51 (addf : (⟨S100000x1, .f32⟩ : BufTy).Contents (Elt F) → (⟨S100000x1, .f32⟩ : BufTy).Contents (Elt F) → (⟨S100000x1, .f32⟩ : BufTy).Contents (Elt F)),
    StableHlo.unary main_v51 main_v52 (Host.rsqrt : (⟨S100000x1, .f32⟩ : BufTy).Contents (Elt F) → (⟨S100000x1, .f32⟩ : BufTy).Contents (Elt F)),
    StableHlo.unary main_v52 main_v53 (broadcastInDim S100000x128 ![0, 1] bcast_S100000x1_S100000x128_0_1 : (⟨S100000x1, .f32⟩ : BufTy).Contents (Elt F) → (⟨S100000x128, .f32⟩ : BufTy).Contents (Elt F)),
    StableHlo.binary main_v49 main_v53 main_v54 (mulf : (⟨S100000x128, .f32⟩ : BufTy).Contents (Elt F) → (⟨S100000x128, .f32⟩ : BufTy).Contents (Elt F) → (⟨S100000x128, .f32⟩ : BufTy).Contents (Elt F)),
    StableHlo.unary main_v11 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (mulf : (⟨S100000x128, .f32⟩ : BufTy).Contents (Elt F) → (⟨S100000x128, .f32⟩ : BufTy).Contents (Elt F) → (⟨S100000x128, .f32⟩ : BufTy).Contents (Elt F)),
    StableHlo.unary main_v13 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)) ]

/-- Operations seg04 (window 1, 10 operations, the last writing main_v70). -/
abbrev seg04 : List (HloOp τ sig (Elt F)) :=
  [ StableHlo.unary main_arg3 main_v61 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v61 main_v62 rfl shapeCasts_S1x128x128_S128x128,
    StableHlo.unary main_arg4 main_v63 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v63 main_v64 rfl shapeCasts_S1x128x128_S128x128,
    StableHlo.unary main_arg5 main_v65 ((extractStridedSlice S1x128 ![1, 0] · slices_S3x128_S1x128_1_0) : (⟨S3x128, .f32⟩ : BufTy).Contents (Elt F) → (⟨S1x128, .f32⟩ : BufTy).Contents (Elt F)),
    StableHlo.reshape main_v65 main_v66 rfl shapeCasts_S1x128_S128,
    StableHlo.unary main_arg6 main_v67 ((extractStridedSlice S1x128 ![1, 0] · slices_S3x128_S1x128_1_0) : (⟨S3x128, .f32⟩ : BufTy).Contents (Elt F) → (⟨S1x128, .f32⟩ : BufTy).Contents (Elt F)),
    StableHlo.reshape main_v67 main_v68 rfl shapeCasts_S1x128_S128,
    StableHlo.unary main_arg7 main_v69 ((extractStridedSlice S1x128 ![1, 0] · slices_S3x128_S1x128_1_0) : (⟨S3x128, .f32⟩ : BufTy).Contents (Elt F) → (⟨S1x128, .f32⟩ : BufTy).Contents (Elt F)),
    StableHlo.reshape main_v69 main_v70 rfl shapeCasts_S1x128_S128 ]

/-- Operations seg05 (window 1, 27 operations, the last writing main_v90). -/
abbrev seg05 : List (HloOp τ sig (Elt F)) :=
  [ StableHlo.unary main_arg2 main_v71 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v72 (broadcastInDim S1600000 ![] bcast_S_S1600000 : (⟨S_, .i32⟩ : BufTy).Contents (Elt F) → (⟨S1600000, .i32⟩ : BufTy).Contents (Elt F)),
    StableHlo.binary main_v1 main_v72 main_v73 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v74 (broadcastInDim S1600000 ![] bcast_S_S1600000 : (⟨S_, .i32⟩ : BufTy).Contents (Elt F) → (⟨S1600000, .i32⟩ : BufTy).Contents (Elt F)),
    StableHlo.binary main_v1 main_v74 main_v75 (addi : (⟨S1600000, .i32⟩ : BufTy).Contents (Elt F) → (⟨S1600000, .i32⟩ : BufTy).Contents (Elt F) → (⟨S1600000, .i32⟩ : BufTy).Contents (Elt F)),
    StableHlo.ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v76 main_v77 (broadcastInDim S1600000x1 ![0] bcast_S1600000_S1600000x1_0 : (⟨S1600000, .i32⟩ : BufTy).Contents (Elt F) → (⟨S1600000x1, .i32⟩ : BufTy).Contents (Elt F)),
    StableHlo.binary main_v60 main_v77 main_v78 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v71 main_v79 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v79 main_v78 main_v80 (mulf : (⟨S1600000x128, .f32⟩ : BufTy).Contents (Elt F) → (⟨S1600000x128, .f32⟩ : BufTy).Contents (Elt F) → (⟨S1600000x128, .f32⟩ : BufTy).Contents (Elt F)),
    StableHlo.nullary main_cst_9 (constant S_ .f32 0x00000000#32),
    StableHlo.unary main_cst_9 main_v81 (broadcastInDim S100000x128 ![] bcast_S_S100000x128 : (⟨S_, .f32⟩ : BufTy).Contents (Elt F) → (⟨S100000x128, .f32⟩ : BufTy).Contents (Elt F)),
    StableHlo.unary main_v3 main_v82 (broadcastInDim S1600000x1 ![0] bcast_S1600000_S1600000x1_0 : (⟨S1600000, .i32⟩ : BufTy).Contents (Elt F) → (⟨S1600000x1, .i32⟩ : BufTy).Contents (Elt F)),
    StableHlo.ternary main_v81 main_v82 main_v80 main_v83 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_10 (constant S_ .f32 0x00000000#32),
    StableHlo.unary main_cst_10 main_v84 (broadcastInDim S100000 ![] bcast_S_S100000 : (⟨S_, .f32⟩ : BufTy).Contents (Elt F) → (⟨S100000, .f32⟩ : BufTy).Contents (Elt F)),
    StableHlo.unary main_v3 main_v85 (broadcastInDim S1600000x1 ![0] bcast_S1600000_S1600000x1_0 : (⟨S1600000, .i32⟩ : BufTy).Contents (Elt F) → (⟨S1600000x1, .i32⟩ : BufTy).Contents (Elt F)),
    StableHlo.ternary main_v84 main_v85 main_arg2 main_v86 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_11 (constant S_ .f32 0x3F800000#32),
    StableHlo.unary main_cst_11 main_call3_v0 ((id) : (⟨S_, .f32⟩ : BufTy).Contents (Elt F) → (⟨S_, .f32⟩ : BufTy).Contents (Elt F)),
    StableHlo.unary main_call3_v0 main_call3_v1 ((broadcastInDim S100000 ![] bcast_S_S100000) : (⟨S_, .f32⟩ : BufTy).Contents (Elt F) → (⟨S100000, .f32⟩ : BufTy).Contents (Elt F)),
    StableHlo.binary main_call3_v1 main_v86 main_v87 ((maximumf) : (⟨S100000, .f32⟩ : BufTy).Contents (Elt F) → (⟨S100000, .f32⟩ : BufTy).Contents (Elt F) → (⟨S100000, .f32⟩ : BufTy).Contents (Elt F)),
    StableHlo.unary main_v87 main_v88 (broadcastInDim S100000x1 ![0] bcast_S100000_S100000x1_0 : (⟨S100000, .f32⟩ : BufTy).Contents (Elt F) → (⟨S100000x1, .f32⟩ : BufTy).Contents (Elt F)),
    StableHlo.unary main_v88 main_v89 (broadcastInDim S100000x128 ![0, 1] bcast_S100000x1_S100000x128_0_1 : (⟨S100000x1, .f32⟩ : BufTy).Contents (Elt F) → (⟨S100000x128, .f32⟩ : BufTy).Contents (Elt F)),
    StableHlo.binary main_v83 main_v89 main_v90 (Host.divf : (⟨S100000x128, .f32⟩ : BufTy).Contents (Elt F) → (⟨S100000x128, .f32⟩ : BufTy).Contents (Elt F) → (⟨S100000x128, .f32⟩ : BufTy).Contents (Elt F)) ]

/-- Operations seg06 (window 1, 17 operations, the last writing main_v103). -/
abbrev seg06 : List (HloOp τ sig (Elt F)) :=
  [ StableHlo.unary main_v62 main_v91 ((transpose S128x128 [1, 0] · transposes_S128x128_S128x128_1_0) : (⟨S128x128, .f32⟩ : BufTy).Contents (Elt F) → (⟨S128x128, .f32⟩ : BufTy).Contents (Elt F)),
    StableHlo.binary main_v90 main_v91 main_v92 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v64 main_v93 ((transpose S128x128 [1, 0] · transposes_S128x128_S128x128_1_0) : (⟨S128x128, .f32⟩ : BufTy).Contents (Elt F) → (⟨S128x128, .f32⟩ : BufTy).Contents (Elt F)),
    StableHlo.binary main_v60 main_v93 main_v94 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v92 main_v94 main_v95 (addf : (⟨S100000x128, .f32⟩ : BufTy).Contents (Elt F) → (⟨S100000x128, .f32⟩ : BufTy).Contents (Elt F) → (⟨S100000x128, .f32⟩ : BufTy).Contents (Elt F)),
    StableHlo.unary main_v66 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v97 main_v98 (addf : (⟨S100000x128, .f32⟩ : BufTy).Contents (Elt F) → (⟨S100000x128, .f32⟩ : BufTy).Contents (Elt F) → (⟨S100000x128, .f32⟩ : BufTy).Contents (Elt F)),
    StableHlo.nullary main_call4_cst (constant S_ .f32 0x00000000#32),
    StableHlo.unary main_call4_cst main_call4_v0 ((broadcastInDim S100000x128 ![] bcast_S_S100000x128) : (⟨S_, .f32⟩ : BufTy).Contents (Elt F) → (⟨S100000x128, .f32⟩ : BufTy).Contents (Elt F)),
    StableHlo.binary main_v98 main_call4_v0 main_v99 ((maximumf) : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v99 main_cst_12 main_v100 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v100 main_v101 (broadcastInDim S100000x1 ![0] bcast_S100000_S100000x1_0 : (⟨S100000, .f32⟩ : BufTy).Contents (Elt F) → (⟨S100000x1, .f32⟩ : BufTy).Contents (Elt F)),
    StableHlo.nullary main_cst_13 (constant S_ .f32 0x43000000#32),
    StableHlo.unary main_cst_13 main_v102 (broadcastInDim S100000x1 ![] bcast_S_S100000x1 : (⟨S_, .f32⟩ : BufTy).Contents (Elt F) → (⟨S100000x1, .f32⟩ : BufTy).Contents (Elt F)),
    StableHlo.binary main_v101 main_v102 main_v103 (Host.divf : (⟨S100000x1, .f32⟩ : BufTy).Contents (Elt F) → (⟨S100000x1, .f32⟩ : BufTy).Contents (Elt F) → (⟨S100000x1, .f32⟩ : BufTy).Contents (Elt F)) ]

/-- Operations seg07 (window 2, 38 operations, the last writing main_v117). -/
abbrev seg07 : List (HloOp τ sig (Elt F)) :=
  [ StableHlo.nullary main_c_14 (constantI S_ 32 0#32),
    StableHlo.nullary main_call5_cst (constant S_ .f32 0x00000000#32),
    StableHlo.binary main_v99 main_call5_cst main_call5_v0 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_call5_v0 main_call5_v1 ((broadcastInDim S100000x1 ![0] bcast_S100000_S100000x1_0) : (⟨S100000, .f32⟩ : BufTy).Contents (Elt F) → (⟨S100000x1, .f32⟩ : BufTy).Contents (Elt F)),
    StableHlo.nullary main_call5_cst_0 (constant S_ .f32 0x43000000#32),
    StableHlo.unary main_call5_cst_0 main_call5_v2 ((broadcastInDim S100000x1 ![] bcast_S_S100000x1) : (⟨S_, .f32⟩ : BufTy).Contents (Elt F) → (⟨S100000x1, .f32⟩ : BufTy).Contents (Elt F)),
    StableHlo.binary main_call5_v1 main_call5_v2 main_call5_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call5_v3 main_call5_v4 ((broadcastInDim S100000x128 ![0, 1] bcast_S100000x1_S100000x128_0_1) : (⟨S100000x1, .f32⟩ : BufTy).Contents (Elt F) → (⟨S100000x128, .f32⟩ : BufTy).Contents (Elt F)),
    StableHlo.binary main_v99 main_call5_v4 main_call5_v5 ((subf) : (⟨S100000x128, .f32⟩ : BufTy).Contents (Elt F) → (⟨S100000x128, .f32⟩ : BufTy).Contents (Elt F) → (⟨S100000x128, .f32⟩ : BufTy).Contents (Elt F)),
    StableHlo.binary main_call5_v5 main_call5_v5 main_call5_v6 ((mulf) : (⟨S100000x128, .f32⟩ : BufTy).Contents (Elt F) → (⟨S100000x128, .f32⟩ : BufTy).Contents (Elt F) → (⟨S100000x128, .f32⟩ : BufTy).Contents (Elt F)),
    StableHlo.unary main_c_14 main_call5_v7 ((sitofp .f32) : (⟨S_, .i32⟩ : BufTy).Contents (Elt F) → (⟨S_, .f32⟩ : BufTy).Contents (Elt F)),
    StableHlo.nullary main_call5_cst_1 (constant S_ .f32 0x43000000#32),
    StableHlo.binary main_call5_cst_1 main_call5_v7 main_call5_v8 ((subf) : (⟨S_, .f32⟩ : BufTy).Contents (Elt F) → (⟨S_, .f32⟩ : BufTy).Contents (Elt F) → (⟨S_, .f32⟩ : BufTy).Contents (Elt F)),
    StableHlo.nullary main_call5_cst_2 (constant S_ .f32 0x00000000#32),
    StableHlo.binary main_call5_v6 main_call5_cst_2 main_call5_v9 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_call5_v9 main_call5_v10 ((broadcastInDim S100000x1 ![0] bcast_S100000_S100000x1_0) : (⟨S100000, .f32⟩ : BufTy).Contents (Elt F) → (⟨S100000x1, .f32⟩ : BufTy).Contents (Elt F)),
    StableHlo.unary main_call5_v8 main_call5_v11 ((broadcastInDim S100000x1 ![] bcast_S_S100000x1) : (⟨S_, .f32⟩ : BufTy).Contents (Elt F) → (⟨S100000x1, .f32⟩ : BufTy).Contents (Elt F)),
    StableHlo.binary main_call5_v10 main_call5_v11 main_call5_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call5_cst_3 (constant S_ .f32 0x00000000#32),
    StableHlo.binary main_call5_v8 main_call5_cst_3 main_call5_v13 ((cmpf .ogt) : (⟨S_, .f32⟩ : BufTy).Contents (Elt F) → (⟨S_, .f32⟩ : BufTy).Contents (Elt F) → (⟨S_, .i1⟩ : BufTy).Contents (Elt F)),
    StableHlo.nullary main_call5_cst_4 (constant S_ .f32 0x7FC00000#32),
    StableHlo.unary main_call5_cst_4 main_call5_call0_v0 ((id) : (⟨S_, .f32⟩ : BufTy).Contents (Elt F) → (⟨S_, .f32⟩ : BufTy).Contents (Elt F)),
    StableHlo.unary main_call5_call0_v0 main_call5_call0_v1 ((broadcastInDim S100000x1 ![] bcast_S_S100000x1) : (⟨S_, .f32⟩ : BufTy).Contents (Elt F) → (⟨S100000x1, .f32⟩ : BufTy).Contents (Elt F)),
    StableHlo.ternary main_call5_v13 main_call5_v12 main_call5_call0_v1 main_v104 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v103 main_v105 (broadcastInDim S100000x128 ![0, 1] bcast_S100000x1_S100000x128_0_1 : (⟨S100000x1, .f32⟩ : BufTy).Contents (Elt F) → (⟨S100000x128, .f32⟩ : BufTy).Contents (Elt F)),
    StableHlo.binary main_v99 main_v105 main_v106 (subf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v107 (broadcastInDim S100000x1 ![] bcast_S_S100000x1 : (⟨S_, .f32⟩ : BufTy).Contents (Elt F) → (⟨S100000x1, .f32⟩ : BufTy).Contents (Elt F)),
    StableHlo.binary main_v104 main_v107 main_v108 (addf : (⟨S100000x1, .f32⟩ : BufTy).Contents (Elt F) → (⟨S100000x1, .f32⟩ : BufTy).Contents (Elt F) → (⟨S100000x1, .f32⟩ : BufTy).Contents (Elt F)),
    StableHlo.unary main_v108 main_v109 (Host.rsqrt : (⟨S100000x1, .f32⟩ : BufTy).Contents (Elt F) → (⟨S100000x1, .f32⟩ : BufTy).Contents (Elt F)),
    StableHlo.unary main_v109 main_v110 (broadcastInDim S100000x128 ![0, 1] bcast_S100000x1_S100000x128_0_1 : (⟨S100000x1, .f32⟩ : BufTy).Contents (Elt F) → (⟨S100000x128, .f32⟩ : BufTy).Contents (Elt F)),
    StableHlo.binary main_v106 main_v110 main_v111 (mulf : (⟨S100000x128, .f32⟩ : BufTy).Contents (Elt F) → (⟨S100000x128, .f32⟩ : BufTy).Contents (Elt F) → (⟨S100000x128, .f32⟩ : BufTy).Contents (Elt F)),
    StableHlo.unary main_v68 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v113 main_v114 (mulf : (⟨S100000x128, .f32⟩ : BufTy).Contents (Elt F) → (⟨S100000x128, .f32⟩ : BufTy).Contents (Elt F) → (⟨S100000x128, .f32⟩ : BufTy).Contents (Elt F)),
    StableHlo.unary main_v70 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v116 main_v117 (addf : (⟨S100000x128, .f32⟩ : BufTy).Contents (Elt F) → (⟨S100000x128, .f32⟩ : BufTy).Contents (Elt F) → (⟨S100000x128, .f32⟩ : BufTy).Contents (Elt F)) ]

/-- Operations seg08 (window 2, 10 operations, the last writing main_v127). -/
abbrev seg08 : List (HloOp τ sig (Elt F)) :=
  [ StableHlo.unary main_arg3 main_v118 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v118 main_v119 rfl shapeCasts_S1x128x128_S128x128,
    StableHlo.unary main_arg4 main_v120 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v120 main_v121 rfl shapeCasts_S1x128x128_S128x128,
    StableHlo.unary main_arg5 main_v122 ((extractStridedSlice S1x128 ![2, 0] · slices_S3x128_S1x128_2_0) : (⟨S3x128, .f32⟩ : BufTy).Contents (Elt F) → (⟨S1x128, .f32⟩ : BufTy).Contents (Elt F)),
    StableHlo.reshape main_v122 main_v123 rfl shapeCasts_S1x128_S128,
    StableHlo.unary main_arg6 main_v124 ((extractStridedSlice S1x128 ![2, 0] · slices_S3x128_S1x128_2_0) : (⟨S3x128, .f32⟩ : BufTy).Contents (Elt F) → (⟨S1x128, .f32⟩ : BufTy).Contents (Elt F)),
    StableHlo.reshape main_v124 main_v125 rfl shapeCasts_S1x128_S128,
    StableHlo.unary main_arg7 main_v126 ((extractStridedSlice S1x128 ![2, 0] · slices_S3x128_S1x128_2_0) : (⟨S3x128, .f32⟩ : BufTy).Contents (Elt F) → (⟨S1x128, .f32⟩ : BufTy).Contents (Elt F)),
    StableHlo.reshape main_v126 main_v127 rfl shapeCasts_S1x128_S128 ]

/-- Operations seg09 (window 2, 27 operations, the last writing main_v147). -/
abbrev seg09 : List (HloOp τ sig (Elt F)) :=
  [ StableHlo.unary main_arg2 main_v128 (broadcastInDim S1600000x1 ![0] bcast_S1600000_S1600000x1_0 : (⟨S1600000, .f32⟩ : BufTy).Contents (Elt F) → (⟨S1600000x1, .f32⟩ : BufTy).Contents (Elt F)),
    StableHlo.nullary main_c_16 (constantI S_ 32 0#32),
    StableHlo.unary main_c_16 main_v129 (broadcastInDim S1600000 ![] bcast_S_S1600000 : (⟨S_, .i32⟩ : BufTy).Contents (Elt F) → (⟨S1600000, .i32⟩ : BufTy).Contents (Elt F)),
    StableHlo.binary main_v1 main_v129 main_v130 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v131 (broadcastInDim S1600000 ![] bcast_S_S1600000 : (⟨S_, .i32⟩ : BufTy).Contents (Elt F) → (⟨S1600000, .i32⟩ : BufTy).Contents (Elt F)),
    StableHlo.binary main_v1 main_v131 main_v132 (addi : (⟨S1600000, .i32⟩ : BufTy).Contents (Elt F) → (⟨S1600000, .i32⟩ : BufTy).Contents (Elt F) → (⟨S1600000, .i32⟩ : BufTy).Contents (Elt F)),
    StableHlo.ternary main_v130 main_v132 main_v1 main_v133 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v133 main_v134 (broadcastInDim S1600000x1 ![0] bcast_S1600000_S1600000x1_0 : (⟨S1600000, .i32⟩ : BufTy).Contents (Elt F) → (⟨S1600000x1, .i32⟩ : BufTy).Contents (Elt F)),
    StableHlo.binary main_v117 main_v134 main_v135 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v128 main_v136 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v136 main_v135 main_v137 (mulf : (⟨S1600000x128, .f32⟩ : BufTy).Contents (Elt F) → (⟨S1600000x128, .f32⟩ : BufTy).Contents (Elt F) → (⟨S1600000x128, .f32⟩ : BufTy).Contents (Elt F)),
    StableHlo.nullary main_cst_18 (constant S_ .f32 0x00000000#32),
    StableHlo.unary main_cst_18 main_v138 (broadcastInDim S100000x128 ![] bcast_S_S100000x128 : (⟨S_, .f32⟩ : BufTy).Contents (Elt F) → (⟨S100000x128, .f32⟩ : BufTy).Contents (Elt F)),
    StableHlo.unary main_v3 main_v139 (broadcastInDim S1600000x1 ![0] bcast_S1600000_S1600000x1_0 : (⟨S1600000, .i32⟩ : BufTy).Contents (Elt F) → (⟨S1600000x1, .i32⟩ : BufTy).Contents (Elt F)),
    StableHlo.ternary main_v138 main_v139 main_v137 main_v140 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_19 (constant S_ .f32 0x00000000#32),
    StableHlo.unary main_cst_19 main_v141 (broadcastInDim S100000 ![] bcast_S_S100000 : (⟨S_, .f32⟩ : BufTy).Contents (Elt F) → (⟨S100000, .f32⟩ : BufTy).Contents (Elt F)),
    StableHlo.unary main_v3 main_v142 (broadcastInDim S1600000x1 ![0] bcast_S1600000_S1600000x1_0 : (⟨S1600000, .i32⟩ : BufTy).Contents (Elt F) → (⟨S1600000x1, .i32⟩ : BufTy).Contents (Elt F)),
    StableHlo.ternary main_v141 main_v142 main_arg2 main_v143 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_20 (constant S_ .f32 0x3F800000#32),
    StableHlo.unary main_cst_20 main_call6_v0 ((id) : (⟨S_, .f32⟩ : BufTy).Contents (Elt F) → (⟨S_, .f32⟩ : BufTy).Contents (Elt F)),
    StableHlo.unary main_call6_v0 main_call6_v1 ((broadcastInDim S100000 ![] bcast_S_S100000) : (⟨S_, .f32⟩ : BufTy).Contents (Elt F) → (⟨S100000, .f32⟩ : BufTy).Contents (Elt F)),
    StableHlo.binary main_call6_v1 main_v143 main_v144 ((maximumf) : (⟨S100000, .f32⟩ : BufTy).Contents (Elt F) → (⟨S100000, .f32⟩ : BufTy).Contents (Elt F) → (⟨S100000, .f32⟩ : BufTy).Contents (Elt F)),
    StableHlo.unary main_v144 main_v145 (broadcastInDim S100000x1 ![0] bcast_S100000_S100000x1_0 : (⟨S100000, .f32⟩ : BufTy).Contents (Elt F) → (⟨S100000x1, .f32⟩ : BufTy).Contents (Elt F)),
    StableHlo.unary main_v145 main_v146 (broadcastInDim S100000x128 ![0, 1] bcast_S100000x1_S100000x128_0_1 : (⟨S100000x1, .f32⟩ : BufTy).Contents (Elt F) → (⟨S100000x128, .f32⟩ : BufTy).Contents (Elt F)),
    StableHlo.binary main_v140 main_v146 main_v147 (Host.divf : (⟨S100000x128, .f32⟩ : BufTy).Contents (Elt F) → (⟨S100000x128, .f32⟩ : BufTy).Contents (Elt F) → (⟨S100000x128, .f32⟩ : BufTy).Contents (Elt F)) ]

/-- Operations seg10 (window 2, 11 operations, the last writing null). -/
abbrev seg10 : List (HloOp τ sig (Elt F)) :=
  [ StableHlo.unary main_v119 main_v148 ((transpose S128x128 [1, 0] · transposes_S128x128_S128x128_1_0) : (⟨S128x128, .f32⟩ : BufTy).Contents (Elt F) → (⟨S128x128, .f32⟩ : BufTy).Contents (Elt F)),
    StableHlo.binary main_v147 main_v148 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v121 main_v150 ((transpose S128x128 [1, 0] · transposes_S128x128_S128x128_1_0) : (⟨S128x128, .f32⟩ : BufTy).Contents (Elt F) → (⟨S128x128, .f32⟩ : BufTy).Contents (Elt F)),
    StableHlo.binary main_v117 main_v150 main_v151 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v149 main_v151 main_v152 (addf : (⟨S100000x128, .f32⟩ : BufTy).Contents (Elt F) → (⟨S100000x128, .f32⟩ : BufTy).Contents (Elt F) → (⟨S100000x128, .f32⟩ : BufTy).Contents (Elt F)),
    StableHlo.unary main_v123 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v154 main_v155 (addf : (⟨S100000x128, .f32⟩ : BufTy).Contents (Elt F) → (⟨S100000x128, .f32⟩ : BufTy).Contents (Elt F) → (⟨S100000x128, .f32⟩ : BufTy).Contents (Elt F)),
    StableHlo.nullary main_call7_cst (constant S_ .f32 0x00000000#32),
    StableHlo.unary main_call7_cst main_call7_v0 ((broadcastInDim S100000x128 ![] bcast_S_S100000x128) : (⟨S_, .f32⟩ : BufTy).Contents (Elt F) → (⟨S100000x128, .f32⟩ : BufTy).Contents (Elt F)),
    StableHlo.binary main_v155 main_call7_v0 main_v156 ((maximumf) : (⟨S100000x128, .f32⟩ : BufTy).Contents (Elt F) → (⟨S100000x128, .f32⟩ : BufTy).Contents (Elt F) → (⟨S100000x128, .f32⟩ : BufTy).Contents (Elt F)) ]

/-- Operations seg11 (window 3, 44 operations, the last writing main_v174). -/
abbrev seg11 : List (HloOp τ sig (Elt F)) :=
  [ StableHlo.nullary main_cst_21 (constant S_ .f32 0x00000000#32),
    StableHlo.binary main_v156 main_cst_21 main_v157 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v157 main_v158 (broadcastInDim S100000x1 ![0] bcast_S100000_S100000x1_0 : (⟨S100000, .f32⟩ : BufTy).Contents (Elt F) → (⟨S100000x1, .f32⟩ : BufTy).Contents (Elt F)),
    StableHlo.nullary main_cst_22 (constant S_ .f32 0x43000000#32),
    StableHlo.unary main_cst_22 main_v159 (broadcastInDim S100000x1 ![] bcast_S_S100000x1 : (⟨S_, .f32⟩ : BufTy).Contents (Elt F) → (⟨S100000x1, .f32⟩ : BufTy).Contents (Elt F)),
    StableHlo.binary main_v158 main_v159 main_v160 (Host.divf : (⟨S100000x1, .f32⟩ : BufTy).Contents (Elt F) → (⟨S100000x1, .f32⟩ : BufTy).Contents (Elt F) → (⟨S100000x1, .f32⟩ : BufTy).Contents (Elt F)),
    StableHlo.nullary main_c_23 (constantI S_ 32 0#32),
    StableHlo.nullary main_call8_cst (constant S_ .f32 0x00000000#32),
    StableHlo.binary main_v156 main_call8_cst main_call8_v0 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_call8_v0 main_call8_v1 ((broadcastInDim S100000x1 ![0] bcast_S100000_S100000x1_0) : (⟨S100000, .f32⟩ : BufTy).Contents (Elt F) → (⟨S100000x1, .f32⟩ : BufTy).Contents (Elt F)),
    StableHlo.nullary main_call8_cst_0 (constant S_ .f32 0x43000000#32),
    StableHlo.unary main_call8_cst_0 main_call8_v2 ((broadcastInDim S100000x1 ![] bcast_S_S100000x1) : (⟨S_, .f32⟩ : BufTy).Contents (Elt F) → (⟨S100000x1, .f32⟩ : BufTy).Contents (Elt F)),
    StableHlo.binary main_call8_v1 main_call8_v2 main_call8_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call8_v3 main_call8_v4 ((broadcastInDim S100000x128 ![0, 1] bcast_S100000x1_S100000x128_0_1) : (⟨S100000x1, .f32⟩ : BufTy).Contents (Elt F) → (⟨S100000x128, .f32⟩ : BufTy).Contents (Elt F)),
    StableHlo.binary main_v156 main_call8_v4 main_call8_v5 ((subf) : (⟨S100000x128, .f32⟩ : BufTy).Contents (Elt F) → (⟨S100000x128, .f32⟩ : BufTy).Contents (Elt F) → (⟨S100000x128, .f32⟩ : BufTy).Contents (Elt F)),
    StableHlo.binary main_call8_v5 main_call8_v5 main_call8_v6 ((mulf) : (⟨S100000x128, .f32⟩ : BufTy).Contents (Elt F) → (⟨S100000x128, .f32⟩ : BufTy).Contents (Elt F) → (⟨S100000x128, .f32⟩ : BufTy).Contents (Elt F)),
    StableHlo.unary main_c_23 main_call8_v7 ((sitofp .f32) : (⟨S_, .i32⟩ : BufTy).Contents (Elt F) → (⟨S_, .f32⟩ : BufTy).Contents (Elt F)),
    StableHlo.nullary main_call8_cst_1 (constant S_ .f32 0x43000000#32),
    StableHlo.binary main_call8_cst_1 main_call8_v7 main_call8_v8 ((subf) : (⟨S_, .f32⟩ : BufTy).Contents (Elt F) → (⟨S_, .f32⟩ : BufTy).Contents (Elt F) → (⟨S_, .f32⟩ : BufTy).Contents (Elt F)),
    StableHlo.nullary main_call8_cst_2 (constant S_ .f32 0x00000000#32),
    StableHlo.binary main_call8_v6 main_call8_cst_2 main_call8_v9 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_call8_v9 main_call8_v10 ((broadcastInDim S100000x1 ![0] bcast_S100000_S100000x1_0) : (⟨S100000, .f32⟩ : BufTy).Contents (Elt F) → (⟨S100000x1, .f32⟩ : BufTy).Contents (Elt F)),
    StableHlo.unary main_call8_v8 main_call8_v11 ((broadcastInDim S100000x1 ![] bcast_S_S100000x1) : (⟨S_, .f32⟩ : BufTy).Contents (Elt F) → (⟨S100000x1, .f32⟩ : BufTy).Contents (Elt F)),
    StableHlo.binary main_call8_v10 main_call8_v11 main_call8_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call8_cst_3 (constant S_ .f32 0x00000000#32),
    StableHlo.binary main_call8_v8 main_call8_cst_3 main_call8_v13 ((cmpf .ogt) : (⟨S_, .f32⟩ : BufTy).Contents (Elt F) → (⟨S_, .f32⟩ : BufTy).Contents (Elt F) → (⟨S_, .i1⟩ : BufTy).Contents (Elt F)),
    StableHlo.nullary main_call8_cst_4 (constant S_ .f32 0x7FC00000#32),
    StableHlo.unary main_call8_cst_4 main_call8_call0_v0 ((id) : (⟨S_, .f32⟩ : BufTy).Contents (Elt F) → (⟨S_, .f32⟩ : BufTy).Contents (Elt F)),
    StableHlo.unary main_call8_call0_v0 main_call8_call0_v1 ((broadcastInDim S100000x1 ![] bcast_S_S100000x1) : (⟨S_, .f32⟩ : BufTy).Contents (Elt F) → (⟨S100000x1, .f32⟩ : BufTy).Contents (Elt F)),
    StableHlo.ternary main_call8_v13 main_call8_v12 main_call8_call0_v1 main_v161 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v160 main_v162 (broadcastInDim S100000x128 ![0, 1] bcast_S100000x1_S100000x128_0_1 : (⟨S100000x1, .f32⟩ : BufTy).Contents (Elt F) → (⟨S100000x128, .f32⟩ : BufTy).Contents (Elt F)),
    StableHlo.binary main_v156 main_v162 main_v163 (subf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3727C5AC#32),
    StableHlo.unary main_cst_24 main_v164 (broadcastInDim S100000x1 ![] bcast_S_S100000x1 : (⟨S_, .f32⟩ : BufTy).Contents (Elt F) → (⟨S100000x1, .f32⟩ : BufTy).Contents (Elt F)),
    StableHlo.binary main_v161 main_v164 main_v165 (addf : (⟨S100000x1, .f32⟩ : BufTy).Contents (Elt F) → (⟨S100000x1, .f32⟩ : BufTy).Contents (Elt F) → (⟨S100000x1, .f32⟩ : BufTy).Contents (Elt F)),
    StableHlo.unary main_v165 main_v166 (Host.rsqrt : (⟨S100000x1, .f32⟩ : BufTy).Contents (Elt F) → (⟨S100000x1, .f32⟩ : BufTy).Contents (Elt F)),
    StableHlo.unary main_v166 main_v167 (broadcastInDim S100000x128 ![0, 1] bcast_S100000x1_S100000x128_0_1 : (⟨S100000x1, .f32⟩ : BufTy).Contents (Elt F) → (⟨S100000x128, .f32⟩ : BufTy).Contents (Elt F)),
    StableHlo.binary main_v163 main_v167 main_v168 (mulf : (⟨S100000x128, .f32⟩ : BufTy).Contents (Elt F) → (⟨S100000x128, .f32⟩ : BufTy).Contents (Elt F) → (⟨S100000x128, .f32⟩ : BufTy).Contents (Elt F)),
    StableHlo.unary main_v125 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v170 main_v171 (mulf : (⟨S100000x128, .f32⟩ : BufTy).Contents (Elt F) → (⟨S100000x128, .f32⟩ : BufTy).Contents (Elt F) → (⟨S100000x128, .f32⟩ : BufTy).Contents (Elt F)),
    StableHlo.unary main_v127 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v171 main_v173 main_v174 (addf : (⟨S100000x128, .f32⟩ : BufTy).Contents (Elt F) → (⟨S100000x128, .f32⟩ : BufTy).Contents (Elt F) → (⟨S100000x128, .f32⟩ : BufTy).Contents (Elt F)) ]

/-- Layer 0's operations. -/
abbrev opsA : List (HloOp τ sig (Elt F)) := seg00 ++ seg01 ++ seg02 ++ seg03

/-- Layer 1's operations. -/
abbrev opsB : List (HloOp τ sig (Elt F)) := seg04 ++ seg05 ++ seg06 ++ seg07

/-- Layer 2's operations. -/
abbrev opsC : List (HloOp τ sig (Elt F)) := seg08 ++ seg09 ++ seg10 ++ seg11

/-- @main's operations, in order, the calls unfolded. -/
abbrev ops : List (HloOp τ sig (Elt F)) := opsA ++ opsB ++ opsC

set_option maxRecDepth 8192 in
set_option maxHeartbeats 4000000 in
theorem main_part0_eq (c : Dev nD) : main_part0 (F := F) c = seq (seg00 ++ seg01 ++ seg02) := by
  simp only [main_part0, fn_clip.body, fn_relu.body, fn_var.body, fn_where.body, List.cons_append, List.nil_append, seq, bind_assoc, pure_bind] <;> rfl

set_option maxRecDepth 8192 in
set_option maxHeartbeats 4000000 in
theorem main_part1_eq (c : Dev nD) : main_part1 (F := F) c = seq (seg03 ++ seg04 ++ seg05 ++ seg06) := by
  simp only [main_part1, fn_clip.body, fn_relu.body, fn_var.body, fn_where.body, List.cons_append, List.nil_append, seq, bind_assoc, pure_bind] <;> rfl

set_option maxRecDepth 8192 in
set_option maxHeartbeats 4000000 in
theorem main_part2_eq (c : Dev nD) : main_part2 (F := F) c = seq (seg07 ++ seg08 ++ seg09 ++ seg10) := by
  simp only [main_part2, fn_clip.body, fn_relu.body, fn_var.body, fn_where.body, List.cons_append, List.nil_append, seq, bind_assoc, pure_bind] <;> rfl

set_option maxRecDepth 8192 in
set_option maxHeartbeats 4000000 in
theorem main_part3_eq (c : Dev nD) : main_part3 (F := F) c = seq (seg11) := by
  simp only [main_part3, fn_clip.body, fn_relu.body, fn_var.body, fn_where.body, List.cons_append, List.nil_append, seq, bind_assoc, pure_bind] <;> rfl

theorem seg00_sub : (seg00 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem seg01_sub : (seg01 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩

theorem seg02_sub : (seg02 : List (HloOp τ sig (Elt F))).Forall fun op => op.bufs ⊆ tcRefs τ sig :=
  ⟨unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub ..⟩

theorem seg03_sub : (seg03 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., unary_bufs_sub .., unary_bufs_sub .., binary_bufs_sub ..⟩

theorem seg04_sub : (seg04 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub ..⟩

theorem seg05_sub : (seg05 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩

theorem seg06_sub : (seg06 : List (HloOp τ sig (Elt F))).Forall fun op => op.bufs ⊆ tcRefs τ sig :=
  ⟨unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub ..⟩

theorem seg07_sub : (seg07 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem seg08_sub : (seg08 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub ..⟩

theorem seg09_sub : (seg09 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩

theorem seg10_sub : (seg10 : List (HloOp τ sig (Elt F))).Forall fun op => op.bufs ⊆ tcRefs τ sig :=
  ⟨unary_bufs_sub .., binary_bufs_sub .., unary_bufs_sub .., binary_bufs_sub .., binary_bufs_sub .., unary_bufs_sub .., unary_bufs_sub .., binary_bufs_sub .., nullary_bufs_sub .., unary_bufs_sub .., binary_bufs_sub ..⟩

theorem seg11_sub : (seg11 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The fold over two lines run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main is that straight line: each window is its segments in order, and the windows run in order. -/
theorem main_eq (c : Dev nD) : main (F := F) c = seq ops := by
  simp only [main, main_part0_eq, main_part1_eq, main_part2_eq, main_part3_eq, ops, opsA, opsB, opsC, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  List.forall_append.mpr ⟨List.forall_append.mpr ⟨List.forall_append.mpr ⟨seg00_sub, seg01_sub⟩, seg02_sub⟩, seg03_sub⟩
theorem opsB_sub : (opsB : List (HloOp τ sig (Elt F))).Forall fun op => op.bufs ⊆ tcRefs τ sig :=
  List.forall_append.mpr ⟨List.forall_append.mpr ⟨List.forall_append.mpr ⟨seg04_sub, seg05_sub⟩, seg06_sub⟩, seg07_sub⟩
theorem opsC_sub : (opsC : List (HloOp τ sig (Elt F))).Forall fun op => op.bufs ⊆ tcRefs τ sig :=
  List.forall_append.mpr ⟨List.forall_append.mpr ⟨List.forall_append.mpr ⟨seg08_sub, seg09_sub⟩, seg10_sub⟩, seg11_sub⟩
theorem ops_sub : (ops : List (HloOp τ sig (Elt F))).Forall fun op => op.bufs ⊆ tcRefs τ sig :=
  List.forall_append.mpr ⟨List.forall_append.mpr ⟨opsA_sub, opsB_sub⟩, opsC_sub⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerms.lean ====
import proofs.«109972_j53034256171351_1_alg».proof.Proof.Gen.ReferenceIdeal
import Idealize.ShloMosaic.PureOps.Ideal.Laws

/-!
# The reference's host terms, stage by stage

The reference program computes each of its three layers by the same three groups of host operations: it cuts the
layer's parameters out of the stacked arrays, it aggregates the node features over the edges, and it applies the
dense stage (two products, a bias, the positive part, the normalisation over the lanes, a gain and a shift). Each
group is named here as one function of the arrays it reads, written with the program's own operations and shape
facts, over the extended reals. The aggregation is never opened: both programs build it with the same operations.
-/

noncomputable section

namespace Cert.ReferenceIdeal.Hand

open Cert.ReferenceIdeal Cert.ReferenceIdeal.Gen Idealize.ShloMosaic

/-! ## The edge list's two rows -/

/-- The edges' source nodes: row 0 of the index array, as a vector. -/
def srcOf (ei : IVec S2x1600000 32) : IVec S1600000 32 :=
  shapeCast S1600000 (extractStridedSlice S1x1600000 ![0, 0] ei slices_S2x1600000_S1x1600000_0_0) shapeCasts_S1x1600000_S1600000

/-- The edges' destination nodes: row 1 of the index array, as a vector. -/
def dstOf (ei : IVec S2x1600000 32) : IVec S1600000 32 :=
  shapeCast S1600000 (extractStridedSlice S1x1600000 ![1, 0] ei slices_S2x1600000_S1x1600000_1_0) shapeCasts_S1x1600000_S1600000

/-! ## The aggregation -/

/-- The weighted mean of the neighbours' features: the features gathered at the source nodes (a negative index
    counted from the end), scaled by the edge weights, added up at the destination nodes, and divided by the sum
    of the weights arriving at the node, or by one where that sum is smaller. -/
def aggT (x : FVec Ideal S100000x128 .f32) (src dst : IVec S1600000 32) (ew : FVec Ideal S1600000 .f32) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (mulf
        (broadcastInDim S1600000x128 ![0, 1] bcast_S1600000x1_S1600000x128_0_1
          (broadcastInDim S1600000x1 ![0] bcast_S1600000_S1600000x1_0 ew))
        (Host.gather gather_S100000x128_S1600000x1_S1600000x128_1_0_n_n_0_1_1128 x
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32)))
              src)))))
    (broadcastInDim S100000x128 ![0, 1] bcast_S100000x1_S100000x128_0_1
      (broadcastInDim S100000x1 ![0] bcast_S100000_S100000x1_0
        (maximumf
          (broadcastInDim S100000 ![] bcast_S_S100000 (id (constant (F := Ideal) S_ .f32 0x3F800000#32)))
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            ew))))

/-- The aggregation as a function of the features, the edge list and the edge weights. -/
def aggR (x : FVec Ideal S100000x128 .f32) (ei : IVec S2x1600000 32) (ew : FVec Ideal S1600000 .f32) : FVec Ideal S100000x128 .f32 :=
  aggT x (srcOf ei) (dstOf ei) ew

/-! ## One layer's parameters -/

/-- A slab of thickness one of the stacked weight matrices, as a matrix. -/
def sqOf (off : Fin 3 → ℕ) (w : FVec Ideal S3x128x128 .f32) (h : S3x128x128.Slices off S1x128x128) : FVec Ideal S128x128 .f32 :=
  shapeCast S128x128 (extractStridedSlice S1x128x128 off w h) shapeCasts_S1x128x128_S128x128

/-- One row of the stacked rows, as a vector. -/
def rowOf (off : Fin 2 → ℕ) (v : FVec Ideal S3x128 .f32) (h : S3x128.Slices off S1x128) : FVec Ideal S128 .f32 :=
  shapeCast S128 (extractStridedSlice S1x128 off v h) shapeCasts_S1x128_S128

/-! ## The dense stage -/

/-- Both products and the bias: the aggregate times the first matrix transposed, the features times the second
    transposed, and the bias row added to every row. -/
def affT (n x : FVec Ideal S100000x128 .f32) (wn wr : FVec Ideal S128x128 .f32) (b : FVec Ideal S128 .f32) : FVec Ideal S100000x128 .f32 :=
  addf
    (addf
      (Host.dotGeneral dot_S100000x128_S128x128_S100000x128_1_0_0_1_n_n none n
        (transpose S128x128 [1, 0] wn transposes_S128x128_S128x128_1_0))
      (Host.dotGeneral dot_S100000x128_S128x128_S100000x128_1_0_0_1_n_n none x
        (transpose S128x128 [1, 0] wr transposes_S128x128_S128x128_1_0)))
    (broadcastInDim S100000x128 ![0, 1] bcast_S1x128_S100000x128_0_1 (broadcastInDim S1x128 ![1] bcast_S128_S1x128_1 b))

/-- The positive part: the maximum with a splat zero. -/
def reluT (a : FVec Ideal S100000x128 .f32) : FVec Ideal S100000x128 .f32 :=
  maximumf a (broadcastInDim S100000x128 ![] bcast_S_S100000x128 (constant (F := Ideal) S_ .f32 0x00000000#32))

/-- The mean over the lanes, kept as a column: the row sums divided by a splat 128. -/
def meanT (r : FVec Ideal S100000x128 .f32) : FVec Ideal S100000x1 .f32 :=
  Host.divf
    (broadcastInDim S100000x1 ![0] bcast_S100000_S100000x1_0
      (Host.reduceAdd r (constant (F := Ideal) S_ .f32 0x00000000#32) reducesTo_S100000x128_S100000_d1 h_S_))
    (broadcastInDim S100000x1 ![] bcast_S_S100000x1 (constant (F := Ideal) S_ .f32 0x43000000#32))

/-- The divisor of the variance: 128 minus the correction 0, the correction an integer turned into a float. -/
def dofT : FVec Ideal S_ .f32 :=
  subf (constant (F := Ideal) S_ .f32 0x43000000#32) (sitofp .f32 (constantI S_ 32 0#32))

/-- The variance over the lanes, kept as a column: the row sums of the squared deviations divided by the splat
    divisor where the divisor is positive, a splat not-a-number otherwise. -/
def varT (r : FVec Ideal S100000x128 .f32) : FVec Ideal S100000x1 .f32 :=
  select
    (broadcastInDim S100000x1 ![] bcast_S_S100000x1
      (cmpf .ogt dofT (constant (F := Ideal) S_ .f32 0x00000000#32)))
    (Host.divf
      (broadcastInDim S100000x1 ![0] bcast_S100000_S100000x1_0
        (Host.reduceAdd
          (mulf (subf r (broadcastInDim S100000x128 ![0, 1] bcast_S100000x1_S100000x128_0_1 (meanT r)))
            (subf r (broadcastInDim S100000x128 ![0, 1] bcast_S100000x1_S100000x128_0_1 (meanT r))))
          (constant (F := Ideal) S_ .f32 0x00000000#32) reducesTo_S100000x128_S100000_d1 h_S_))
      (broadcastInDim S100000x1 ![] bcast_S_S100000x1 dofT))
    (broadcastInDim S100000x1 ![] bcast_S_S100000x1 (id (constant (F := Ideal) S_ .f32 0x7FC00000#32)))

/-- The normalisation over the lanes with gain and shift. -/
def normT (r : FVec Ideal S100000x128 .f32) (g β : FVec Ideal S128 .f32) : FVec Ideal S100000x128 .f32 :=
  addf
    (mulf
      (mulf
        (subf r (broadcastInDim S100000x128 ![0, 1] bcast_S100000x1_S100000x128_0_1 (meanT r)))
        (broadcastInDim S100000x128 ![0, 1] bcast_S100000x1_S100000x128_0_1
          (Host.rsqrt
            (addf (varT r) (broadcastInDim S100000x1 ![] bcast_S_S100000x1 (constant (F := Ideal) S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 β))

/-- One layer's dense stage. -/
def denseT (n x : FVec Ideal S100000x128 .f32) (wn wr : FVec Ideal S128x128 .f32) (b g β : FVec Ideal S128 .f32) :
    FVec Ideal S100000x128 .f32 :=
  normT (reluT (affT n x wn wr b)) g β

end Cert.ReferenceIdeal.Hand

end
-- ==== Proof.RefLayer.lean ====
import proofs.«109972_j53034256171351_1_alg».proof.Proof.RefRun
import proofs.«109972_j53034256171351_1_alg».proof.Proof.RefTerms

/-!
# The reference's buffers after each layer, as host terms

Each layer's operations are read back in two stretches. The first cuts the layer's parameters out of the stacked
arrays (and, in layer 0, the two rows out of the edge list); the second is the aggregation followed by the dense
stage. After the second stretch the layer's result buffer holds the dense stage of the aggregate of the layer's
input, and no argument buffer has changed.
-/

noncomputable section

namespace Cert.ReferenceIdeal.Hand

open Cert.ReferenceIdeal Cert.ReferenceIdeal.Gen Idealize.ShloMosaic Idealize.ShloMosaic.TcCoe Idealize.SL.Sem Idealize.ShloMosaic.StableHlo

local notation "𝕍" => Valuation τ sig (Elt Ideal)
local notation "r[" x "]" => (x : DevRef τ sig)

/-! ## Layer 0: the parameters' slabs and the edge list's rows -/

theorem seg00_v1 (W : 𝕍) : after (seg00 (F := Ideal)) W r[main_v1] = srcOf (W r[main_arg1]) := by
  after_results_simp; rfl
theorem seg00_v3 (W : 𝕍) : after (seg00 (F := Ideal)) W r[main_v3] = dstOf (W r[main_arg1]) := by
  after_results_simp; rfl
theorem seg00_v5 (W : 𝕍) : after (seg00 (F := Ideal)) W r[main_v5] = sqOf ![0, 0, 0] (W r[main_arg3]) slices_S3x128x128_S1x128x128_0_0_0 := by
  after_results_simp; rfl
theorem seg00_v7 (W : 𝕍) : after (seg00 (F := Ideal)) W r[main_v7] = sqOf ![0, 0, 0] (W r[main_arg4]) slices_S3x128x128_S1x128x128_0_0_0 := by
  after_results_simp; rfl
theorem seg00_v9 (W : 𝕍) : after (seg00 (F := Ideal)) W r[main_v9] = rowOf ![0, 0] (W r[main_arg5]) slices_S3x128_S1x128_0_0 := by
  after_results_simp; rfl
theorem seg00_v11 (W : 𝕍) : after (seg00 (F := Ideal)) W r[main_v11] = rowOf ![0, 0] (W r[main_arg6]) slices_S3x128_S1x128_0_0 := by
  after_results_simp; rfl
theorem seg00_v13 (W : 𝕍) : after (seg00 (F := Ideal)) W r[main_v13] = rowOf ![0, 0] (W r[main_arg7]) slices_S3x128_S1x128_0_0 := by
  after_results_simp; rfl
theorem seg00_arg0 (W : 𝕍) : after (seg00 (F := Ideal)) W r[main_arg0] = W r[main_arg0] := by after_results_simp
theorem seg00_arg2 (W : 𝕍) : after (seg00 (F := Ideal)) W r[main_arg2] = W r[main_arg2] := by after_results_simp

/-! ## Layer 1: the parameters' slabs -/

theorem seg04_v62 (W : 𝕍) : after (seg04 (F := Ideal)) W r[main_v62] = sqOf ![1, 0, 0] (W r[main_arg3]) slices_S3x128x128_S1x128x128_1_0_0 := by
  after_results_simp; rfl
theorem seg04_v64 (W : 𝕍) : after (seg04 (F := Ideal)) W r[main_v64] = sqOf ![1, 0, 0] (W r[main_arg4]) slices_S3x128x128_S1x128x128_1_0_0 := by
  after_results_simp; rfl
theorem seg04_v66 (W : 𝕍) : after (seg04 (F := Ideal)) W r[main_v66] = rowOf ![1, 0] (W r[main_arg5]) slices_S3x128_S1x128_1_0 := by
  after_results_simp; rfl
theorem seg04_v68 (W : 𝕍) : after (seg04 (F := Ideal)) W r[main_v68] = rowOf ![1, 0] (W r[main_arg6]) slices_S3x128_S1x128_1_0 := by
  after_results_simp; rfl
theorem seg04_v70 (W : 𝕍) : after (seg04 (F := Ideal)) W r[main_v70] = rowOf ![1, 0] (W r[main_arg7]) slices_S3x128_S1x128_1_0 := by
  after_results_simp; rfl
theorem seg04_v60 (W : 𝕍) : after (seg04 (F := Ideal)) W r[main_v60] = W r[main_v60] := by after_results_simp
theorem seg04_v1 (W : 𝕍) : after (seg04 (F := Ideal)) W r[main_v1] = W r[main_v1] := by after_results_simp
theorem seg04_v3 (W : 𝕍) : after (seg04 (F := Ideal)) W r[main_v3] = W r[main_v3] := by after_results_simp
theorem seg04_arg2 (W : 𝕍) : after (seg04 (F := Ideal)) W r[main_arg2] = W r[main_arg2] := by after_results_simp

/-! ## Layer 2: the parameters' slabs -/

theorem seg08_v119 (W : 𝕍) : after (seg08 (F := Ideal)) W r[main_v119] = sqOf ![2, 0, 0] (W r[main_arg3]) slices_S3x128x128_S1x128x128_2_0_0 := by
  after_results_simp; rfl
theorem seg08_v121 (W : 𝕍) : after (seg08 (F := Ideal)) W r[main_v121] = sqOf ![2, 0, 0] (W r[main_arg4]) slices_S3x128x128_S1x128x128_2_0_0 := by
  after_results_simp; rfl
theorem seg08_v123 (W : 𝕍) : after (seg08 (F := Ideal)) W r[main_v123] = rowOf ![2, 0] (W r[main_arg5]) slices_S3x128_S1x128_2_0 := by
  after_results_simp; rfl
theorem seg08_v125 (W : 𝕍) : after (seg08 (F := Ideal)) W r[main_v125] = rowOf ![2, 0] (W r[main_arg6]) slices_S3x128_S1x128_2_0 := by
  after_results_simp; rfl
theorem seg08_v127 (W : 𝕍) : after (seg08 (F := Ideal)) W r[main_v127] = rowOf ![2, 0] (W r[main_arg7]) slices_S3x128_S1x128_2_0 := by
  after_results_simp; rfl
theorem seg08_v117 (W : 𝕍) : after (seg08 (F := Ideal)) W r[main_v117] = W r[main_v117] := by after_results_simp
theorem seg08_v1 (W : 𝕍) : after (seg08 (F := Ideal)) W r[main_v1] = W r[main_v1] := by after_results_simp
theorem seg08_v3 (W : 𝕍) : after (seg08 (F := Ideal)) W r[main_v3] = W r[main_v3] := by after_results_simp
theorem seg08_arg2 (W : 𝕍) : after (seg08 (F := Ideal)) W r[main_arg2] = W r[main_arg2] := by after_results_simp

/-! ## The aggregation and the dense stage of each layer -/

set_option maxHeartbeats 4000000 in
set_option maxRecDepth 8192 in
/-- Layer 0 after its parameters are cut: the dense stage of the aggregate of the features. -/
theorem restA_v60 (W : 𝕍) :
    after (seg03 (F := Ideal)) (after (seg02 (F := Ideal)) (after (seg01 (F := Ideal)) W)) r[main_v60]
      = denseT (aggT (W r[main_arg0]) (W r[main_v1]) (W r[main_v3]) (W r[main_arg2])) (W r[main_arg0])
          (W r[main_v5]) (W r[main_v7]) (W r[main_v9]) (W r[main_v11]) (W r[main_v13]) := by
  after_results_simp
  unfold denseT normT varT meanT dofT reluT affT aggT
  with_reducible rfl

set_option maxHeartbeats 4000000 in
set_option maxRecDepth 8192 in
/-- Layer 1 after its parameters are cut: the dense stage of the aggregate of layer 0's result. -/
theorem restB_v117 (W : 𝕍) :
    after (seg07 (F := Ideal)) (after (seg06 (F := Ideal)) (after (seg05 (F := Ideal)) W)) r[main_v117]
      = denseT (aggT (W r[main_v60]) (W r[main_v1]) (W r[main_v3]) (W r[main_arg2])) (W r[main_v60])
          (W r[main_v62]) (W r[main_v64]) (W r[main_v66]) (W r[main_v68]) (W r[main_v70]) := by
  after_results_simp
  unfold denseT normT varT meanT dofT reluT affT aggT
  with_reducible rfl

set_option maxHeartbeats 4000000 in
set_option maxRecDepth 8192 in
/-- Layer 2 after its parameters are cut: the dense stage of the aggregate of layer 1's result. -/
theorem restC_v174 (W : 𝕍) :
    after (seg11 (F := Ideal)) (after (seg10 (F := Ideal)) (after (seg09 (F := Ideal)) W)) r[main_v174]
      = denseT (aggT (W r[main_v117]) (W r[main_v1]) (W r[main_v3]) (W r[main_arg2])) (W r[main_v117])
          (W r[main_v119]) (W r[main_v121]) (W r[main_v123]) (W r[main_v125]) (W r[main_v127]) := by
  after_results_simp
  unfold denseT normT varT meanT dofT reluT affT aggT
  with_reducible rfl

end Cert.ReferenceIdeal.Hand

end
-- ==== Proof.LibLayoutRead.lean ====
import Idealize.ShloMosaic.Lib.ValueIdx
import Idealize.ShloMosaic.Lib.Pipeline.Value
import Idealize.ShloMosaic.PureOps.Ideal.Laws

/-!
# Small re-layings read at an index, and the word of 1.0

A scalar splat to any shape reads the scalar everywhere; a vector `[a]` stood up as a column `[a, 1]` reads the vector's
entry of the row; a column `[a, 1]` repeated along `b` columns reads the column's entry of the row; a vector `[b]` stood
up as a one-row matrix `[1, b]`, by a broadcast or by a shape cast, reads the vector's entry of the column. The extents
are arbitrary. The 32-bit pattern `0x3F800000` denotes the real number 1.
-/

namespace Cert.LibLayoutRead

open Idealize.ShloMosaic Idealize.ShloMosaic.ValueIdx

/-- A scalar broadcast to any shape reads the scalar at every index. -/
theorem splat_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector stood up as a column reads, in row `i`, the vector's entry `i`. -/
theorem column_apply {α : Type} {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun d => match d with
    | ⟨0, _⟩ => by
      show i.val = if a = 1 then 0 else i.val
      split
      · next h1 => have := i.isLt; omega
      · rfl)

/-- A column repeated along the columns reads, at `(i, c)`, the column's entry of row `i`. -/
theorem alongCols_apply {α : Type} {a b : ℕ} (h : (⟨2, ![a, 1]⟩ : Shape).BroadcastsInDim ⟨2, ![a, b]⟩ ![0, 1])
    (x : (⟨2, ![a, 1]⟩ : Shape).Idx → α) (i : Fin a) (c : Fin b) :
    broadcastInDim ⟨2, ![a, b]⟩ ![0, 1] h x (ix2 i c) = x (ix2 i (0 : Fin 1)) :=
  broadcastInDim_apply _ h x (ix2 i c) (ix2 i (0 : Fin 1)) (fun d => match d with
    | ⟨0, _⟩ => by
      show i.val = if a = 1 then 0 else i.val
      split
      · next h1 => have := i.isLt; omega
      · rfl
    | ⟨1, _⟩ => by
      show (0 : ℕ) = if (1 : ℕ) = 1 then 0 else c.val
      rw [if_pos rfl])

/-- A vector stood up as a one-row matrix by a broadcast reads, in column `k`, the vector's entry `k`. -/
theorem row_apply {α : Type} {b : ℕ} (h : (⟨1, ![b]⟩ : Shape).BroadcastsInDim ⟨2, ![1, b]⟩ ![1])
    (x : (⟨1, ![b]⟩ : Shape).Idx → α) (u : Fin 1) (k : Fin b) :
    broadcastInDim ⟨2, ![1, b]⟩ ![1] h x (ix2 u k) = x (ix1 k) :=
  broadcastInDim_apply _ h x (ix2 u k) (ix1 k) (fun d => match d with
    | ⟨0, _⟩ => by
      show k.val = if b = 1 then 0 else k.val
      split
      · next h1 => have := k.isLt; omega
      · rfl)

/-- A vector re-laid as a one-row matrix by a shape cast reads, in column `k`, the vector's entry `k`. -/
theorem castRow_apply {α : Type} {b : ℕ} (h : (⟨1, ![b]⟩ : Shape).ShapeCasts ⟨2, ![1, b]⟩)
    (x : (⟨1, ![b]⟩ : Shape).Idx → α) (u : Fin 1) (k : Fin b) :
    shapeCast ⟨2, ![1, b]⟩ x h (ix2 u k) = x (ix1 k) :=
  shapeCast_apply x h (ix2 u k) (ix1 k) (by
    rewrite [Shape.rowMajor_val_one, Shape.rowMajor_val_two]
    show k.val = u.val * b + k.val
    have hu : u.val = 0 := by have := u.isLt; omega
    rw [hu, Nat.zero_mul, Nat.zero_add])

/-- The pattern `0x3F800000` is the real number 1. -/
theorem one_word : Ideal.ofBits .f32 0x3F800000#32 = 1 := by
  simp [Ideal.ofBits, Ideal.ieee, -EReal.coe_mul]; norm_num

end Cert.LibLayoutRead
-- ==== Proof.LibRowBroadcast.lean ====
import Idealize.ShloMosaic.Lib.ValueLayout
import Idealize.ShloMosaic.Lib.Pipeline.Value

/-!
# One row repeated down the rows, by a `broadcast_in_dim`

A `[1, b]` array broadcast to `[a, b]` with both axes kept in place (dimensions `[0, 1]`: the operand's unit axis
stretched along the rows) reads, at `(p, q)`, the operand's one row at `q`, whatever the row `p` is — the form in which
a bias row reaches every row of a batch when it is added on the host. Any `a`, `b`.
-/

namespace Cert.LibRowBroadcast

open Idealize.ShloMosaic Idealize.ShloMosaic.ValueIdx

/-- One row `[1, b]` broadcast along the rows of `[a, b]` reads, at `(p, q)`, the row at `q`. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

end Cert.LibRowBroadcast
-- ==== Proof.LibSlabRead.lean ====
import Idealize.ShloMosaic.Lib.ValueIdx
import Idealize.ShloMosaic.Lib.Pipeline.Value
import Idealize.ShloMosaic.Lib.IdealHost
import Idealize.ShloMosaic.PureOps.Ideal.Laws
import proofs.«109972_j53034256171351_1_alg».proof.Proof.LibLayoutRead
import proofs.«109972_j53034256171351_1_alg».proof.Proof.LibRowBroadcast

/-!
# Slabs of stacked parameters and row sums, read at an index

One layer's weight matrix is slab `l` of a stack `[L, a, b]`: the slice of thickness one at offset `l`, re-laid as
`[a, b]`, and then transposed to `[b, a]`; at `(k, q)` it reads the stack at `(l, q, k)`. One layer's bias (gain, shift)
is row `l` of a stack `[L, b]`: the slice, re-laid as a vector `[b]`, stood up as a one-row matrix and repeated down
the rows of `[a, b]`; at `(p, q)` it reads the stack at `(l, q)`. The host's sum of an `[a, b]` array along axis 1 is,
at `p`, the initial value plus the sum over the row `p`.
-/

namespace Cert.LibSlabRead

open Idealize.ShloMosaic Idealize.ShloMosaic.ValueIdx
open scoped BigOperators

/-- Slab `l` of a stack of matrices, re-laid as a matrix and transposed, read at `(k, q)`: the stack at `(l, q, k)`. -/
theorem slabT_apply {α : Type} {L a b : ℕ} (w : (⟨3, ![L, a, b]⟩ : Shape).Idx → α) (off : Fin 3 → ℕ) (l : Fin L)
    (h0 : off 0 = l.val) (h1 : off 1 = 0) (h2 : off 2 = 0)
    (hs : (⟨3, ![L, a, b]⟩ : Shape).Slices off ⟨3, ![1, a, b]⟩)
    (hc : (⟨3, ![1, a, b]⟩ : Shape).ShapeCasts ⟨2, ![a, b]⟩)
    (ht : (⟨2, ![a, b]⟩ : Shape).Transposes [1, 0] ⟨2, ![b, a]⟩) (k : Fin b) (q : Fin a) :
    transpose ⟨2, ![b, a]⟩ [1, 0] (shapeCast ⟨2, ![a, b]⟩ (extractStridedSlice ⟨3, ![1, a, b]⟩ off w hs) hc) ht (ix2 k q)
      = w (ix3 l q k) := by
  rw [transpose_apply [1, 0] _ ht (ix2 k q) (ix2 q k) (fun c => match c with
    | ⟨0, _⟩ => rfl
    | ⟨1, _⟩ => rfl)]
  rw [shapeCast_apply _ hc (ix2 q k) (ix3 (0 : Fin 1) q k) (by
    rw [Shape.rowMajor_val_three, Shape.rowMajor_val_two]
    show ((0 : ℕ) * a + q.val) * b + k.val = q.val * b + k.val
    rw [Nat.zero_mul, Nat.zero_add])]
  exact extractStridedSlice_apply off w hs (ix3 (0 : Fin 1) q k) (ix3 l q k) (fun c => match c with
    | ⟨0, _⟩ => by show l.val = off 0 + (0 : ℕ); rw [h0, Nat.add_zero]
    | ⟨1, _⟩ => by show q.val = off 1 + q.val; rw [h1, Nat.zero_add]
    | ⟨2, _⟩ => by show k.val = off 2 + k.val; rw [h2, Nat.zero_add])

/-- Row `l` of a stack of rows, re-laid as a vector, stood up as a one-row matrix and repeated down the rows, read at
    `(p, q)`: the stack at `(l, q)`. -/
theorem slabRow_apply {α : Type} {L n b : ℕ} (v : (⟨2, ![L, b]⟩ : Shape).Idx → α) (off : Fin 2 → ℕ) (l : Fin L)
    (h0 : off 0 = l.val) (h1 : off 1 = 0)
    (hs : (⟨2, ![L, b]⟩ : Shape).Slices off ⟨2, ![1, b]⟩)
    (hc : (⟨2, ![1, b]⟩ : Shape).ShapeCasts ⟨1, ![b]⟩)
    (hr : (⟨1, ![b]⟩ : Shape).BroadcastsInDim ⟨2, ![1, b]⟩ ![1])
    (hb : (⟨2, ![1, b]⟩ : Shape).BroadcastsInDim ⟨2, ![n, b]⟩ ![0, 1]) (p : Fin n) (q : Fin b) :
    broadcastInDim ⟨2, ![n, b]⟩ ![0, 1] hb
        (broadcastInDim ⟨2, ![1, b]⟩ ![1] hr (shapeCast ⟨1, ![b]⟩ (extractStridedSlice ⟨2, ![1, b]⟩ off v hs) hc)) (ix2 p q)
      = v (ix2 l q) := by
  rw [Cert.LibRowBroadcast.broadcastInDim_1b_ab_apply, Cert.LibLayoutRead.row_apply]
  rw [shapeCast_apply _ hc (ix1 q) (ix2 (0 : Fin 1) q) (by
    rw [Shape.rowMajor_val_two, Shape.rowMajor_val_one]
    show (0 : ℕ) * b + q.val = q.val
    rw [Nat.zero_mul, Nat.zero_add])]
  exact extractStridedSlice_apply off v hs (ix2 (0 : Fin 1) q) (ix2 l q) (fun c => match c with
    | ⟨0, _⟩ => by show l.val = off 0 + (0 : ℕ); rw [h0, Nat.add_zero]
    | ⟨1, _⟩ => by show q.val = off 1 + q.val; rw [h1, Nat.zero_add])

/-- The host's sum of an `[a, b]` array along axis 1 is, at `p`, the initial value plus the sum over the row `p`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ q : Fin b, x (ix2 p q) := by
  rw [hostReduceAdd_apply, Ideal.hostReduceAdd_single h' h]
  show _ + ∑ q : Fin b, x (h.lift (ix1 p) q) = _
  refine congrArg _ (Finset.sum_congr rfl fun q _ => congrArg x ?_)
  funext c
  refine Fin.ext ?_
  match c with
  | ⟨0, _⟩ => rfl
  | ⟨1, _⟩ => rfl

/-- The pattern `0x43000000` is the real number 128. -/
theorem lanes_word : Ideal.ofBits .f32 0x43000000#32 = ((128 : ℝ) : EReal) := by
  simp [Ideal.ofBits, Ideal.ieee, -EReal.coe_mul]; norm_num

end Cert.LibSlabRead
-- ==== Proof.RefDense.lean ====
import proofs.«109972_j53034256171351_1_alg».proof.Proof.RefTerms
import proofs.«109972_j53034256171351_1_alg».proof.Proof.LibSlabRead
import proofs.«109972_j53034256171351_1_alg».proof.Proof.Spec
import proofs.«109972_j53034256171351_1_alg».proof.Proof.LibPlainDot
import proofs.«109972_j53034256171351_1_alg».proof.Proof.LibLayoutRead
import proofs.«109972_j53034256171351_1_alg».proof.Proof.LibRowBroadcast
import Idealize.ShloMosaic.Lib.IdealHost

/-!
# The reference's dense stage, index by index

Read at row `p` and lane `q`, the dense stage of one layer — written with the reference's host operations over the
layer's slabs of the stacked parameters — is the layer's formula: the positive part of the affine part of the row,
normalised over the 128 lanes, times the gain plus the shift.
-/

noncomputable section

namespace Cert.ReferenceIdeal.Hand

open Cert.ReferenceIdeal Cert.ReferenceIdeal.Gen Idealize.ShloMosaic Idealize.ShloMosaic.ValueIdx
open scoped BigOperators

/-- The rows of the features can be summed along the lanes. -/
theorem reduces_rows : S100000x128.Reduces [1] S100000 := by decide

/-- The positive part at an index. -/
theorem reluT_apply (a : FVec Ideal S100000x128 .f32) (p : Fin 100000) (q : Fin 128) :
    reluT a (ix2 p q) = max (a (ix2 p q)) 0 := by
  unfold reluT
  rw [maximumf_apply, Cert.LibLayoutRead.splat_apply, constant_apply, Ideal.ofBits_zero_f32]

/-- The mean column at a row: the mean of the row's lanes. -/
theorem meanT_apply (r : FVec Ideal S100000x128 .f32) (p : Fin 100000) (u : Fin 1) :
    meanT r (ix2 p u) = Cert.Spec.mean (fun q => r (ix2 p q)) := by
  unfold meanT Cert.Spec.mean Cert.Spec.lanes
  rw [hostDivf_apply, Cert.LibLayoutRead.column_apply, Cert.LibLayoutRead.splat_apply, constant_apply,
    Cert.LibSlabRead.hostRowSum_apply r _ _ reduces_rows _ p, constant_apply, Ideal.ofBits_zero_f32, zero_add]

/-- The variance's divisor is the literal 128: the integer correction 0 is the real number 0. -/
theorem dofT_apply (j : S_.Idx) : dofT j = Cert.Spec.lanes := by
  unfold dofT Cert.Spec.lanes
  rw [subf_apply, constant_apply, sitofp_apply]
  show Ideal.ofBits .f32 0x43000000#32 - (((0#32 : BitVec 32).toInt : ℝ) : EReal) = _
  rw [show (0#32 : BitVec 32).toInt = 0 from rfl, Int.cast_zero, EReal.coe_zero, sub_zero]

/-- The divisor is positive. -/
theorem lanes_pos : (0 : EReal) < Cert.Spec.lanes := by
  unfold Cert.Spec.lanes
  rw [Cert.LibSlabRead.lanes_word, ← EReal.coe_zero, EReal.coe_lt_coe_iff]
  norm_num

/-- The variance column at a row: the mean of the squared deviations of the row's lanes. -/
theorem varT_apply (r : FVec Ideal S100000x128 .f32) (p : Fin 100000) (u : Fin 1) :
    varT r (ix2 p u)
      = Cert.Spec.mean (fun q' => Cert.Spec.dev (fun q => r (ix2 p q)) q' * Cert.Spec.dev (fun q => r (ix2 p q)) q') := by
  unfold varT
  rw [select_apply, Cert.LibLayoutRead.splat_apply, cmpf_apply, dofT_apply, constant_apply, Ideal.ofBits_zero_f32,
    Ideal.cmpf_def]
  have hg : Ideal.cmp .ogt Cert.Spec.lanes 0 = 1#1 := by
    unfold Ideal.cmp
    rw [decide_eq_true lanes_pos]
    rfl
  rw [hg]
  show (if (1#1 : BitVec 1) = 1 then _ else _) = _
  rw [if_pos (by decide : (1#1 : BitVec 1) = 1), hostDivf_apply, Cert.LibLayoutRead.column_apply, Cert.LibLayoutRead.splat_apply, dofT_apply,
    Cert.LibSlabRead.hostRowSum_apply _ _ _ reduces_rows _ p, constant_apply, Ideal.ofBits_zero_f32, zero_add]
  unfold Cert.Spec.mean
  refine congrArg (fun s => Ideal.div s Cert.Spec.lanes) (Finset.sum_congr rfl fun q' _ => ?_)
  rw [mulf_apply, subf_apply, Cert.LibLayoutRead.alongCols_apply, meanT_apply]
  rfl

/-- The normalisation with the layer's gain and shift rows, at an index. -/
theorem normT_apply (r : FVec Ideal S100000x128 .f32) (g3 β3 : FVec Ideal S3x128 .f32) (off : Fin 2 → ℕ) (l : Fin 3)
    (h0 : off 0 = l.val) (h1 : off 1 = 0) (hs : S3x128.Slices off S1x128) (p : Fin 100000) (q : Fin 128) :
    normT r (rowOf off g3 hs) (rowOf off β3 hs) (ix2 p q)
      = Cert.Spec.norm (fun q => r (ix2 p q)) (fun q => Cert.Spec.slabRow g3 l (ix2 (0 : Fin 1) q))
          (fun q => Cert.Spec.slabRow β3 l (ix2 (0 : Fin 1) q)) q := by
  unfold normT rowOf Cert.Spec.norm
  rw [addf_apply, mulf_apply, mulf_apply, subf_apply, Cert.LibLayoutRead.alongCols_apply, meanT_apply,
    Cert.LibLayoutRead.alongCols_apply,
    Cert.LibSlabRead.slabRow_apply g3 off l h0 h1 hs, Cert.LibSlabRead.slabRow_apply β3 off l h0 h1 hs]
  show _ * Ideal.rsqrt (addf (varT r) _ (ix2 p (0 : Fin 1))) * _ + _ = _
  rw [addf_apply, varT_apply, Cert.LibLayoutRead.splat_apply, constant_apply]
  rfl

/-- Both products and the bias over the layer's slabs, at an index: the affine part of the row. -/
theorem affT_apply (n x : FVec Ideal S100000x128 .f32) (w3n w3r : FVec Ideal S3x128x128 .f32) (b3 : FVec Ideal S3x128 .f32)
    (offS : Fin 3 → ℕ) (offR : Fin 2 → ℕ) (l : Fin 3)
    (hS0 : offS 0 = l.val) (hS1 : offS 1 = 0) (hS2 : offS 2 = 0) (hR0 : offR 0 = l.val) (hR1 : offR 1 = 0)
    (hsS : S3x128x128.Slices offS S1x128x128) (hsR : S3x128.Slices offR S1x128) (p : Fin 100000) (q : Fin 128) :
    affT n x (sqOf offS w3n hsS) (sqOf offS w3r hsS) (rowOf offR b3 hsR) (ix2 p q)
      = Cert.Spec.affine n x (Cert.Spec.slabT w3n l) (Cert.Spec.slabT w3r l) (Cert.Spec.slabRow b3 l) p q := by
  unfold affT sqOf rowOf Cert.Spec.affine
  rw [addf_apply, addf_apply, Cert.LibSlabRead.slabRow_apply b3 offR l hR0 hR1 hsR]
  unfold Host.dotGeneral
  rw [Cert.LibPlainDot.dotGeneral_apply _ ⟨rfl, rfl, rfl, rfl, rfl, rfl⟩,
    Cert.LibPlainDot.dotGeneral_apply _ ⟨rfl, rfl, rfl, rfl, rfl, rfl⟩]
  refine congrArg₂ (· + ·) (congrArg₂ (· + ·) (Finset.sum_congr rfl fun k _ => ?_) (Finset.sum_congr rfl fun k _ => ?_)) rfl
  · rw [Cert.LibSlabRead.slabT_apply w3n offS l hS0 hS1 hS2 hsS]; rfl
  · rw [Cert.LibSlabRead.slabT_apply w3r offS l hS0 hS1 hS2 hsS]; rfl

/-- One layer's dense stage over slab `l` of the stacked parameters is the layer's formula. -/
theorem denseT_slab (n x : FVec Ideal S100000x128 .f32) (w3n w3r : FVec Ideal S3x128x128 .f32) (b3 g3 β3 : FVec Ideal S3x128 .f32)
    (offS : Fin 3 → ℕ) (offR : Fin 2 → ℕ) (l : Fin 3)
    (hS0 : offS 0 = l.val) (hS1 : offS 1 = 0) (hS2 : offS 2 = 0) (hR0 : offR 0 = l.val) (hR1 : offR 1 = 0)
    (hsS : S3x128x128.Slices offS S1x128x128) (hsR : S3x128.Slices offR S1x128) :
    denseT n x (sqOf offS w3n hsS) (sqOf offS w3r hsS) (rowOf offR b3 hsR) (rowOf offR g3 hsR) (rowOf offR β3 hsR)
      = Cert.Spec.combine n x (Cert.Spec.slabT w3n l) (Cert.Spec.slabT w3r l) (Cert.Spec.slabRow b3 l)
          (Cert.Spec.slabRow g3 l) (Cert.Spec.slabRow β3 l) := by
  funext i
  obtain ⟨p, q, rfl⟩ : ∃ (p : Fin 100000) (q : Fin 128), i = ix2 p q := ⟨i 0, i 1, eq_ix2 i⟩
  unfold denseT
  rw [Cert.Spec.combine_apply, normT_apply _ g3 β3 offR l hR0 hR1 hsR]
  refine congrArg (fun f => Cert.Spec.norm f _ _ q) (funext fun q' => ?_)
  rw [reluT_apply, affT_apply n x w3n w3r b3 offS offR l hS0 hS1 hS2 hR0 hR1 hsS hsR]

end Cert.ReferenceIdeal.Hand

end
-- ==== Proof.RefValue.lean ====
import proofs.«109972_j53034256171351_1_alg».proof.Proof.RefLayer
import proofs.«109972_j53034256171351_1_alg».proof.Proof.RefDense

/-!
# The reference's result: the three-layer network of the arguments

The reference's operations are its three layers' operations in order. Each layer leaves the argument buffers and
the edge list's two rows as they were and writes, to its result buffer, the layer's formula of its input (the
features for layer 0, the previous layer's result afterwards) over the aggregation and slab `l` of the stacked
parameters. Composed, the last result buffer holds the network of the arguments, and the arguments are unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

local notation "𝕍" => Valuation τ sig (Elt Ideal)
local notation "r[" x "]" => (x : DevRef τ sig)

/-! ## What each layer's operations leave unchanged -/

/-- The eight argument buffers hold the same contents in both valuations. -/
def SameArgs (W' W : 𝕍) : Prop :=
  W' r[main_arg0] = W r[main_arg0] ∧ W' r[main_arg1] = W r[main_arg1] ∧ W' r[main_arg2] = W r[main_arg2] ∧
  W' r[main_arg3] = W r[main_arg3] ∧ W' r[main_arg4] = W r[main_arg4] ∧ W' r[main_arg5] = W r[main_arg5] ∧
  W' r[main_arg6] = W r[main_arg6] ∧ W' r[main_arg7] = W r[main_arg7]

set_option maxHeartbeats 4000000 in
set_option maxRecDepth 8192 in
/-- Layer 0 writes no argument buffer. -/
theorem opsA_args (W : 𝕍) : SameArgs (after (opsA (F := Ideal)) W) W := by
  unfold SameArgs
  simp only [opsA, after_append]
  refine ⟨?_, ?_, ?_, ?_, ?_, ?_, ?_, ?_⟩ <;> after_results_simp

set_option maxHeartbeats 4000000 in
set_option maxRecDepth 8192 in
/-- Layer 1 writes no argument buffer. -/
theorem opsB_args (W : 𝕍) : SameArgs (after (opsB (F := Ideal)) W) W := by
  unfold SameArgs
  simp only [opsB, after_append]
  refine ⟨?_, ?_, ?_, ?_, ?_, ?_, ?_, ?_⟩ <;> after_results_simp

set_option maxHeartbeats 4000000 in
set_option maxRecDepth 8192 in
/-- Layer 2 writes no argument buffer. -/
theorem opsC_args (W : 𝕍) : SameArgs (after (opsC (F := Ideal)) W) W := by
  unfold SameArgs
  simp only [opsC, after_append]
  refine ⟨?_, ?_, ?_, ?_, ?_, ?_, ?_, ?_⟩ <;> after_results_simp

set_option maxHeartbeats 4000000 in
set_option maxRecDepth 8192 in
/-- Layer 1 leaves the edge list's two rows where layer 0 put them. -/
theorem opsB_rows (W : 𝕍) :
    after (opsB (F := Ideal)) W r[main_v1] = W r[main_v1] ∧ after (opsB (F := Ideal)) W r[main_v3] = W r[main_v3] := by
  simp only [opsB, after_append]
  refine ⟨?_, ?_⟩ <;> after_results_simp

/-! ## Layer 0 -/

set_option maxHeartbeats 4000000 in
set_option maxRecDepth 8192 in
/-- Layer 0 leaves the edge list's two rows cut out of the edge list. -/
theorem opsA_rows (W : 𝕍) :
    after (opsA (F := Ideal)) W r[main_v1] = srcOf (W r[main_arg1]) ∧ after (opsA (F := Ideal)) W r[main_v3] = dstOf (W r[main_arg1]) := by
  have h1 : ∀ W' : 𝕍, after (seg03 (F := Ideal)) (after (seg02 (F := Ideal)) (after (seg01 (F := Ideal)) W')) r[main_v1] = W' r[main_v1] :=
    fun W' => by after_results_simp
  have h3 : ∀ W' : 𝕍, after (seg03 (F := Ideal)) (after (seg02 (F := Ideal)) (after (seg01 (F := Ideal)) W')) r[main_v3] = W' r[main_v3] :=
    fun W' => by after_results_simp
  simp only [opsA, after_append]
  rw [h1, h3, seg00_v1, seg00_v3]
  exact ⟨rfl, rfl⟩

/-- Layer 0's result: the layer's formula of the features. -/
theorem layerA_val (W : 𝕍) :
    after (opsA (F := Ideal)) W r[main_v60]
      = Cert.Spec.layer (fun x => aggR x (W r[main_arg1]) (W r[main_arg2])) 0 (W r[main_arg0]) (W r[main_arg3]) (W r[main_arg4])
          (W r[main_arg5]) (W r[main_arg6]) (W r[main_arg7]) := by
  simp only [opsA, after_append]
  rw [restA_v60, seg00_v1, seg00_v3, seg00_v5, seg00_v7, seg00_v9, seg00_v11, seg00_v13, seg00_arg0, seg00_arg2]
  exact denseT_slab _ _ _ _ _ _ _ ![0, 0, 0] ![0, 0] 0 rfl rfl rfl rfl rfl _ _

/-! ## Layer 1 -/

/-- Layer 1's result: the layer's formula of layer 0's result, once the edge list's rows are in their buffers. -/
theorem layerB_val (W : 𝕍) (h1 : W r[main_v1] = srcOf (W r[main_arg1])) (h3 : W r[main_v3] = dstOf (W r[main_arg1])) :
    after (opsB (F := Ideal)) W r[main_v117]
      = Cert.Spec.layer (fun x => aggR x (W r[main_arg1]) (W r[main_arg2])) 1 (W r[main_v60]) (W r[main_arg3]) (W r[main_arg4])
          (W r[main_arg5]) (W r[main_arg6]) (W r[main_arg7]) := by
  simp only [opsB, after_append]
  rw [restB_v117, seg04_v60, seg04_v1, seg04_v3, seg04_arg2, seg04_v62, seg04_v64, seg04_v66, seg04_v68, seg04_v70, h1, h3]
  exact denseT_slab _ _ _ _ _ _ _ ![1, 0, 0] ![1, 0] 1 rfl rfl rfl rfl rfl _ _

/-! ## Layer 2 -/

/-- Layer 2's result: the layer's formula of layer 1's result, once the edge list's rows are in their buffers. -/
theorem layerC_val (W : 𝕍) (h1 : W r[main_v1] = srcOf (W r[main_arg1])) (h3 : W r[main_v3] = dstOf (W r[main_arg1])) :
    after (opsC (F := Ideal)) W r[main_v174]
      = Cert.Spec.layer (fun x => aggR x (W r[main_arg1]) (W r[main_arg2])) 2 (W r[main_v117]) (W r[main_arg3]) (W r[main_arg4])
          (W r[main_arg5]) (W r[main_arg6]) (W r[main_arg7]) := by
  simp only [opsC, after_append]
  rw [restC_v174, seg08_v117, seg08_v1, seg08_v3, seg08_arg2, seg08_v119, seg08_v121, seg08_v123, seg08_v125, seg08_v127, h1, h3]
  exact denseT_slab _ _ _ _ _ _ _ ![2, 0, 0] ![2, 0] 2 rfl rfl rfl rfl rfl _ _

/-! ## The whole program -/

/-- The program's operations are the three layers' in order. -/
theorem after_ops (V : 𝕍) : after (ops (F := Ideal)) V = after opsC (after opsB (after opsA V)) := by
  show after ((opsA ++ opsB) ++ opsC) V = _
  rw [after_append (opsA ++ opsB) opsC, after_append opsA opsB]

/-- The program writes no argument buffer. -/
theorem ops_args (V : 𝕍) : SameArgs (after (ops (F := Ideal)) V) V := by
  rw [after_ops]
  obtain ⟨a0, a1, a2, a3, a4, a5, a6, a7⟩ := opsA_args V
  obtain ⟨b0, b1, b2, b3, b4, b5, b6, b7⟩ := opsB_args (after opsA V)
  obtain ⟨c0, c1, c2, c3, c4, c5, c6, c7⟩ := opsC_args (after opsB (after opsA V))
  exact ⟨c0.trans (b0.trans a0), c1.trans (b1.trans a1), c2.trans (b2.trans a2), c3.trans (b3.trans a3),
    c4.trans (b4.trans a4), c5.trans (b5.trans a5), c6.trans (b6.trans a6), c7.trans (b7.trans a7)⟩

/-- The result buffer after the program: the network of the arguments. -/
theorem out_eq (V : 𝕍) :
    after (ops (F := Ideal)) V r[main_v174]
      = Cert.Spec.net (fun x => aggR x (V r[main_arg1]) (V r[main_arg2])) (V r[main_arg0]) (V r[main_arg3]) (V r[main_arg4])
          (V r[main_arg5]) (V r[main_arg6]) (V r[main_arg7]) := by
  obtain ⟨-, a1, a2, a3, a4, a5, a6, a7⟩ := opsA_args V
  obtain ⟨-, b1, b2, b3, b4, b5, b6, b7⟩ := opsB_args (after opsA V)
  obtain ⟨ar1, ar3⟩ := opsA_rows V
  obtain ⟨br1, br3⟩ := opsB_rows (after opsA V)
  have hA1 : after (opsA (F := Ideal)) V r[main_v1] = srcOf (after (opsA (F := Ideal)) V r[main_arg1]) := by rw [ar1, a1]
  have hA3 : after (opsA (F := Ideal)) V r[main_v3] = dstOf (after (opsA (F := Ideal)) V r[main_arg1]) := by rw [ar3, a1]
  have hB1 : after (opsB (F := Ideal)) (after opsA V) r[main_v1] = srcOf (after (opsB (F := Ideal)) (after opsA V) r[main_arg1]) := by
    rw [br1, b1, hA1]
  have hB3 : after (opsB (F := Ideal)) (after opsA V) r[main_v3] = dstOf (after (opsB (F := Ideal)) (after opsA V) r[main_arg1]) := by
    rw [br3, b1, hA3]
  rw [after_ops, layerC_val _ hB1 hB3, layerB_val _ hA1 hA3, layerA_val, b1, b2, b3, b4, b5, b6, b7, a1, a2, a3, a4, a5, a6, a7]
  rfl

theorem arg0_eq (V : 𝕍) : after (ops (F := Ideal)) V r[main_arg0] = V r[main_arg0] := (ops_args V).1
theorem arg1_eq (V : 𝕍) : after (ops (F := Ideal)) V r[main_arg1] = V r[main_arg1] := (ops_args V).2.1
theorem arg2_eq (V : 𝕍) : after (ops (F := Ideal)) V r[main_arg2] = V r[main_arg2] := (ops_args V).2.2.1
theorem arg3_eq (V : 𝕍) : after (ops (F := Ideal)) V r[main_arg3] = V r[main_arg3] := (ops_args V).2.2.2.1
theorem arg4_eq (V : 𝕍) : after (ops (F := Ideal)) V r[main_arg4] = V r[main_arg4] := (ops_args V).2.2.2.2.1
theorem arg5_eq (V : 𝕍) : after (ops (F := Ideal)) V r[main_arg5] = V r[main_arg5] := (ops_args V).2.2.2.2.2.1
theorem arg6_eq (V : 𝕍) : after (ops (F := Ideal)) V r[main_arg6] = V r[main_arg6] := (ops_args V).2.2.2.2.2.2.1
theorem arg7_eq (V : 𝕍) : after (ops (F := Ideal)) V r[main_arg7] = V r[main_arg7] := (ops_args V).2.2.2.2.2.2.2

end Cert.ReferenceIdeal.Hand

end
-- ==== Proof.Bridge.lean ====
/-
  The two programs aggregate the node features over the edges with the same host operations: the features gathered at
  the edges' sources, scaled by the edge weights, added up at the edges' targets, and divided by the targets' summed
  weights clipped below at one. The two texts differ in the order of the two factors of the scaling product, which
  commute over the extended reals, and in the names under which they record the same dimension numbers. So the two
  aggregates are one function of the features, the edge list and the edge weights.
-/
import proofs.«109972_j53034256171351_1_alg».proof.Proof.KerHostDefs
import proofs.«109972_j53034256171351_1_alg».proof.Proof.RefTerms
import Idealize.ShloMosaic.Lib.ValueIdx

set_option maxRecDepth 16384

noncomputable section

namespace Cert.Bridge

open Idealize.ShloMosaic Idealize.ShloMosaic.ValueIdx

/-- A product of two arrays over the extended reals does not depend on the order of its factors. -/
theorem mulf_comm {s : Shape} {φ : FTy} (a b : FVec Ideal s φ) : mulf a b = mulf b a :=
  funext fun i => by rw [mulf_apply, mulf_apply, mul_comm]

/-- The two programs' dimension numbers of the gather of rows are the same record. -/
theorem gather_eq :
    Cert.KernelIdeal.gather_S100000x128_S1600000x1_S1600000x128_1_0_n_n_0_1_1128
      = Cert.ReferenceIdeal.gather_S100000x128_S1600000x1_S1600000x128_1_0_n_n_0_1_1128 := rfl

/-- The two programs' dimension numbers of the scatter of rows are the same record. -/
theorem scatterRows_eq :
    Cert.KernelIdeal.scatter_S100000x128_S1600000x1_S1600000x128_1_0_0_1
      = Cert.ReferenceIdeal.scatter_S100000x128_S1600000x1_S1600000x128_1_0_0_1 := rfl

/-- The two programs' dimension numbers of the scatter of weights are the same record. -/
theorem scatterW_eq :
    Cert.KernelIdeal.scatter_S100000_S1600000x1_S1600000_n_0_0_1
      = Cert.ReferenceIdeal.scatter_S100000_S1600000x1_S1600000_n_0_0_1 := rfl

/-- The two programs read the edges' sources off the edge list alike. -/
theorem srcOf_eq (ei : Cert.KernelIdeal.Stretch.EdgePair) :
    Cert.KernelIdeal.Stretch.srcOf ei = Cert.ReferenceIdeal.Hand.srcOf ei := rfl

/-- The two programs read the edges' targets off the edge list alike. -/
theorem dstOf_eq (ei : Cert.KernelIdeal.Stretch.EdgePair) :
    Cert.KernelIdeal.Stretch.dstOf ei = Cert.ReferenceIdeal.Hand.dstOf ei := rfl

attribute [local irreducible] Host.scatterAdd Host.gather Host.divf

/-- The two programs' aggregates are the same function of the features, the edge list and the edge weights. -/
theorem agg_eq (x : Cert.Spec.Nodes.Idx → EReal) (ei : Cert.KernelIdeal.Stretch.EdgePair)
    (ew : FVec Ideal Cert.KernelIdeal.S1600000 .f32) :
    Cert.KernelIdeal.Stretch.aggK x (Cert.KernelIdeal.Stretch.srcOf ei) (Cert.KernelIdeal.Stretch.dstOf ei) ew
      = Cert.ReferenceIdeal.Hand.aggR x ei ew := by
  unfold Cert.ReferenceIdeal.Hand.aggR Cert.ReferenceIdeal.Hand.aggT Cert.KernelIdeal.Stretch.aggK
    Cert.KernelIdeal.Stretch.sumMsg Cert.KernelIdeal.Stretch.sumW
  rw [srcOf_eq, dstOf_eq, gather_eq, scatterRows_eq, scatterW_eq, id_eq, mulf_comm]

end Cert.Bridge

end
-- ==== Proof.Claims.lean ====
/-
  The claims. The idealized kernel program ends with its result buffer at the three-layer network of its argument
  arrays (the kernel's run and the chain of block and host reads); the idealized reference ends with its result at the
  same network of ITS argument arrays (the reference's run read back layer by layer). The two networks are one function:
  the dense stage is the same specification on both sides, and the aggregation — the same host operations in both
  programs, the message product commuted — is the same function of the features, the edge list and the weights. No
  step moves a factor across a sum, so the finiteness of the inputs is not used.
-/
import proofs.«109972_j53034256171351_1_alg».proof.Defs
import proofs.«109972_j53034256171351_1_alg».proof.Proof.Gen.Kernel.Frame
import proofs.«109972_j53034256171351_1_alg».proof.Proof.Gen.KernelIdeal.Frame
import proofs.«109972_j53034256171351_1_alg».proof.Proof.Gen.ReferenceIdeal
import proofs.«109972_j53034256171351_1_alg».proof.Proof.Gen.Pre_finite_inputs
import proofs.«109972_j53034256171351_1_alg».proof.Proof.KerRun
import proofs.«109972_j53034256171351_1_alg».proof.Proof.KerValue
import proofs.«109972_j53034256171351_1_alg».proof.Proof.RefValue
import proofs.«109972_j53034256171351_1_alg».proof.Proof.Bridge

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped: no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.arg0_eq _), (h c Cert.ReferenceIdeal.main_arg1).trans (Cert.ReferenceIdeal.Hand.arg1_eq _),
     (h c Cert.ReferenceIdeal.main_arg2).trans (Cert.ReferenceIdeal.Hand.arg2_eq _), (h c Cert.ReferenceIdeal.main_arg3).trans (Cert.ReferenceIdeal.Hand.arg3_eq _),
     (h c Cert.ReferenceIdeal.main_arg4).trans (Cert.ReferenceIdeal.Hand.arg4_eq _), (h c Cert.ReferenceIdeal.main_arg5).trans (Cert.ReferenceIdeal.Hand.arg5_eq _),
     (h c Cert.ReferenceIdeal.main_arg6).trans (Cert.ReferenceIdeal.Hand.arg6_eq _), (h c Cert.ReferenceIdeal.main_arg7).trans (Cert.ReferenceIdeal.Hand.arg7_eq _)⟩)
    (Cert.ReferenceIdeal.Hand.run_main (F := Ideal) m ρ)

/-- The claim's statement is `True`: the ledger of the ideal pass, as the statement records it, has no entry. -/
theorem preserves : Cert.preserves_Kernel_KernelIdeal := trivial

/-- The two networks agree when the argument arrays do. -/
theorem net_agree {x x' : Cert.Spec.Nodes.Idx → EReal} {ei ei' : Cert.KernelIdeal.Stretch.EdgePair} {ew ew' : FVec Ideal Cert.KernelIdeal.S1600000 .f32}
    {wn wn' wr wr' : Cert.Spec.Sq3.Idx → EReal} {b b' g g' β β' : Cert.Spec.Row3.Idx → EReal}
    (h0 : x' = x) (h1 : ei' = ei) (h2 : ew' = ew) (h3 : wn' = wn) (h4 : wr' = wr) (h5 : b' = b) (h6 : g' = g) (h7 : β' = β) :
    Cert.Spec.net (fun y => Cert.ReferenceIdeal.Hand.aggR y ei' ew') x' wn' wr' b' g' β'
      = Cert.Spec.net (fun y => Cert.KernelIdeal.Stretch.aggK y (Cert.KernelIdeal.Stretch.srcOf ei) (Cert.KernelIdeal.Stretch.dstOf ei) ew) x wn wr b g β := by
  subst h0 h1 h2 h3 h4 h5 h6 h7
  exact congrArg (fun A => Cert.Spec.net A x' wn' wr' b' g' β') (funext fun y => (Cert.Bridge.agg_eq y ei' ew').symm)

theorem algebraic : Cert.algebraic_KernelIdeal_ReferenceIdeal := by
  intro m ρ m' ρ' _ hagree
  refine ⟨fun c => Cert.KernelIdeal.Gen.W12 m ρ c (Proc.devRef .tc Cert.KernelIdeal.main_v111), Cert.KernelIdeal.Hand.run_result m ρ, ?_⟩
  refine (θ_run Cert.ReferenceIdeal.defs _ _).mono (fun r h c =>
    ⟨?_, (h c Cert.ReferenceIdeal.main_arg0).trans (Cert.ReferenceIdeal.Hand.arg0_eq _), (h c Cert.ReferenceIdeal.main_arg1).trans (Cert.ReferenceIdeal.Hand.arg1_eq _),
     (h c Cert.ReferenceIdeal.main_arg2).trans (Cert.ReferenceIdeal.Hand.arg2_eq _), (h c Cert.ReferenceIdeal.main_arg3).trans (Cert.ReferenceIdeal.Hand.arg3_eq _),
     (h c Cert.ReferenceIdeal.main_arg4).trans (Cert.ReferenceIdeal.Hand.arg4_eq _), (h c Cert.ReferenceIdeal.main_arg5).trans (Cert.ReferenceIdeal.Hand.arg5_eq _),
     (h c Cert.ReferenceIdeal.main_arg6).trans (Cert.ReferenceIdeal.Hand.arg6_eq _), (h c Cert.ReferenceIdeal.main_arg7).trans (Cert.ReferenceIdeal.Hand.arg7_eq _)⟩)
    (Cert.ReferenceIdeal.Hand.run_main (F := Ideal) m' ρ')
  obtain ⟨h0, h1, h2, h3, h4, h5, h6, h7⟩ := hagree c
  refine (h c Cert.ReferenceIdeal.main_v174).trans ((Cert.ReferenceIdeal.Hand.out_eq _).trans ?_)
  refine Eq.trans ?_ (Cert.KernelIdeal.Whole.result_eq m ρ c).symm
  exact net_agree h0 h1 h2 h3 h4 h5 h6 h7

end Cert.Proof.Claims

end
-- ==== Proof.lean ====
/-
  `Cert.Claim` for the three-layer graph network: a Pallas kernel for each layer's dense stage (two matrix products, a
  bias, the positive part, a layer normalisation over the 128 lanes) launched three times among host operations that
  aggregate each node's in-neighbours, against the same network written in plain array operations. At the ideal
  instance both compute, layer by layer, the same function of the argument arrays: `Proof/Spec.lean` states it,
  `Proof/Claims.lean` proves the five conjuncts.
-/
import proofs.«109972_j53034256171351_1_alg».proof.Defs
import proofs.«109972_j53034256171351_1_alg».proof.Proof.Gen.Kernel
import proofs.«109972_j53034256171351_1_alg».proof.Proof.Gen.Kernel.Skeleton
import proofs.«109972_j53034256171351_1_alg».proof.Proof.Gen.Kernel.Launch
import proofs.«109972_j53034256171351_1_alg».proof.Proof.Gen.Kernel.Points
import proofs.«109972_j53034256171351_1_alg».proof.Proof.Gen.Kernel.Frame
import proofs.«109972_j53034256171351_1_alg».proof.Proof.Gen.KernelIdeal
import proofs.«109972_j53034256171351_1_alg».proof.Proof.Gen.KernelIdeal.Skeleton
import proofs.«109972_j53034256171351_1_alg».proof.Proof.Gen.KernelIdeal.Launch
import proofs.«109972_j53034256171351_1_alg».proof.Proof.Gen.KernelIdeal.Points
import proofs.«109972_j53034256171351_1_alg».proof.Proof.Gen.KernelIdeal.Frame
import proofs.«109972_j53034256171351_1_alg».proof.Proof.Gen.ReferenceIdeal
import proofs.«109972_j53034256171351_1_alg».proof.Proof.Gen.Pre_finite_inputs
import proofs.«109972_j53034256171351_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
